-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v401) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S56x56x64 : Shape := ⟨3, ![56, 56, 64]⟩
abbrev S28x28x128 : Shape := ⟨3, ![28, 28, 128]⟩
abbrev S14x14x256 : Shape := ⟨3, ![14, 14, 256]⟩
abbrev S7x7x512 : Shape := ⟨3, ![7, 7, 512]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S56x56x64 : S_.BroadcastsInDim S56x56x64 (![] : Fin 0 → Fin S56x56x64.rank)
  reducesTo_S56x56x64_S_d0_1_2 : S56x56x64.ReducesTo [0, 1, 2] S_
  bcast_S_S28x28x128 : S_.BroadcastsInDim S28x28x128 (![] : Fin 0 → Fin S28x28x128.rank)
  reducesTo_S28x28x128_S_d0_1_2 : S28x28x128.ReducesTo [0, 1, 2] S_
  bcast_S_S14x14x256 : S_.BroadcastsInDim S14x14x256 (![] : Fin 0 → Fin S14x14x256.rank)
  reducesTo_S14x14x256_S_d0_1_2 : S14x14x256.ReducesTo [0, 1, 2] S_
  bcast_S_S7x7x512 : S_.BroadcastsInDim S7x7x512 (![] : Fin 0 → Fin S7x7x512.rank)
  reducesTo_S7x7x512_S_d0_1_2 : S7x7x512.ReducesTo [0, 1, 2] S_

variable [Facts]

def fn_part1 {F : FTy → Type} [FloatOps F] (main_arg4 : FVec F S7x7x512 .f32) (main_v13 : IVec S_ 1) (main_v16 : IVec S14x14x256 1) : IVec S_ 1 :=
  let main_c_5 : IVec S_ 1 := constantI S_ 1 1#1
  let main_v17 : IVec S_ 1 := (fun x v => Host.reduce IntOp.andi x v reducesTo_S14x14x256_S_d0_1_2 h_S_) main_v16 main_c_5
  let main_v18 : IVec S_ 1 := andi main_v13 main_v17
  let main_v19 : FVec F S7x7x512 .f32 := Host.absf main_arg4
  let main_cst_6 : FVec F S_ .f32 := constant S_ .f32 0x7F800000#32
  let main_v20 : FVec F S7x7x512 .f32 := broadcastInDim S7x7x512 ![] bcast_S_S7x7x512 main_cst_6
  let main_v21 : IVec S7x7x512 1 := cmpf .olt main_v19 main_v20
  let main_c_7 : IVec S_ 1 := constantI S_ 1 1#1
  let main_v22 : IVec S_ 1 := (fun x v => Host.reduce IntOp.andi x v reducesTo_S7x7x512_S_d0_1_2 h_S_) main_v21 main_c_7
  let main_v23 : IVec S_ 1 := andi main_v18 main_v22
  main_v23

def fn {F : FTy → Type} [FloatOps F] (main_arg0 : FVec F S100000x3 .f32) (main_arg1 : FVec F S56x56x64 .f32) (main_arg2 : FVec F S28x28x128 .f32) (main_arg3 : FVec F S14x14x256 .f32) (main_arg4 : FVec F S7x7x512 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S56x56x64 .f32 := Host.absf main_arg1
  let main_cst_0 : FVec F S_ .f32 := constant S_ .f32 0x7F800000#32
  let main_v5 : FVec F S56x56x64 .f32 := broadcastInDim S56x56x64 ![] bcast_S_S56x56x64 main_cst_0
  let main_v6 : IVec S56x56x64 1 := cmpf .olt main_v4 main_v5
  let main_c_1 : IVec S_ 1 := constantI S_ 1 1#1
  let main_v7 : IVec S_ 1 := (fun x v => Host.reduce IntOp.andi x v reducesTo_S56x56x64_S_d0_1_2 h_S_) main_v6 main_c_1
  let main_v8 : IVec S_ 1 := andi main_v3 main_v7
  let main_v9 : FVec F S28x28x128 .f32 := Host.absf main_arg2
  let main_cst_2 : FVec F S_ .f32 := constant S_ .f32 0x7F800000#32
  let main_v10 : FVec F S28x28x128 .f32 := broadcastInDim S28x28x128 ![] bcast_S_S28x28x128 main_cst_2
  let main_v11 : IVec S28x28x128 1 := cmpf .olt main_v9 main_v10
  let main_c_3 : IVec S_ 1 := constantI S_ 1 1#1
  let main_v12 : IVec S_ 1 := (fun x v => Host.reduce IntOp.andi x v reducesTo_S28x28x128_S_d0_1_2 h_S_) main_v11 main_c_3
  let main_v13 : IVec S_ 1 := andi main_v8 main_v12
  let main_v14 : FVec F S14x14x256 .f32 := Host.absf main_arg3
  let main_cst_4 : FVec F S_ .f32 := constant S_ .f32 0x7F800000#32
  let main_v15 : FVec F S14x14x256 .f32 := broadcastInDim S14x14x256 ![] bcast_S_S14x14x256 main_cst_4
  let main_v16 : IVec S14x14x256 1 := cmpf .olt main_v14 main_v15
  fn_part1 (F := F) main_arg4 main_v13 main_v16
-- ==== Kernel.lean ====
abbrev S100000x3 : Shape := ⟨2, ![100000, 3]⟩
abbrev S56x56x64 : Shape := ⟨3, ![56, 56, 64]⟩
abbrev S28x28x128 : Shape := ⟨3, ![28, 28, 128]⟩
abbrev S14x14x256 : Shape := ⟨3, ![14, 14, 256]⟩
abbrev S7x7x512 : Shape := ⟨3, ![7, 7, 512]⟩
abbrev S3136x64 : Shape := ⟨2, ![3136, 64]⟩
abbrev S784x128 : Shape := ⟨2, ![784, 128]⟩
abbrev S196x256 : Shape := ⟨2, ![196, 256]⟩
abbrev S49x512 : Shape := ⟨2, ![49, 512]⟩
abbrev S100000x64 : Shape := ⟨2, ![100000, 64]⟩
abbrev S100000x128 : Shape := ⟨2, ![100000, 128]⟩
abbrev S100000x256 : Shape := ⟨2, ![100000, 256]⟩
abbrev S100000x512 : Shape := ⟨2, ![100000, 512]⟩
abbrev S200x3 : Shape := ⟨2, ![200, 3]⟩
abbrev S200x64 : Shape := ⟨2, ![200, 64]⟩
abbrev S200x128 : Shape := ⟨2, ![200, 128]⟩
abbrev S200x256 : Shape := ⟨2, ![200, 256]⟩
abbrev S200x512 : Shape := ⟨2, ![200, 512]⟩
abbrev S200x1 : Shape := ⟨2, ![200, 1]⟩
abbrev S200 : Shape := ⟨1, ![200]⟩
abbrev S200x3136 : Shape := ⟨2, ![200, 3136]⟩
abbrev S200x784 : Shape := ⟨2, ![200, 784]⟩
abbrev S200x196 : Shape := ⟨2, ![200, 196]⟩
abbrev S200x49 : Shape := ⟨2, ![200, 49]⟩
abbrev S100000x963 : Shape := ⟨2, ![100000, 963]⟩

abbrev nBuf : Space → Nat
  | .hbm => 14
  | .vmem => 14
  | .smem => 0
  | _ => 0

abbrev bufTy : (tb : Table) → Fin (tcTables nBuf tb) → BufTy
  | .hbm, ⟨0, _⟩ => ⟨S100000x3, .f32⟩
  | .hbm, ⟨1, _⟩ => ⟨S56x56x64, .f32⟩
  | .hbm, ⟨2, _⟩ => ⟨S28x28x128, .f32⟩
  | .hbm, ⟨3, _⟩ => ⟨S14x14x256, .f32⟩
  | .hbm, ⟨4, _⟩ => ⟨S7x7x512, .f32⟩
  | .hbm, ⟨5, _⟩ => ⟨S3136x64, .f32⟩
  | .hbm, ⟨6, _⟩ => ⟨S784x128, .f32⟩
  | .hbm, ⟨7, _⟩ => ⟨S196x256, .f32⟩
  | .hbm, ⟨8, _⟩ => ⟨S49x512, .f32⟩
  | .hbm, ⟨9, _⟩ => ⟨S100000x64, .f32⟩
  | .hbm, ⟨10, _⟩ => ⟨S100000x128, .f32⟩
  | .hbm, ⟨11, _⟩ => ⟨S100000x256, .f32⟩
  | .hbm, ⟨12, _⟩ => ⟨S100000x512, .f32⟩
  | .hbm, ⟨13, _⟩ => ⟨S100000x963, .f32⟩
  | .local _ .vmem, ⟨0, _⟩ => ⟨S200x3, .f32⟩
  | .local _ .vmem, ⟨1, _⟩ => ⟨S200x3, .f32⟩
  | .local _ .vmem, ⟨2, _⟩ => ⟨S3136x64, .f32⟩
  | .local _ .vmem, ⟨3, _⟩ => ⟨S784x128, .f32⟩
  | .local _ .vmem, ⟨4, _⟩ => ⟨S196x256, .f32⟩
  | .local _ .vmem, ⟨5, _⟩ => ⟨S49x512, .f32⟩
  | .local _ .vmem, ⟨6, _⟩ => ⟨S200x64, .f32⟩
  | .local _ .vmem, ⟨7, _⟩ => ⟨S200x64, .f32⟩
  | .local _ .vmem, ⟨8, _⟩ => ⟨S200x128, .f32⟩
  | .local _ .vmem, ⟨9, _⟩ => ⟨S200x128, .f32⟩
  | .local _ .vmem, ⟨10, _⟩ => ⟨S200x256, .f32⟩
  | .local _ .vmem, ⟨11, _⟩ => ⟨S200x256, .f32⟩
  | .local _ .vmem, ⟨12, _⟩ => ⟨S200x512, .f32⟩
  | .local _ .vmem, ⟨13, _⟩ => ⟨S200x512, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3136x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S784x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S196x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S49x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S200x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S200x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S56x56x64_S3136x64 : S56x56x64.ShapeCasts S3136x64
  shapeCasts_S28x28x128_S784x128 : S28x28x128.ShapeCasts S784x128
  shapeCasts_S14x14x256_S196x256 : S14x14x256.ShapeCasts S196x256
  shapeCasts_S7x7x512_S49x512 : S7x7x512.ShapeCasts S49x512
  inb_S200x3_S200x3_0_0 : ∀ a, (![0, 0] : Fin 2 → Nat) a + S200x3.size a ≤ S200x3.size a
  h_S200x3 : 0 < S200x3.numel
  slices_S200x3_o0_0_S200x1 : S200x3.Slices ![0, 0] S200x1
  shapeCasts_S200x1_S200 : S200x1.ShapeCasts S200
  slices_S200x3_o0_1_S200x1 : S200x3.Slices ![0, 1] S200x1
  slices_S200x3_o0_2_S200x1 : S200x3.Slices ![0, 2] S200x1
  inb_S3136x64_S3136x64_0_0 : ∀ a, (![0, 0] : Fin 2 → Nat) a + S3136x64.size a ≤ S3136x64.size a
  h_S3136x64 : 0 < S3136x64.numel
  shapeCasts_S3136x64_S3136x64 : S3136x64.ShapeCasts S3136x64
  iota_S200x3136_d1_w32 : S200x3136.Iotas .tc 32 [1]
  shapeCasts_S200_S200x1 : S200.ShapeCasts S200x1
  broadcasts_S200x1_S200x3136 : S200x1.Broadcasts S200x3136
  shapeCasts_S200x1_S200x1 : S200x1.ShapeCasts S200x1
  inb_S200x64_S200x64_0_0 : ∀ a, (![0, 0] : Fin 2 → Nat) a + S200x64.size a ≤ S200x64.size a
  h_S200x64 : 0 < S200x64.numel
  inb_S784x128_S784x128_0_0 : ∀ a, (![0, 0] : Fin 2 → Nat) a + S784x128.size a ≤ S784x128.size a
  h_S784x128 : 0 < S784x128.numel
  shapeCasts_S784x128_S784x128 : S784x128.ShapeCasts S784x128
  iota_S200x784_d1_w32 : S200x784.Iotas .tc 32 [1]
  broadcasts_S200x1_S200x784 : S200x1.Broadcasts S200x784
  inb_S200x128_S200x128_0_0 : ∀ a, (![0, 0] : Fin 2 → Nat) a + S200x128.size a ≤ S200x128.size a
  h_S200x128 : 0 < S200x128.numel
  inb_S196x256_S196x256_0_0 : ∀ a, (![0, 0] : Fin 2 → Nat) a + S196x256.size a ≤ S196x256.size a
  h_S196x256 : 0 < S196x256.numel
  shapeCasts_S196x256_S196x256 : S196x256.ShapeCasts S196x256
  iota_S200x196_d1_w32 : S200x196.Iotas .tc 32 [1]
  broadcasts_S200x1_S200x196 : S200x1.Broadcasts S200x196
  inb_S200x256_S200x256_0_0 : ∀ a, (![0, 0] : Fin 2 → Nat) a + S200x256.size a ≤ S200x256.size a
  h_S200x256 : 0 < S200x256.numel
  inb_S49x512_S49x512_0_0 : ∀ a, (![0, 0] : Fin 2 → Nat) a + S49x512.size a ≤ S49x512.size a
  h_S49x512 : 0 < S49x512.numel
  shapeCasts_S49x512_S49x512 : S49x512.ShapeCasts S49x512
  iota_S200x49_d1_w32 : S200x49.Iotas .tc 32 [1]
  broadcasts_S200x1_S200x49 : S200x1.Broadcasts S200x49
  inb_S200x512_S200x512_0_0 : ∀ a, (![0, 0] : Fin 2 → Nat) a + S200x512.size a ≤ S200x512.size a
  h_S200x512 : 0 < S200x512.numel
  concatenates_S100000x3_S100000x64_S100000x128_S100000x256_S100000x512_S100000x963_d1 : Shape.Concatenates [S100000x3, S100000x64, S100000x128, S100000x256, S100000x512] S100000x963 1
  dot_S200x3136_S3136x64_S200x64_1_0_0_1_n_n_wf : DotDims.WF S200x3136 S3136x64 S200x64 [1] [0] [0] [1] [] []
  dot_S200x784_S784x128_S200x128_1_0_0_1_n_n_wf : DotDims.WF S200x784 S784x128 S200x128 [1] [0] [0] [1] [] []
  dot_S200x196_S196x256_S200x256_1_0_0_1_n_n_wf : DotDims.WF S200x196 S196x256 S200x256 [1] [0] [0] [1] [] []
  dot_S200x49_S49x512_S200x512_1_0_0_1_n_n_wf : DotDims.WF S200x49 S49x512 S200x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x3.size a ≤ S100000x3.size a
  hwx0_0 : ∀ i : grid0.Coords, EltTy.bits .f32 = 32 ∨ (Rect.block (s := S100000x3) S200x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3136x64.size a ≤ S3136x64.size a
  hwx0_1 : ∀ i : grid0.Coords, EltTy.bits .f32 = 32 ∨ (Rect.block (s := S3136x64) S3136x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S784x128.size a ≤ S784x128.size a
  hwx0_2 : ∀ i : grid0.Coords, EltTy.bits .f32 = 32 ∨ (Rect.block (s := S784x128) S784x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S196x256.size a ≤ S196x256.size a
  hwx0_3 : ∀ i : grid0.Coords, EltTy.bits .f32 = 32 ∨ (Rect.block (s := S196x256) S196x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S49x512.size a ≤ S49x512.size a
  hwx0_4 : ∀ i : grid0.Coords, EltTy.bits .f32 = 32 ∨ (Rect.block (s := S49x512) S49x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x64.size a ≤ S100000x64.size a
  hwx0_5 : ∀ i : grid0.Coords, EltTy.bits .f32 = 32 ∨ (Rect.block (s := S100000x64) S200x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x128.size a ≤ S100000x128.size a
  hwx0_6 : ∀ i : grid0.Coords, EltTy.bits .f32 = 32 ∨ (Rect.block (s := S100000x128) S200x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x256.size a ≤ S100000x256.size a
  hwx0_7 : ∀ i : grid0.Coords, EltTy.bits .f32 = 32 ∨ (Rect.block (s := S100000x256) S200x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S200x512.size a ≤ S100000x512.size a
  hwx0_8 : ∀ i : grid0.Coords, EltTy.bits .f32 = 32 ∨ (Rect.block (s := S100000x512) S200x512.size (cc0_transform_8 i) (hinb0_8 i)).WholeWords (EltTy.packing .f32)

variable [Facts₀]

def dot_S200x3136_S3136x64_S200x64_1_0_0_1_n_n : DotDims S200x3136 S3136x64 S200x64 where
  lhsContracting := [1]
  rhsContracting := [0]
  lhsNonContracting := [0]
  rhsNonContracting := [1]
  lhsBatch := []
  rhsBatch := []
  wf := dot_S200x3136_S3136x64_S200x64_1_0_0_1_n_n_wf
def dot_S200x784_S784x128_S200x128_1_0_0_1_n_n : DotDims S200x784 S784x128 S200x128 where
  lhsContracting := [1]
  rhsContracting := [0]
  lhsNonContracting := [0]
  rhsNonContracting := [1]
  lhsBatch := []
  rhsBatch := []
  wf := dot_S200x784_S784x128_S200x128_1_0_0_1_n_n_wf
def dot_S200x196_S196x256_S200x256_1_0_0_1_n_n : DotDims S200x196 S196x256 S200x256 where
  lhsContracting := [1]
  rhsContracting := [0]
  lhsNonContracting := [0]
  rhsNonContracting := [1]
  lhsBatch := []
  rhsBatch := []
  wf := dot_S200x196_S196x256_S200x256_1_0_0_1_n_n_wf
def dot_S200x49_S49x512_S200x512_1_0_0_1_n_n : DotDims S200x49 S49x512 S200x512 where
  lhsContracting := [1]
  rhsContracting := [0]
  lhsNonContracting := [0]
  rhsNonContracting := [1]
  lhsBatch := []
  rhsBatch := []
  wf := dot_S200x49_S49x512_S200x512_1_0_0_1_n_n_wf

abbrev win0_0 : Pipeline.Window sig grid0 :=
  Pipeline.Window.ofSpec (Memref.whole main_arg0) S200x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3136x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S784x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S196x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S49x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S200x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S200x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_2) S200x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_3) S200x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x3 : Shape := ⟨2, ![100000, 3]⟩
abbrev S56x56x64 : Shape := ⟨3, ![56, 56, 64]⟩
abbrev S28x28x128 : Shape := ⟨3, ![28, 28, 128]⟩
abbrev S14x14x256 : Shape := ⟨3, ![14, 14, 256]⟩
abbrev S7x7x512 : Shape := ⟨3, ![7, 7, 512]⟩
abbrev S100000x1 : Shape := ⟨2, ![100000, 1]⟩
abbrev S100000 : Shape := ⟨1, ![100000]⟩
abbrev S_ : Shape := ⟨0, ![]⟩
abbrev S100000x2 : Shape := ⟨2, ![100000, 2]⟩
abbrev S100000x64 : Shape := ⟨2, ![100000, 64]⟩
abbrev S100000x128 : Shape := ⟨2, ![100000, 128]⟩
abbrev S100000x256 : Shape := ⟨2, ![100000, 256]⟩
abbrev S100000x512 : Shape := ⟨2, ![100000, 512]⟩
abbrev S100000x963 : Shape := ⟨2, ![100000, 963]⟩

abbrev nBuf : Space → Nat
  | .hbm => 497
  | .vmem => 0
  | .smem => 0
  | _ => 0

abbrev hbmTy0_0 (i : Nat) : BufTy := match i % 128 with
  | 0 => ⟨S100000x3, .f32⟩
  | 1 => ⟨S56x56x64, .f32⟩
  | 2 => ⟨S28x28x128, .f32⟩
  | 3 => ⟨S14x14x256, .f32⟩
  | 4 => ⟨S7x7x512, .f32⟩
  | 5 => ⟨S100000x1, .f32⟩
  | 6 => ⟨S100000, .f32⟩
  | 7 => ⟨S100000x1, .f32⟩
  | 8 => ⟨S100000, .f32⟩
  | 9 => ⟨S100000x1, .f32⟩
  | 10 => ⟨S100000, .f32⟩
  | 11 => ⟨S100000, .f32⟩
  | 12 => ⟨S_, .f32⟩
  | 13 => ⟨S100000, .f32⟩
  | 14 => ⟨S100000, .f32⟩
  | 15 => ⟨S100000, .f32⟩
  | 16 => ⟨S100000, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .f32⟩
  | 29 => ⟨S_, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S_, .f32⟩
  | 37 => ⟨S_, .f32⟩
  | 38 => ⟨S_, .f32⟩
  | 39 => ⟨S100000, .f32⟩
  | 40 => ⟨S100000, .f32⟩
  | 41 => ⟨S_, .f32⟩
  | 42 => ⟨S100000, .f32⟩
  | 43 => ⟨S100000, .f32⟩
  | 44 => ⟨S_, .f32⟩
  | 45 => ⟨S100000, .f32⟩
  | 46 => ⟨S100000, .f32⟩
  | 47 => ⟨S_, .f32⟩
  | 48 => ⟨S100000, .f32⟩
  | 49 => ⟨S100000, .f32⟩
  | 50 => ⟨S100000, .f32⟩
  | 51 => ⟨S100000, .f32⟩
  | 52 => ⟨S100000, .f32⟩
  | 53 => ⟨S100000, .f32⟩
  | 54 => ⟨S100000, .i32⟩
  | 55 => ⟨S100000, .i32⟩
  | 56 => ⟨S100000, .i32⟩
  | 57 => ⟨S100000, .i32⟩
  | 58 => ⟨S_, .i32⟩
  | 59 => ⟨S100000, .i32⟩
  | 60 => ⟨S100000, .i1⟩
  | 61 => ⟨S_, .i32⟩
  | 62 => ⟨S100000, .i32⟩
  | 63 => ⟨S100000, .i32⟩
  | 64 => ⟨S100000, .i32⟩
  | 65 => ⟨S_, .i32⟩
  | 66 => ⟨S100000, .i32⟩
  | 67 => ⟨S100000, .i1⟩
  | 68 => ⟨S_, .i32⟩
  | 69 => ⟨S100000, .i32⟩
  | 70 => ⟨S100000, .i32⟩
  | 71 => ⟨S100000, .i32⟩
  | 72 => ⟨S100000x1, .i32⟩
  | 73 => ⟨S100000x1, .i32⟩
  | 74 => ⟨S100000x2, .i32⟩
  | 75 => ⟨S100000x64, .f32⟩
  | 76 => ⟨S_, .i32⟩
  | 77 => ⟨S100000, .i32⟩
  | 78 => ⟨S100000, .i1⟩
  | 79 => ⟨S_, .i32⟩
  | 80 => ⟨S100000, .i32⟩
  | 81 => ⟨S100000, .i32⟩
  | 82 => ⟨S100000, .i32⟩
  | 83 => ⟨S_, .i32⟩
  | 84 => ⟨S100000, .i32⟩
  | 85 => ⟨S100000, .i1⟩
  | 86 => ⟨S_, .i32⟩
  | 87 => ⟨S100000, .i32⟩
  | 88 => ⟨S100000, .i32⟩
  | 89 => ⟨S100000, .i32⟩
  | 90 => ⟨S100000x1, .i32⟩
  | 91 => ⟨S100000x1, .i32⟩
  | 92 => ⟨S100000x2, .i32⟩
  | 93 => ⟨S100000x64, .f32⟩
  | 94 => ⟨S_, .i32⟩
  | 95 => ⟨S100000, .i32⟩
  | 96 => ⟨S100000, .i1⟩
  | 97 => ⟨S_, .i32⟩
  | 98 => ⟨S100000, .i32⟩
  | 99 => ⟨S100000, .i32⟩
  | 100 => ⟨S100000, .i32⟩
  | 101 => ⟨S_, .i32⟩
  | 102 => ⟨S100000, .i32⟩
  | 103 => ⟨S100000, .i1⟩
  | 104 => ⟨S_, .i32⟩
  | 105 => ⟨S100000, .i32⟩
  | 106 => ⟨S100000, .i32⟩
  | 107 => ⟨S100000, .i32⟩
  | 108 => ⟨S100000x1, .i32⟩
  | 109 => ⟨S100000x1, .i32⟩
  | 110 => ⟨S100000x2, .i32⟩
  | 111 => ⟨S100000x64, .f32⟩
  | 112 => ⟨S_, .i32⟩
  | 113 => ⟨S100000, .i32⟩
  | 114 => ⟨S100000, .i1⟩
  | 115 => ⟨S_, .i32⟩
  | 116 => ⟨S100000, .i32⟩
  | 117 => ⟨S100000, .i32⟩
  | 118 => ⟨S100000, .i32⟩
  | 119 => ⟨S_, .i32⟩
  | 120 => ⟨S100000, .i32⟩
  | 121 => ⟨S100000, .i1⟩
  | 122 => ⟨S_, .i32⟩
  | 123 => ⟨S100000, .i32⟩
  | 124 => ⟨S100000, .i32⟩
  | 125 => ⟨S100000, .i32⟩
  | 126 => ⟨S100000x1, .i32⟩
  | 127 => ⟨S100000x1, .i32⟩
  | _ => ⟨S100000x3, .f32⟩

abbrev hbmTy0_1 (i : Nat) : BufTy := match i % 128 with
  | 0 => ⟨S100000x2, .i32⟩
  | 1 => ⟨S100000x64, .f32⟩
  | 2 => ⟨S100000, .f32⟩
  | 3 => ⟨S100000, .f32⟩
  | 4 => ⟨S100000, .f32⟩
  | 5 => ⟨S100000x1, .f32⟩
  | 6 => ⟨S100000, .f32⟩
  | 7 => ⟨S100000, .f32⟩
  | 8 => ⟨S100000, .f32⟩
  | 9 => ⟨S100000x1, .f32⟩
  | 10 => ⟨S100000, .f32⟩
  | 11 => ⟨S100000, .f32⟩
  | 12 => ⟨S100000, .f32⟩
  | 13 => ⟨S100000x1, .f32⟩
  | 14 => ⟨S100000, .f32⟩
  | 15 => ⟨S100000, .f32⟩
  | 16 => ⟨S100000, .f32⟩
  | 17 => ⟨S100000x1, .f32⟩
  | 18 => ⟨S100000x64, .f32⟩
  | 19 => ⟨S100000x64, .f32⟩
  | 20 => ⟨S100000x64, .f32⟩
  | 21 => ⟨S100000x64, .f32⟩
  | 22 => ⟨S100000x64, .f32⟩
  | 23 => ⟨S100000x64, .f32⟩
  | 24 => ⟨S100000x64, .f32⟩
  | 25 => ⟨S100000x64, .f32⟩
  | 26 => ⟨S100000x64, .f32⟩
  | 27 => ⟨S100000x64, .f32⟩
  | 28 => ⟨S100000x64, .f32⟩
  | 29 => ⟨S_, .f32⟩
  | 30 => ⟨S100000, .f32⟩
  | 31 => ⟨S100000, .f32⟩
  | 32 => ⟨S_, .f32⟩
  | 33 => ⟨S100000, .f32⟩
  | 34 => ⟨S100000, .f32⟩
  | 35 => ⟨S100000, .f32⟩
  | 36 => ⟨S100000, .f32⟩
  | 37 => ⟨S100000, .f32⟩
  | 38 => ⟨S100000, .f32⟩
  | 39 => ⟨S100000, .i32⟩
  | 40 => ⟨S100000, .i32⟩
  | 41 => ⟨S100000, .i32⟩
  | 42 => ⟨S100000, .i32⟩
  | 43 => ⟨S_, .i32⟩
  | 44 => ⟨S100000, .i32⟩
  | 45 => ⟨S100000, .i1⟩
  | 46 => ⟨S_, .i32⟩
  | 47 => ⟨S100000, .i32⟩
  | 48 => ⟨S100000, .i32⟩
  | 49 => ⟨S100000, .i32⟩
  | 50 => ⟨S_, .i32⟩
  | 51 => ⟨S100000, .i32⟩
  | 52 => ⟨S100000, .i1⟩
  | 53 => ⟨S_, .i32⟩
  | 54 => ⟨S100000, .i32⟩
  | 55 => ⟨S100000, .i32⟩
  | 56 => ⟨S100000, .i32⟩
  | 57 => ⟨S100000x1, .i32⟩
  | 58 => ⟨S100000x1, .i32⟩
  | 59 => ⟨S100000x2, .i32⟩
  | 60 => ⟨S100000x128, .f32⟩
  | 61 => ⟨S_, .i32⟩
  | 62 => ⟨S100000, .i32⟩
  | 63 => ⟨S100000, .i1⟩
  | 64 => ⟨S_, .i32⟩
  | 65 => ⟨S100000, .i32⟩
  | 66 => ⟨S100000, .i32⟩
  | 67 => ⟨S100000, .i32⟩
  | 68 => ⟨S_, .i32⟩
  | 69 => ⟨S100000, .i32⟩
  | 70 => ⟨S100000, .i1⟩
  | 71 => ⟨S_, .i32⟩
  | 72 => ⟨S100000, .i32⟩
  | 73 => ⟨S100000, .i32⟩
  | 74 => ⟨S100000, .i32⟩
  | 75 => ⟨S100000x1, .i32⟩
  | 76 => ⟨S100000x1, .i32⟩
  | 77 => ⟨S100000x2, .i32⟩
  | 78 => ⟨S100000x128, .f32⟩
  | 79 => ⟨S_, .i32⟩
  | 80 => ⟨S100000, .i32⟩
  | 81 => ⟨S100000, .i1⟩
  | 82 => ⟨S_, .i32⟩
  | 83 => ⟨S100000, .i32⟩
  | 84 => ⟨S100000, .i32⟩
  | 85 => ⟨S100000, .i32⟩
  | 86 => ⟨S_, .i32⟩
  | 87 => ⟨S100000, .i32⟩
  | 88 => ⟨S100000, .i1⟩
  | 89 => ⟨S_, .i32⟩
  | 90 => ⟨S100000, .i32⟩
  | 91 => ⟨S100000, .i32⟩
  | 92 => ⟨S100000, .i32⟩
  | 93 => ⟨S100000x1, .i32⟩
  | 94 => ⟨S100000x1, .i32⟩
  | 95 => ⟨S100000x2, .i32⟩
  | 96 => ⟨S100000x128, .f32⟩
  | 97 => ⟨S_, .i32⟩
  | 98 => ⟨S100000, .i32⟩
  | 99 => ⟨S100000, .i1⟩
  | 100 => ⟨S_, .i32⟩
  | 101 => ⟨S100000, .i32⟩
  | 102 => ⟨S100000, .i32⟩
  | 103 => ⟨S100000, .i32⟩
  | 104 => ⟨S_, .i32⟩
  | 105 => ⟨S100000, .i32⟩
  | 106 => ⟨S100000, .i1⟩
  | 107 => ⟨S_, .i32⟩
  | 108 => ⟨S100000, .i32⟩
  | 109 => ⟨S100000, .i32⟩
  | 110 => ⟨S100000, .i32⟩
  | 111 => ⟨S100000x1, .i32⟩
  | 112 => ⟨S100000x1, .i32⟩
  | 113 => ⟨S100000x2, .i32⟩
  | 114 => ⟨S100000x128, .f32⟩
  | 115 => ⟨S100000, .f32⟩
  | 116 => ⟨S100000, .f32⟩
  | 117 => ⟨S100000, .f32⟩
  | 118 => ⟨S100000x1, .f32⟩
  | 119 => ⟨S100000, .f32⟩
  | 120 => ⟨S100000, .f32⟩
  | 121 => ⟨S100000, .f32⟩
  | 122 => ⟨S100000x1, .f32⟩
  | 123 => ⟨S100000, .f32⟩
  | 124 => ⟨S100000, .f32⟩
  | 125 => ⟨S100000, .f32⟩
  | 126 => ⟨S100000x1, .f32⟩
  | 127 => ⟨S100000, .f32⟩
  | _ => ⟨S100000x3, .f32⟩

abbrev hbmTy0_2 (i : Nat) : BufTy := match i % 128 with
  | 0 => ⟨S100000, .f32⟩
  | 1 => ⟨S100000, .f32⟩
  | 2 => ⟨S100000x1, .f32⟩
  | 3 => ⟨S100000x128, .f32⟩
  | 4 => ⟨S100000x128, .f32⟩
  | 5 => ⟨S100000x128, .f32⟩
  | 6 => ⟨S100000x128, .f32⟩
  | 7 => ⟨S100000x128, .f32⟩
  | 8 => ⟨S100000x128, .f32⟩
  | 9 => ⟨S100000x128, .f32⟩
  | 10 => ⟨S100000x128, .f32⟩
  | 11 => ⟨S100000x128, .f32⟩
  | 12 => ⟨S100000x128, .f32⟩
  | 13 => ⟨S100000x128, .f32⟩
  | 14 => ⟨S_, .f32⟩
  | 15 => ⟨S100000, .f32⟩
  | 16 => ⟨S100000, .f32⟩
  | 17 => ⟨S_, .f32⟩
  | 18 => ⟨S100000, .f32⟩
  | 19 => ⟨S100000, .f32⟩
  | 20 => ⟨S100000, .f32⟩
  | 21 => ⟨S100000, .f32⟩
  | 22 => ⟨S100000, .f32⟩
  | 23 => ⟨S100000, .f32⟩
  | 24 => ⟨S100000, .i32⟩
  | 25 => ⟨S100000, .i32⟩
  | 26 => ⟨S100000, .i32⟩
  | 27 => ⟨S100000, .i32⟩
  | 28 => ⟨S_, .i32⟩
  | 29 => ⟨S100000, .i32⟩
  | 30 => ⟨S100000, .i1⟩
  | 31 => ⟨S_, .i32⟩
  | 32 => ⟨S100000, .i32⟩
  | 33 => ⟨S100000, .i32⟩
  | 34 => ⟨S100000, .i32⟩
  | 35 => ⟨S_, .i32⟩
  | 36 => ⟨S100000, .i32⟩
  | 37 => ⟨S100000, .i1⟩
  | 38 => ⟨S_, .i32⟩
  | 39 => ⟨S100000, .i32⟩
  | 40 => ⟨S100000, .i32⟩
  | 41 => ⟨S100000, .i32⟩
  | 42 => ⟨S100000x1, .i32⟩
  | 43 => ⟨S100000x1, .i32⟩
  | 44 => ⟨S100000x2, .i32⟩
  | 45 => ⟨S100000x256, .f32⟩
  | 46 => ⟨S_, .i32⟩
  | 47 => ⟨S100000, .i32⟩
  | 48 => ⟨S100000, .i1⟩
  | 49 => ⟨S_, .i32⟩
  | 50 => ⟨S100000, .i32⟩
  | 51 => ⟨S100000, .i32⟩
  | 52 => ⟨S100000, .i32⟩
  | 53 => ⟨S_, .i32⟩
  | 54 => ⟨S100000, .i32⟩
  | 55 => ⟨S100000, .i1⟩
  | 56 => ⟨S_, .i32⟩
  | 57 => ⟨S100000, .i32⟩
  | 58 => ⟨S100000, .i32⟩
  | 59 => ⟨S100000, .i32⟩
  | 60 => ⟨S100000x1, .i32⟩
  | 61 => ⟨S100000x1, .i32⟩
  | 62 => ⟨S100000x2, .i32⟩
  | 63 => ⟨S100000x256, .f32⟩
  | 64 => ⟨S_, .i32⟩
  | 65 => ⟨S100000, .i32⟩
  | 66 => ⟨S100000, .i1⟩
  | 67 => ⟨S_, .i32⟩
  | 68 => ⟨S100000, .i32⟩
  | 69 => ⟨S100000, .i32⟩
  | 70 => ⟨S100000, .i32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S100000x1, .i32⟩
  | 80 => ⟨S100000x2, .i32⟩
  | 81 => ⟨S100000x256, .f32⟩
  | 82 => ⟨S_, .i32⟩
  | 83 => ⟨S100000, .i32⟩
  | 84 => ⟨S100000, .i1⟩
  | 85 => ⟨S_, .i32⟩
  | 86 => ⟨S100000, .i32⟩
  | 87 => ⟨S100000, .i32⟩
  | 88 => ⟨S100000, .i32⟩
  | 89 => ⟨S_, .i32⟩
  | 90 => ⟨S100000, .i32⟩
  | 91 => ⟨S100000, .i1⟩
  | 92 => ⟨S_, .i32⟩
  | 93 => ⟨S100000, .i32⟩
  | 94 => ⟨S100000, .i32⟩
  | 95 => ⟨S100000, .i32⟩
  | 96 => ⟨S100000x1, .i32⟩
  | 97 => ⟨S100000x1, .i32⟩
  | 98 => ⟨S100000x2, .i32⟩
  | 99 => ⟨S100000x256, .f32⟩
  | 100 => ⟨S100000, .f32⟩
  | 101 => ⟨S100000, .f32⟩
  | 102 => ⟨S100000, .f32⟩
  | 103 => ⟨S100000x1, .f32⟩
  | 104 => ⟨S100000, .f32⟩
  | 105 => ⟨S100000, .f32⟩
  | 106 => ⟨S100000, .f32⟩
  | 107 => ⟨S100000x1, .f32⟩
  | 108 => ⟨S100000, .f32⟩
  | 109 => ⟨S100000, .f32⟩
  | 110 => ⟨S100000, .f32⟩
  | 111 => ⟨S100000x1, .f32⟩
  | 112 => ⟨S100000, .f32⟩
  | 113 => ⟨S100000, .f32⟩
  | 114 => ⟨S100000, .f32⟩
  | 115 => ⟨S100000x1, .f32⟩
  | 116 => ⟨S100000x256, .f32⟩
  | 117 => ⟨S100000x256, .f32⟩
  | 118 => ⟨S100000x256, .f32⟩
  | 119 => ⟨S100000x256, .f32⟩
  | 120 => ⟨S100000x256, .f32⟩
  | 121 => ⟨S100000x256, .f32⟩
  | 122 => ⟨S100000x256, .f32⟩
  | 123 => ⟨S100000x256, .f32⟩
  | 124 => ⟨S100000x256, .f32⟩
  | 125 => ⟨S100000x256, .f32⟩
  | 126 => ⟨S100000x256, .f32⟩
  | 127 => ⟨S_, .f32⟩
  | _ => ⟨S100000x3, .f32⟩

abbrev hbmTy0_3 (i : Nat) : BufTy := match i % 128 with
  | 0 => ⟨S100000, .f32⟩
  | 1 => ⟨S100000, .f32⟩
  | 2 => ⟨S_, .f32⟩
  | 3 => ⟨S100000, .f32⟩
  | 4 => ⟨S100000, .f32⟩
  | 5 => ⟨S100000, .f32⟩
  | 6 => ⟨S100000, .f32⟩
  | 7 => ⟨S100000, .f32⟩
  | 8 => ⟨S100000, .f32⟩
  | 9 => ⟨S100000, .i32⟩
  | 10 => ⟨S100000, .i32⟩
  | 11 => ⟨S100000, .i32⟩
  | 12 => ⟨S100000, .i32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S_, .i32⟩
  | 21 => ⟨S100000, .i32⟩
  | 22 => ⟨S100000, .i1⟩
  | 23 => ⟨S_, .i32⟩
  | 24 => ⟨S100000, .i32⟩
  | 25 => ⟨S100000, .i32⟩
  | 26 => ⟨S100000, .i32⟩
  | 27 => ⟨S100000x1, .i32⟩
  | 28 => ⟨S100000x1, .i32⟩
  | 29 => ⟨S100000x2, .i32⟩
  | 30 => ⟨S100000x512, .f32⟩
  | 31 => ⟨S_, .i32⟩
  | 32 => ⟨S100000, .i32⟩
  | 33 => ⟨S100000, .i1⟩
  | 34 => ⟨S_, .i32⟩
  | 35 => ⟨S100000, .i32⟩
  | 36 => ⟨S100000, .i32⟩
  | 37 => ⟨S100000, .i32⟩
  | 38 => ⟨S_, .i32⟩
  | 39 => ⟨S100000, .i32⟩
  | 40 => ⟨S100000, .i1⟩
  | 41 => ⟨S_, .i32⟩
  | 42 => ⟨S100000, .i32⟩
  | 43 => ⟨S100000, .i32⟩
  | 44 => ⟨S100000, .i32⟩
  | 45 => ⟨S100000x1, .i32⟩
  | 46 => ⟨S100000x1, .i32⟩
  | 47 => ⟨S100000x2, .i32⟩
  | 48 => ⟨S100000x512, .f32⟩
  | 49 => ⟨S_, .i32⟩
  | 50 => ⟨S100000, .i32⟩
  | 51 => ⟨S100000, .i1⟩
  | 52 => ⟨S_, .i32⟩
  | 53 => ⟨S100000, .i32⟩
  | 54 => ⟨S100000, .i32⟩
  | 55 => ⟨S100000, .i32⟩
  | 56 => ⟨S_, .i32⟩
  | 57 => ⟨S100000, .i32⟩
  | 58 => ⟨S100000, .i1⟩
  | 59 => ⟨S_, .i32⟩
  | 60 => ⟨S100000, .i32⟩
  | 61 => ⟨S100000, .i32⟩
  | 62 => ⟨S100000, .i32⟩
  | 63 => ⟨S100000x1, .i32⟩
  | 64 => ⟨S100000x1, .i32⟩
  | 65 => ⟨S100000x2, .i32⟩
  | 66 => ⟨S100000x512, .f32⟩
  | 67 => ⟨S_, .i32⟩
  | 68 => ⟨S100000, .i32⟩
  | 69 => ⟨S100000, .i1⟩
  | 70 => ⟨S_, .i32⟩
  | 71 => ⟨S100000, .i32⟩
  | 72 => ⟨S100000, .i32⟩
  | 73 => ⟨S100000, .i32⟩
  | 74 => ⟨S_, .i32⟩
  | 75 => ⟨S100000, .i32⟩
  | 76 => ⟨S100000, .i1⟩
  | 77 => ⟨S_, .i32⟩
  | 78 => ⟨S100000, .i32⟩
  | 79 => ⟨S100000, .i32⟩
  | 80 => ⟨S100000, .i32⟩
  | 81 => ⟨S100000x1, .i32⟩
  | 82 => ⟨S100000x1, .i32⟩
  | 83 => ⟨S100000x2, .i32⟩
  | 84 => ⟨S100000x512, .f32⟩
  | 85 => ⟨S100000, .f32⟩
  | 86 => ⟨S100000, .f32⟩
  | 87 => ⟨S100000, .f32⟩
  | 88 => ⟨S100000x1, .f32⟩
  | 89 => ⟨S100000, .f32⟩
  | 90 => ⟨S100000, .f32⟩
  | 91 => ⟨S100000, .f32⟩
  | 92 => ⟨S100000x1, .f32⟩
  | 93 => ⟨S100000, .f32⟩
  | 94 => ⟨S100000, .f32⟩
  | 95 => ⟨S100000, .f32⟩
  | 96 => ⟨S100000x1, .f32⟩
  | 97 => ⟨S100000, .f32⟩
  | 98 => ⟨S100000, .f32⟩
  | 99 => ⟨S100000, .f32⟩
  | 100 => ⟨S100000x1, .f32⟩
  | 101 => ⟨S100000x512, .f32⟩
  | 102 => ⟨S100000x512, .f32⟩
  | 103 => ⟨S100000x512, .f32⟩
  | 104 => ⟨S100000x512, .f32⟩
  | 105 => ⟨S100000x512, .f32⟩
  | 106 => ⟨S100000x512, .f32⟩
  | 107 => ⟨S100000x512, .f32⟩
  | 108 => ⟨S100000x512, .f32⟩
  | 109 => ⟨S100000x512, .f32⟩
  | 110 => ⟨S100000x512, .f32⟩
  | 111 => ⟨S100000x512, .f32⟩
  | 112 => ⟨S100000x963, .f32⟩
  | _ => ⟨S100000x3, .f32⟩

abbrev hbmTy (i : Nat) : BufTy := match i / 128 with
  | 0 => hbmTy0_0 i
  | 1 => hbmTy0_1 i
  | 2 => hbmTy0_2 i
  | 3 => hbmTy0_3 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v19 : Ref sig .tc := ⟨.hbm, 35, rfl⟩
abbrev main_cst_5 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v20 : Ref sig .tc := ⟨.hbm, 43, rfl⟩
abbrev main_cst_7 : Ref sig .tc := ⟨.hbm, 44, rfl⟩
abbrev main_v21 : Ref sig .tc := ⟨.hbm, 45, rfl⟩
abbrev main_v22 : Ref sig .tc := ⟨.hbm, 46, rfl⟩
abbrev main_cst_8 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c : Ref sig .tc := ⟨.hbm, 58, rfl⟩
abbrev main_v33 : Ref sig .tc := ⟨.hbm, 59, rfl⟩
abbrev main_v34 : Ref sig .tc := ⟨.hbm, 60, rfl⟩
abbrev main_c_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_10 : Ref sig .tc := ⟨.hbm, 65, rfl⟩
abbrev main_v38 : Ref sig .tc := ⟨.hbm, 66, rfl⟩
abbrev main_v39 : Ref sig .tc := ⟨.hbm, 67, rfl⟩
abbrev main_c_11 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_12 : Ref sig .tc := ⟨.hbm, 76, rfl⟩
abbrev main_v47 : Ref sig .tc := ⟨.hbm, 77, rfl⟩
abbrev main_v48 : Ref sig .tc := ⟨.hbm, 78, rfl⟩
abbrev main_c_13 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_14 : Ref sig .tc := ⟨.hbm, 83, rfl⟩
abbrev main_v52 : Ref sig .tc := ⟨.hbm, 84, rfl⟩
abbrev main_v53 : Ref sig .tc := ⟨.hbm, 85, rfl⟩
abbrev main_c_15 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_16 : Ref sig .tc := ⟨.hbm, 94, rfl⟩
abbrev main_v61 : Ref sig .tc := ⟨.hbm, 95, rfl⟩
abbrev main_v62 : Ref sig .tc := ⟨.hbm, 96, rfl⟩
abbrev main_c_17 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_18 : Ref sig .tc := ⟨.hbm, 101, rfl⟩
abbrev main_v66 : Ref sig .tc := ⟨.hbm, 102, rfl⟩
abbrev main_v67 : Ref sig .tc := ⟨.hbm, 103, rfl⟩
abbrev main_c_19 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_20 : Ref sig .tc := ⟨.hbm, 112, rfl⟩
abbrev main_v75 : Ref sig .tc := ⟨.hbm, 113, rfl⟩
abbrev main_v76 : Ref sig .tc := ⟨.hbm, 114, rfl⟩
abbrev main_c_21 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_22 : Ref sig .tc := ⟨.hbm, 119, rfl⟩
abbrev main_v80 : Ref sig .tc := ⟨.hbm, 120, rfl⟩
abbrev main_v81 : Ref sig .tc := ⟨.hbm, 121, rfl⟩
abbrev main_c_23 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_24 : Ref sig .tc := ⟨.hbm, 157, rfl⟩
abbrev main_v116 : Ref sig .tc := ⟨.hbm, 158, rfl⟩
abbrev main_v117 : Ref sig .tc := ⟨.hbm, 159, rfl⟩
abbrev main_cst_25 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_c_26 : Ref sig .tc := ⟨.hbm, 171, rfl⟩
abbrev main_v128 : Ref sig .tc := ⟨.hbm, 172, rfl⟩
abbrev main_v129 : Ref sig .tc := ⟨.hbm, 173, rfl⟩
abbrev main_c_27 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_c_28 : Ref sig .tc := ⟨.hbm, 178, rfl⟩
abbrev main_v133 : Ref sig .tc := ⟨.hbm, 179, rfl⟩
abbrev main_v134 : Ref sig .tc := ⟨.hbm, 180, rfl⟩
abbrev main_c_29 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_c_30 : Ref sig .tc := ⟨.hbm, 189, rfl⟩
abbrev main_v142 : Ref sig .tc := ⟨.hbm, 190, rfl⟩
abbrev main_v143 : Ref sig .tc := ⟨.hbm, 191, rfl⟩
abbrev main_c_31 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_c_32 : Ref sig .tc := ⟨.hbm, 196, rfl⟩
abbrev main_v147 : Ref sig .tc := ⟨.hbm, 197, rfl⟩
abbrev main_v148 : Ref sig .tc := ⟨.hbm, 198, rfl⟩
abbrev main_c_33 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_c_34 : Ref sig .tc := ⟨.hbm, 207, rfl⟩
abbrev main_v156 : Ref sig .tc := ⟨.hbm, 208, rfl⟩
abbrev main_v157 : Ref sig .tc := ⟨.hbm, 209, rfl⟩
abbrev main_c_35 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_c_36 : Ref sig .tc := ⟨.hbm, 214, rfl⟩
abbrev main_v161 : Ref sig .tc := ⟨.hbm, 215, rfl⟩
abbrev main_v162 : Ref sig .tc := ⟨.hbm, 216, rfl⟩
abbrev main_c_37 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_c_38 : Ref sig .tc := ⟨.hbm, 225, rfl⟩
abbrev main_v170 : Ref sig .tc := ⟨.hbm, 226, rfl⟩
abbrev main_v171 : Ref sig .tc := ⟨.hbm, 227, rfl⟩
abbrev main_c_39 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_c_40 : Ref sig .tc := ⟨.hbm, 232, rfl⟩
abbrev main_v175 : Ref sig .tc := ⟨.hbm, 233, rfl⟩
abbrev main_v176 : Ref sig .tc := ⟨.hbm, 234, rfl⟩
abbrev main_c_41 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_cst_42 : Ref sig .tc := ⟨.hbm, 270, rfl⟩
abbrev main_v211 : Ref sig .tc := ⟨.hbm, 271, rfl⟩
abbrev main_v212 : Ref sig .tc := ⟨.hbm, 272, rfl⟩
abbrev main_cst_43 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_c_44 : Ref sig .tc := ⟨.hbm, 284, rfl⟩
abbrev main_v223 : Ref sig .tc := ⟨.hbm, 285, rfl⟩
abbrev main_v224 : Ref sig .tc := ⟨.hbm, 286, rfl⟩
abbrev main_c_45 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_c_46 : Ref sig .tc := ⟨.hbm, 291, rfl⟩
abbrev main_v228 : Ref sig .tc := ⟨.hbm, 292, rfl⟩
abbrev main_v229 : Ref sig .tc := ⟨.hbm, 293, rfl⟩
abbrev main_c_47 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_c_48 : Ref sig .tc := ⟨.hbm, 302, rfl⟩
abbrev main_v237 : Ref sig .tc := ⟨.hbm, 303, rfl⟩
abbrev main_v238 : Ref sig .tc := ⟨.hbm, 304, rfl⟩
abbrev main_c_49 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_c_50 : Ref sig .tc := ⟨.hbm, 309, rfl⟩
abbrev main_v242 : Ref sig .tc := ⟨.hbm, 310, rfl⟩
abbrev main_v243 : Ref sig .tc := ⟨.hbm, 311, rfl⟩
abbrev main_c_51 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_c_52 : Ref sig .tc := ⟨.hbm, 320, rfl⟩
abbrev main_v251 : Ref sig .tc := ⟨.hbm, 321, rfl⟩
abbrev main_v252 : Ref sig .tc := ⟨.hbm, 322, rfl⟩
abbrev main_c_53 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_c_54 : Ref sig .tc := ⟨.hbm, 327, rfl⟩
abbrev main_v256 : Ref sig .tc := ⟨.hbm, 328, rfl⟩
abbrev main_v257 : Ref sig .tc := ⟨.hbm, 329, rfl⟩
abbrev main_c_55 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_v263 : Ref sig .tc := ⟨.hbm, 336, rfl⟩
abbrev main_v264 : Ref sig .tc := ⟨.hbm, 337, rfl⟩
abbrev main_c_56 : Ref sig .tc := ⟨.hbm, 338, rfl⟩
abbrev main_v265 : Ref sig .tc := ⟨.hbm, 339, rfl⟩
abbrev main_v266 : Ref sig .tc := ⟨.hbm, 340, rfl⟩
abbrev main_c_57 : Ref sig .tc := ⟨.hbm, 341, rfl⟩
abbrev main_v267 : Ref sig .tc := ⟨.hbm, 342, rfl⟩
abbrev main_v268 : Ref sig .tc := ⟨.hbm, 343, rfl⟩
abbrev main_v269 : Ref sig .tc := ⟨.hbm, 344, rfl⟩
abbrev main_c_58 : Ref sig .tc := ⟨.hbm, 345, rfl⟩
abbrev main_v270 : Ref sig .tc := ⟨.hbm, 346, rfl⟩
abbrev main_v271 : Ref sig .tc := ⟨.hbm, 347, rfl⟩
abbrev main_c_59 : Ref sig .tc := ⟨.hbm, 348, rfl⟩
abbrev main_v272 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_v280 : Ref sig .tc := ⟨.hbm, 357, rfl⟩
abbrev main_v281 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_v288 : Ref sig .tc := ⟨.hbm, 365, rfl⟩
abbrev main_v289 : Ref sig .tc := ⟨.hbm, 366, rfl⟩
abbrev main_v290 : Ref sig .tc := ⟨.hbm, 367, rfl⟩
abbrev main_v291 : Ref sig .tc := ⟨.hbm, 368, rfl⟩
abbrev main_v292 : Ref sig .tc := ⟨.hbm, 369, rfl⟩
abbrev main_v293 : Ref sig .tc := ⟨.hbm, 370, rfl⟩
abbrev main_v294 : Ref sig .tc := ⟨.hbm, 371, rfl⟩
abbrev main_v295 : Ref sig .tc := ⟨.hbm, 372, rfl⟩
abbrev main_v296 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_v300 : Ref sig .tc := ⟨.hbm, 377, rfl⟩
abbrev main_v301 : Ref sig .tc := ⟨.hbm, 378, rfl⟩
abbrev main_v302 : Ref sig .tc := ⟨.hbm, 379, rfl⟩
abbrev main_v303 : Ref sig .tc := ⟨.hbm, 380, rfl⟩
abbrev main_v304 : Ref sig .tc := ⟨.hbm, 381, rfl⟩
abbrev main_v305 : Ref sig .tc := ⟨.hbm, 382, rfl⟩
abbrev main_cst_60 : Ref sig .tc := ⟨.hbm, 383, rfl⟩
abbrev main_v306 : Ref sig .tc := ⟨.hbm, 384, rfl⟩
abbrev main_v307 : Ref sig .tc := ⟨.hbm, 385, rfl⟩
abbrev main_cst_61 : Ref sig .tc := ⟨.hbm, 386, rfl⟩
abbrev main_v308 : Ref sig .tc := ⟨.hbm, 387, rfl⟩
abbrev main_v309 : Ref sig .tc := ⟨.hbm, 388, rfl⟩
abbrev main_v310 : Ref sig .tc := ⟨.hbm, 389, rfl⟩
abbrev main_v311 : Ref sig .tc := ⟨.hbm, 390, rfl⟩
abbrev main_v312 : Ref sig .tc := ⟨.hbm, 391, rfl⟩
abbrev main_v313 : Ref sig .tc := ⟨.hbm, 392, rfl⟩
abbrev main_v314 : Ref sig .tc := ⟨.hbm, 393, rfl⟩
abbrev main_v315 : Ref sig .tc := ⟨.hbm, 394, rfl⟩
abbrev main_v316 : Ref sig .tc := ⟨.hbm, 395, rfl⟩
abbrev main_v317 : Ref sig .tc := ⟨.hbm, 396, rfl⟩
abbrev main_c_62 : Ref sig .tc := ⟨.hbm, 397, rfl⟩
abbrev main_v318 : Ref sig .tc := ⟨.hbm, 398, rfl⟩
abbrev main_v319 : Ref sig .tc := ⟨.hbm, 399, rfl⟩
abbrev main_c_63 : Ref sig .tc := ⟨.hbm, 400, rfl⟩
abbrev main_v320 : Ref sig .tc := ⟨.hbm, 401, rfl⟩
abbrev main_v321 : Ref sig .tc := ⟨.hbm, 402, rfl⟩
abbrev main_v322 : Ref sig .tc := ⟨.hbm, 403, rfl⟩
abbrev main_c_64 : Ref sig .tc := ⟨.hbm, 404, rfl⟩
abbrev main_v323 : Ref sig .tc := ⟨.hbm, 405, rfl⟩
abbrev main_v324 : Ref sig .tc := ⟨.hbm, 406, rfl⟩
abbrev main_c_65 : Ref sig .tc := ⟨.hbm, 407, rfl⟩
abbrev main_v325 : Ref sig .tc := ⟨.hbm, 408, rfl⟩
abbrev main_v326 : Ref sig .tc := ⟨.hbm, 409, rfl⟩
abbrev main_v327 : Ref sig .tc := ⟨.hbm, 410, rfl⟩
abbrev main_v328 : Ref sig .tc := ⟨.hbm, 411, rfl⟩
abbrev main_v329 : Ref sig .tc := ⟨.hbm, 412, rfl⟩
abbrev main_v330 : Ref sig .tc := ⟨.hbm, 413, rfl⟩
abbrev main_v331 : Ref sig .tc := ⟨.hbm, 414, rfl⟩
abbrev main_c_66 : Ref sig .tc := ⟨.hbm, 415, rfl⟩
abbrev main_v332 : Ref sig .tc := ⟨.hbm, 416, rfl⟩
abbrev main_v333 : Ref sig .tc := ⟨.hbm, 417, rfl⟩
abbrev main_c_67 : Ref sig .tc := ⟨.hbm, 418, rfl⟩
abbrev main_v334 : Ref sig .tc := ⟨.hbm, 419, rfl⟩
abbrev main_v335 : Ref sig .tc := ⟨.hbm, 420, rfl⟩
abbrev main_v336 : Ref sig .tc := ⟨.hbm, 421, rfl⟩
abbrev main_c_68 : Ref sig .tc := ⟨.hbm, 422, rfl⟩
abbrev main_v337 : Ref sig .tc := ⟨.hbm, 423, rfl⟩
abbrev main_v338 : Ref sig .tc := ⟨.hbm, 424, rfl⟩
abbrev main_c_69 : Ref sig .tc := ⟨.hbm, 425, rfl⟩
abbrev main_v339 : Ref sig .tc := ⟨.hbm, 426, rfl⟩
abbrev main_v340 : Ref sig .tc := ⟨.hbm, 427, rfl⟩
abbrev main_v341 : Ref sig .tc := ⟨.hbm, 428, rfl⟩
abbrev main_v342 : Ref sig .tc := ⟨.hbm, 429, rfl⟩
abbrev main_v343 : Ref sig .tc := ⟨.hbm, 430, rfl⟩
abbrev main_v344 : Ref sig .tc := ⟨.hbm, 431, rfl⟩
abbrev main_v345 : Ref sig .tc := ⟨.hbm, 432, rfl⟩
abbrev main_c_70 : Ref sig .tc := ⟨.hbm, 433, rfl⟩
abbrev main_v346 : Ref sig .tc := ⟨.hbm, 434, rfl⟩
abbrev main_v347 : Ref sig .tc := ⟨.hbm, 435, rfl⟩
abbrev main_c_71 : Ref sig .tc := ⟨.hbm, 436, rfl⟩
abbrev main_v348 : Ref sig .tc := ⟨.hbm, 437, rfl⟩
abbrev main_v349 : Ref sig .tc := ⟨.hbm, 438, rfl⟩
abbrev main_v350 : Ref sig .tc := ⟨.hbm, 439, rfl⟩
abbrev main_c_72 : Ref sig .tc := ⟨.hbm, 440, rfl⟩
abbrev main_v351 : Ref sig .tc := ⟨.hbm, 441, rfl⟩
abbrev main_v352 : Ref sig .tc := ⟨.hbm, 442, rfl⟩
abbrev main_c_73 : Ref sig .tc := ⟨.hbm, 443, rfl⟩
abbrev main_v353 : Ref sig .tc := ⟨.hbm, 444, rfl⟩
abbrev main_v354 : Ref sig .tc := ⟨.hbm, 445, rfl⟩
abbrev main_v355 : Ref sig .tc := ⟨.hbm, 446, rfl⟩
abbrev main_v356 : Ref sig .tc := ⟨.hbm, 447, rfl⟩
abbrev main_v357 : Ref sig .tc := ⟨.hbm, 448, rfl⟩
abbrev main_v358 : Ref sig .tc := ⟨.hbm, 449, rfl⟩
abbrev main_v359 : Ref sig .tc := ⟨.hbm, 450, rfl⟩
abbrev main_c_74 : Ref sig .tc := ⟨.hbm, 451, rfl⟩
abbrev main_v360 : Ref sig .tc := ⟨.hbm, 452, rfl⟩
abbrev main_v361 : Ref sig .tc := ⟨.hbm, 453, rfl⟩
abbrev main_c_75 : Ref sig .tc := ⟨.hbm, 454, rfl⟩
abbrev main_v362 : Ref sig .tc := ⟨.hbm, 455, rfl⟩
abbrev main_v363 : Ref sig .tc := ⟨.hbm, 456, rfl⟩
abbrev main_v364 : Ref sig .tc := ⟨.hbm, 457, rfl⟩
abbrev main_c_76 : Ref sig .tc := ⟨.hbm, 458, rfl⟩
abbrev main_v365 : Ref sig .tc := ⟨.hbm, 459, rfl⟩
abbrev main_v366 : Ref sig .tc := ⟨.hbm, 460, rfl⟩
abbrev main_c_77 : Ref sig .tc := ⟨.hbm, 461, rfl⟩
abbrev main_v367 : Ref sig .tc := ⟨.hbm, 462, rfl⟩
abbrev main_v368 : Ref sig .tc := ⟨.hbm, 463, rfl⟩
abbrev main_v369 : Ref sig .tc := ⟨.hbm, 464, rfl⟩
abbrev main_v370 : Ref sig .tc := ⟨.hbm, 465, rfl⟩
abbrev main_v371 : Ref sig .tc := ⟨.hbm, 466, rfl⟩
abbrev main_v372 : Ref sig .tc := ⟨.hbm, 467, rfl⟩
abbrev main_v373 : Ref sig .tc := ⟨.hbm, 468, rfl⟩
abbrev main_v374 : Ref sig .tc := ⟨.hbm, 469, rfl⟩
abbrev main_v375 : Ref sig .tc := ⟨.hbm, 470, rfl⟩
abbrev main_v376 : Ref sig .tc := ⟨.hbm, 471, rfl⟩
abbrev main_v377 : Ref sig .tc := ⟨.hbm, 472, rfl⟩
abbrev main_v378 : Ref sig .tc := ⟨.hbm, 473, rfl⟩
abbrev main_v379 : Ref sig .tc := ⟨.hbm, 474, rfl⟩
abbrev main_v380 : Ref sig .tc := ⟨.hbm, 475, rfl⟩
abbrev main_v381 : Ref sig .tc := ⟨.hbm, 476, rfl⟩
abbrev main_v382 : Ref sig .tc := ⟨.hbm, 477, rfl⟩
abbrev main_v383 : Ref sig .tc := ⟨.hbm, 478, rfl⟩
abbrev main_v384 : Ref sig .tc := ⟨.hbm, 479, rfl⟩
abbrev main_v385 : Ref sig .tc := ⟨.hbm, 480, rfl⟩
abbrev main_v386 : Ref sig .tc := ⟨.hbm, 481, rfl⟩
abbrev main_v387 : Ref sig .tc := ⟨.hbm, 482, rfl⟩
abbrev main_v388 : Ref sig .tc := ⟨.hbm, 483, rfl⟩
abbrev main_v389 : Ref sig .tc := ⟨.hbm, 484, rfl⟩
abbrev main_v390 : Ref sig .tc := ⟨.hbm, 485, rfl⟩
abbrev main_v391 : Ref sig .tc := ⟨.hbm, 486, rfl⟩
abbrev main_v392 : Ref sig .tc := ⟨.hbm, 487, rfl⟩
abbrev main_v393 : Ref sig .tc := ⟨.hbm, 488, rfl⟩
abbrev main_v394 : Ref sig .tc := ⟨.hbm, 489, rfl⟩
abbrev main_v395 : Ref sig .tc := ⟨.hbm, 490, rfl⟩
abbrev main_v396 : Ref sig .tc := ⟨.hbm, 491, rfl⟩
abbrev main_v397 : Ref sig .tc := ⟨.hbm, 492, rfl⟩
abbrev main_v398 : Ref sig .tc := ⟨.hbm, 493, rfl⟩
abbrev main_v399 : Ref sig .tc := ⟨.hbm, 494, rfl⟩
abbrev main_v400 : Ref sig .tc := ⟨.hbm, 495, rfl⟩
abbrev main_v401 : Ref sig .tc := ⟨.hbm, 496, rfl⟩

abbrev nD : Nat := 1
abbrev τ : Topo := Topo.v7x

variable {F : FTy → Type} [FloatOps F]

class Facts₀ : Prop where
  slices_S100000x3_S100000x1_0_0 : S100000x3.Slices ![0, 0] S100000x1
  shapeCasts_S100000x1_S100000 : S100000x1.ShapeCasts S100000
  slices_S100000x3_S100000x1_0_1 : S100000x3.Slices ![0, 1] S100000x1
  slices_S100000x3_S100000x1_0_2 : S100000x3.Slices ![0, 2] S100000x1
  bcast_S_S100000 : S_.BroadcastsInDim S100000 (![] : Fin 0 → Fin S100000.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  bcast_S100000x1_S100000x64_0_1 : S100000x1.BroadcastsInDim S100000x64 (![0, 1] : Fin 2 → Fin S100000x64.rank)
  bcast_S100000x1_S100000x128_0_1 : S100000x1.BroadcastsInDim S100000x128 (![0, 1] : Fin 2 → Fin S100000x128.rank)
  bcast_S100000x1_S100000x256_0_1 : S100000x1.BroadcastsInDim S100000x256 (![0, 1] : Fin 2 → Fin S100000x256.rank)
  bcast_S100000x1_S100000x512_0_1 : S100000x1.BroadcastsInDim S100000x512 (![0, 1] : Fin 2 → Fin S100000x512.rank)
  concatenates_S100000x3_S100000x64_S100000x128_S100000x256_S100000x512_S100000x963_d1 : Shape.Concatenates [S100000x3, S100000x64, S100000x128, S100000x256, S100000x512] S100000x963 1
  gather_S56x56x64_S100000x2_S100000x64_1_01_n_n_01_1_1164_wf : GatherDims.WF S56x56x64 S100000x2 S100000x64 [1] [0, 1] [] [0, 1] [] 1 ![1, 1, 64]
  gather_S28x28x128_S100000x2_S100000x128_1_01_n_n_01_1_11128_wf : GatherDims.WF S28x28x128 S100000x2 S100000x128 [1] [0, 1] [] [0, 1] [] 1 ![1, 1, 128]
  gather_S14x14x256_S100000x2_S100000x256_1_01_n_n_01_1_11256_wf : GatherDims.WF S14x14x256 S100000x2 S100000x256 [1] [0, 1] [] [0, 1] [] 1 ![1, 1, 256]
  gather_S7x7x512_S100000x2_S100000x512_1_01_n_n_01_1_11512_wf : GatherDims.WF S7x7x512 S100000x2 S100000x512 [1] [0, 1] [] [0, 1] [] 1 ![1, 1, 512]

variable [Facts₀]

def gather_S56x56x64_S100000x2_S100000x64_1_01_n_n_01_1_1164 : GatherDims S56x56x64 S100000x2 S100000x64 where
  offsetDims := [1]
  collapsedSliceDims := [0, 1]
  operandBatchingDims := []
  startIndicesBatchingDims := []
  startIndexMap := [0, 1]
  indexVectorDim := 1
  sliceSizes := ![1, 1, 64]
  wf := gather_S56x56x64_S100000x2_S100000x64_1_01_n_n_01_1_1164_wf
def gather_S28x28x128_S100000x2_S100000x128_1_01_n_n_01_1_11128 : GatherDims S28x28x128 S100000x2 S100000x128 where
  offsetDims := [1]
  collapsedSliceDims := [0, 1]
  operandBatchingDims := []
  startIndicesBatchingDims := []
  startIndexMap := [0, 1]
  indexVectorDim := 1
  sliceSizes := ![1, 1, 128]
  wf := gather_S28x28x128_S100000x2_S100000x128_1_01_n_n_01_1_11128_wf
def gather_S14x14x256_S100000x2_S100000x256_1_01_n_n_01_1_11256 : GatherDims S14x14x256 S100000x2 S100000x256 where
  offsetDims := [1]
  collapsedSliceDims := [0, 1]
  operandBatchingDims := []
  startIndicesBatchingDims := []
  startIndexMap := [0, 1]
  indexVectorDim := 1
  sliceSizes := ![1, 1, 256]
  wf := gather_S14x14x256_S100000x2_S100000x256_1_01_n_n_01_1_11256_wf
def gather_S7x7x512_S100000x2_S100000x512_1_01_n_n_01_1_11512 : GatherDims S7x7x512 S100000x2 S100000x512 where
  offsetDims := [1]
  collapsedSliceDims := [0, 1]
  operandBatchingDims := []
  startIndicesBatchingDims := []
  startIndexMap := [0, 1]
  indexVectorDim := 1
  sliceSizes := ![1, 1, 512]
  wf := gather_S7x7x512_S100000x2_S100000x512_1_01_n_n_01_1_11512_wf

class Facts : Prop extends Facts₀ where

variable [Facts]
-- ==== Proof.BodyK.lean ====
/-
  The kernel body of `Kernel` on whole staging buffers: one grid point projects 200 points onto four feature maps.
  A point's body loads the 200×3 block of coordinates and each resident feature table [H·W, C] (the map [H, W, C] with
  its two spatial axes merged), and for each of the four levels stores ONE 200×C block: the product of a 200×(H·W)
  matrix of bilinear weights — per row at most four nonzero entries, at the flat positions x·W + y of the four corner
  cells — with the feature table. Written here: each stored value as a function of the loaded blocks (`lvl1` … `lvl4`,
  compositions of the printed arithmetic), what each output buffer holds afterwards (`out5` … `out8`: its one
  whole-block store), and the body's triple: from the inputs held at their contents and the outputs held at anything,
  the body runs, faults nowhere, and hands back the inputs unchanged and the outputs at `out5` … `out8`.
-/
import proofs.«104525_j38852274160230_2_alg».proof.Proof.Gen.Kernel.Launch
import proofs.«104525_j38852274160230_2_alg».proof.Proof.Gen.Kernel.Skeleton
import proofs.«104525_j38852274160230_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-block rectangles the body loads and stores through -/

abbrev rC : Rect S200x3 := Rect.unit (s := S200x3) ![0, 0] S200x3.size inb_S200x3_S200x3_0_0
abbrev rF1 : Rect S3136x64 := Rect.unit (s := S3136x64) ![0, 0] S3136x64.size inb_S3136x64_S3136x64_0_0
abbrev rF2 : Rect S784x128 := Rect.unit (s := S784x128) ![0, 0] S784x128.size inb_S784x128_S784x128_0_0
abbrev rF3 : Rect S196x256 := Rect.unit (s := S196x256) ![0, 0] S196x256.size inb_S196x256_S196x256_0_0
abbrev rF4 : Rect S49x512 := Rect.unit (s := S49x512) ![0, 0] S49x512.size inb_S49x512_S49x512_0_0
abbrev rO1 : Rect S200x64 := Rect.unit (s := S200x64) ![0, 0] S200x64.size inb_S200x64_S200x64_0_0
abbrev rO2 : Rect S200x128 := Rect.unit (s := S200x128) ![0, 0] S200x128.size inb_S200x128_S200x128_0_0
abbrev rO3 : Rect S200x256 := Rect.unit (s := S200x256) ![0, 0] S200x256.size inb_S200x256_S200x256_0_0
abbrev rO4 : Rect S200x512 := Rect.unit (s := S200x512) ![0, 0] S200x512.size inb_S200x512_S200x512_0_0

/-! ## The four stored values, as functions of the loaded blocks

`v0` is the loaded block of coordinates. The clipped pixel coordinates `h`, `w` are `k0_pay3 v0`, `k0_pay4 v0`; level 1
reads them already divided by its cell size (`k0_pay5`, `k0_pay6`) with their floors and ceilings (`k0_pay8` … `k0_pay11`);
the later levels divide `h`, `w` themselves. -/

/-- The float zero the clamps and the masks compare against. -/
abbrev fzero : F .f32 := Scalar.ofBits .f32 0x00000000#32

/-- Level 1 (56×56 cells of 64 channels): weights × table. -/
def lvl1 (v0 : Vec F S200x3 .f32) (v35 : Vec F S3136x64 .f32) : FVec F S200x64 .f32 :=
  k0_pay24 (k0_pay7 v35)
    (k0_pay16 (k0_pay8 v0) (k0_pay11 v0) fzero) (k0_pay17 (k0_pay9 v0) (k0_pay10 v0)) (k0_pay18 (k0_pay9 v0) (k0_pay11 v0))
    (k0_pay19 (k0_pay5 v0) (k0_pay6 v0) (k0_pay8 v0) (k0_pay11 v0)) (k0_pay20 (k0_pay5 v0) (k0_pay6 v0) (k0_pay9 v0) (k0_pay10 v0))
    (k0_pay21 (k0_pay5 v0) (k0_pay6 v0) (k0_pay8 v0) (k0_pay10 v0))
    (iota .tc S200x3136 32 [1] iota_S200x3136_d1_w32)
    (k0_pay22 (k0_pay8 v0) (k0_pay10 v0) fzero) (k0_pay23 (k0_pay5 v0) (k0_pay6 v0) (k0_pay9 v0) (k0_pay11 v0))

/-- Level 2 (28×28 cells of 128 channels). -/
def lvl2 (v0 : Vec F S200x3 .f32) (v127 : Vec F S784x128 .f32) : FVec F S200x128 .f32 :=
  k0_pay47 (k0_pay27 v127)
    (k0_pay38 (k0_pay31 (k0_pay4 v0)) (k0_pay32 (k0_pay3 v0)) (k0_pay33 (F := F)))
    (k0_pay39 (k0_pay29 (k0_pay3 v0)) (k0_pay30 (k0_pay4 v0)))
    (k0_pay40 (k0_pay29 (k0_pay3 v0)) (k0_pay31 (k0_pay4 v0)))
    (k0_pay41 (k0_pay25 (k0_pay3 v0)) (k0_pay26 (k0_pay4 v0)) (k0_pay28 (k0_pay3 v0)) (k0_pay31 (k0_pay4 v0)))
    (k0_pay42 (k0_pay25 (k0_pay3 v0)) (k0_pay26 (k0_pay4 v0)) (k0_pay29 (k0_pay3 v0)) (k0_pay30 (k0_pay4 v0)))
    (k0_pay43 (k0_pay25 (k0_pay3 v0)) (k0_pay26 (k0_pay4 v0)) (k0_pay28 (k0_pay3 v0)) (k0_pay30 (k0_pay4 v0)))
    (iota .tc S200x784 32 [1] iota_S200x784_d1_w32)
    (k0_pay44 (k0_pay30 (k0_pay4 v0)) (k0_pay32 (k0_pay3 v0)) (k0_pay33 (F := F)))
    (k0_pay45 (k0_pay25 (k0_pay3 v0)) (k0_pay26 (k0_pay4 v0)) (k0_pay29 (k0_pay3 v0)) (k0_pay31 (k0_pay4 v0)))
    (k0_pay46 (F := F))

/-- Level 3 (14×14 cells of 256 channels). -/
def lvl3 (v0 : Vec F S200x3 .f32) (v219 : Vec F S196x256 .f32) : FVec F S200x256 .f32 :=
  k0_pay66 (k0_pay50 v219)
    (k0_pay59 (k0_pay52 (k0_pay3 v0)) (k0_pay53 (k0_pay4 v0)) fzero (Scalar.ofBits .f32 0x41500000#32))
    (k0_pay60 (k0_pay52 (k0_pay3 v0)) (k0_pay54 (k0_pay4 v0)) fzero (Scalar.ofBits .f32 0x41500000#32))
    (k0_pay61 (k0_pay48 (k0_pay3 v0)) (k0_pay49 (k0_pay4 v0)) (k0_pay51 (k0_pay3 v0)) (k0_pay54 (k0_pay4 v0)))
    (k0_pay62 (k0_pay48 (k0_pay3 v0)) (k0_pay49 (k0_pay4 v0)) (k0_pay52 (k0_pay3 v0)) (k0_pay53 (k0_pay4 v0)))
    (k0_pay63 (k0_pay48 (k0_pay3 v0)) (k0_pay49 (k0_pay4 v0)) (k0_pay51 (k0_pay3 v0)) (k0_pay53 (k0_pay4 v0)))
    (iota .tc S200x196 32 [1] iota_S200x196_d1_w32)
    (k0_pay64 (k0_pay48 (k0_pay3 v0)) (k0_pay49 (k0_pay4 v0)) (k0_pay52 (k0_pay3 v0)) (k0_pay53 (k0_pay4 v0)) (k0_pay54 (k0_pay4 v0)) (k0_pay55 (k0_pay3 v0)))
    (k0_pay65 (k0_pay54 (k0_pay4 v0)) (k0_pay55 (k0_pay3 v0)))

/-- Level 4 (7×7 cells of 512 channels). -/
def lvl4 (v0 : Vec F S200x3 .f32) (v311 : Vec F S49x512 .f32) : FVec F S200x512 .f32 :=
  k0_pay1 (k0_pay69 v311)
    (k0_pay79 (k0_pay72 (k0_pay4 v0)) (k0_pay75 (k0_pay3 v0)))
    (k0_pay80 (k0_pay73 (k0_pay4 v0)) (k0_pay75 (k0_pay3 v0)))
    (k0_pay81 (k0_pay67 (k0_pay3 v0)) (k0_pay68 (k0_pay4 v0)) (k0_pay70 (k0_pay3 v0)) (k0_pay73 (k0_pay4 v0)))
    (k0_pay82 (k0_pay67 (k0_pay3 v0)) (k0_pay68 (k0_pay4 v0)) (k0_pay70 (k0_pay3 v0)) (k0_pay72 (k0_pay4 v0)))
    (iota .tc S200x49 32 [1] iota_S200x49_d1_w32)
    (k0_pay83 (k0_pay67 (k0_pay3 v0)) (k0_pay68 (k0_pay4 v0)) (k0_pay71 (k0_pay3 v0)) (k0_pay72 (k0_pay4 v0)) (k0_pay73 (k0_pay4 v0)) (k0_pay74 (k0_pay3 v0)))
    (k0_pay84 (k0_pay73 (k0_pay4 v0)) (k0_pay74 (k0_pay3 v0)))
    fzero
    (k0_pay85 (k0_pay67 (k0_pay3 v0)) (k0_pay68 (k0_pay4 v0)) (k0_pay71 (k0_pay3 v0)) (k0_pay72 (k0_pay4 v0)))

/-! ## What the body leaves in each output buffer: its one store, covering the buffer -/

def out5 (x0 : Vec F S200x3 .f32) (x1 : Vec F S3136x64 .f32) : Vec F S200x64 .f32 :=
  View.canon [⟨rO1, lvl1 (View.ld x0 rC) (View.ld x1 rF1)⟩]
def out6 (x0 : Vec F S200x3 .f32) (x2 : Vec F S784x128 .f32) : Vec F S200x128 .f32 :=
  View.canon [⟨rO2, lvl2 (View.ld x0 rC) (View.ld x2 rF2)⟩]
def out7 (x0 : Vec F S200x3 .f32) (x3 : Vec F S196x256 .f32) : Vec F S200x256 .f32 :=
  View.canon [⟨rO3, lvl3 (View.ld x0 rC) (View.ld x3 rF3)⟩]
def out8 (x0 : Vec F S200x3 .f32) (x4 : Vec F S49x512 .f32) : Vec F S200x512 .f32 :=
  View.canon [⟨rO4, lvl4 (View.ld x0 rC) (View.ld x4 rF4)⟩]

theorem cover5 (p0 : Vec F S200x64 .f32) (y : S200x64.Idx) :
    ∃ pc ∈ ([⟨rO1, p0⟩] : List (View.Piece (Elt F) S200x64 .f32)), y ∈ pc.1.set :=
  View.cover_of_tiled [⟨rO1, p0⟩] S200x64.size (by rfl) y
theorem cover6 (p0 : Vec F S200x128 .f32) (y : S200x128.Idx) :
    ∃ pc ∈ ([⟨rO2, p0⟩] : List (View.Piece (Elt F) S200x128 .f32)), y ∈ pc.1.set :=
  View.cover_of_tiled [⟨rO2, p0⟩] S200x128.size (by rfl) y
theorem cover7 (p0 : Vec F S200x256 .f32) (y : S200x256.Idx) :
    ∃ pc ∈ ([⟨rO3, p0⟩] : List (View.Piece (Elt F) S200x256 .f32)), y ∈ pc.1.set :=
  View.cover_of_tiled [⟨rO3, p0⟩] S200x256.size (by rfl) y
theorem cover8 (p0 : Vec F S200x512 .f32) (y : S200x512.Idx) :
    ∃ pc ∈ ([⟨rO4, p0⟩] : List (View.Piece (Elt F) S200x512 .f32)), y ∈ pc.1.set :=
  View.cover_of_tiled [⟨rO4, p0⟩] S200x512.size (by rfl) y

/-! ## The body's triple -/

set_option maxHeartbeats 4000000 in
/-- On whole staging buffers, the five inputs at contents `x0` … `x4` and the four outputs at anything, the body runs
    to the continuation holding the inputs as they were and each output at its one store over the loaded blocks. -/
theorem sound_kernel (c : Dev nD) (E : Set ℕ) (i : grid0.Coords)
    (arg1 : Memref sig .tc .vmem S200x3 .f32) (harg1 : arg1.IsWhole) (arg2 : Memref sig .tc .vmem S3136x64 .f32) (harg2 : arg2.IsWhole)
    (arg3 : Memref sig .tc .vmem S784x128 .f32) (harg3 : arg3.IsWhole) (arg4 : Memref sig .tc .vmem S196x256 .f32) (harg4 : arg4.IsWhole)
    (arg5 : Memref sig .tc .vmem S49x512 .f32) (harg5 : arg5.IsWhole) (arg6 : Memref sig .tc .vmem S200x64 .f32) (harg6 : arg6.IsWhole)
    (arg7 : Memref sig .tc .vmem S200x128 .f32) (harg7 : arg7.IsWhole) (arg8 : Memref sig .tc .vmem S200x256 .f32) (harg8 : arg8.IsWhole)
    (arg9 : Memref sig .tc .vmem S200x512 .f32) (harg9 : arg9.IsWhole)
    (x0 : Vec F S200x3 .f32) (x1 : Vec F S3136x64 .f32) (x2 : Vec F S784x128 .f32) (x3 : Vec F S196x256 .f32) (x4 : Vec F S49x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1) ∗ owns (c : Thread nD τ) arg7 fullShare (out6 x0 x2)
            ∗ owns (c : Thread nD τ) arg8 fullShare (out7 x0 x3) ∗ owns (c : Thread nD τ) arg9 fullShare (out8 x0 x4)) -∗ K ⟨⟩))
      ⊢ wp frame (wpE (defs₀ (F := F)) Variants.none c none) E
          (cc0__proj_kernel i arg1 harg1 arg2 harg2 arg3 harg3 arg4 harg4 arg5 harg5 arg6 harg6 arg7 harg7 arg8 harg8 arg9 harg9) K := by
  simp only [cc0__proj_kernel_eq_skeleton]; unfold cc0__proj_kernel_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, ⟨%d7, %f7, -, H7⟩, ⟨%d8, %f8, -, H8⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover5 _)
  isplitl [H6]
  · iexists _; isplitr
    swap; · iexact H6
    ipureintro
    exact View.read_writes_eq_canon _ _ _ (cover6 _)
  isplitl [H7]
  · iexists _; isplitr
    swap; · iexact H7
    ipureintro
    exact View.read_writes_eq_canon _ _ _ (cover7 _)
  iexists _; isplitr
  swap; · iexact H8
  ipureintro
  exact View.read_writes_eq_canon _ _ _ (cover8 _)

end Cert.Kernel.Hand

end
-- ==== Proof.FrameK.lean ====
/-
  The frame of `Kernel`: @main is four host reshapes (each feature map [H, W, C] read as a table [H·W, C]), ONE pipelined
  region over 500 grid points, and one host concatenation of the coordinates with the region's four results.
  The pipeline stages nine windows: the coordinates (a fresh 200×3 block per point), the four tables (resident: one
  block, fetched at the first point only), and the four results (a 200×C block per point, written back at every point).
  Written here: the arrays as the region finds them (`V`: the launch memory after the reshapes), each window's block at
  a point read off them (`iblk`), the proof data (`dats`: after the body at point `t` an input's buffer still holds its
  block and result `k`'s holds the body's store over the coordinates' block and table `k`), the body obligation at
  every point from the body's triple, the run to the library's frame post continued by the concatenation
  (`run_main`), and from it that every argument array ends as launched (`frame`).
-/
import proofs.«104525_j38852274160230_2_alg».proof.Proof.BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch memory after the four reshapes. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshapes, the region, then the concatenation: it reduces to the region continued by the last line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The concatenation touches unscoped TensorCore buffers only: the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes only its own result, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nary_writes, Finset.mem_singleton] <;> exact StableHlo.devRef_ne_of_ne (by decide)

/-- No reshape writes an argument array: the region finds each as launched. -/
theorem V_arg (c : Dev nD) (b : Ref sig .tc) (hb : b ≠ main_v0 ∧ b ≠ main_v1 ∧ b ≠ main_v2 ∧ b ≠ main_v3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data over `V` whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (a resident table's
    index never moves), for any proof data over `V` whose body leaves the block in place. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (a resident table's
    index never moves), for any proof data over `V` whose body leaves the block in place. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (a resident table's
    index never moves), for any proof data over `V` whose body leaves the block in place. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (a resident table's
    index never moves), for any proof data over `V` whose body leaves the block in place. -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body at point `t` each input's buffer at its block and result `k`'s
    at the body's store over the coordinates' block and table `k`; nothing of the kernel's own in the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t)
    | ⟨6, _⟩ => out6 (iblk m c 0 t) (iblk m c 2 t)
    | ⟨7, _⟩ => out7 (iblk m c 0 t) (iblk m c 3 t)
    | ⟨8, _⟩ => out8 (iblk m c 0 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out5 (iblk m c 0 t) (iblk m c 1 t) := by dsimp only [dats]
theorem after6 (c : Dev nD) (t : Fin cfg0.N) : (dats m 0 c).after 6 t = out6 (iblk m c 0 t) (iblk m c 2 t) := by dsimp only [dats]
theorem after7 (c : Dev nD) (t : Fin cfg0.N) : (dats m 0 c).after 7 t = out7 (iblk m c 0 t) (iblk m c 3 t) := by dsimp only [dats]
theorem after8 (c : Dev nD) (t : Fin cfg0.N) : (dats m 0 c).after 8 t = out8 (iblk m c 0 t) (iblk m c 4 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, each array of the pipeline
    at what the proof data's write-backs leave and every other unscoped buffer as the concatenation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The concatenation writes only its result: a buffer that is neither that result nor an array of the pipeline ends
    at its region-entry contents. -/
theorem tail_keeps (c : Dev nD) (b : Ref sig .tc) (hb5 : b ≠ main_v5) (hb : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nary_writes, Finset.mem_singleton]
      exact StableHlo.devRef_ne_of_ne hb5)),
    Pipeline.withArrays_of_ne _ c (V0 m c) _ b hb]

/-- Every argument array ends as launched, read off the run's post — the coordinates are an input array of the
    pipeline (never written back), the four feature maps bypass it (the pipeline stages their reshaped copies) and
    the concatenation writes none of them. -/
theorem args_kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
    ⟨((h c).1 0).trans (((dats m 0 c).arrAt_in 0 rfl _).trans ((A_eq m c 0).trans (V_arg m c main_arg0 (by decide)))),
     ((h c).2 main_arg1 (Pipeline.mem_restRefs_of main_arg1 (by decide) (by decide))).trans
       ((tail_keeps m c main_arg1 (by decide) (by decide)).trans (V_arg m c main_arg1 (by decide))),
     ((h c).2 main_arg2 (Pipeline.mem_restRefs_of main_arg2 (by decide) (by decide))).trans
       ((tail_keeps m c main_arg2 (by decide) (by decide)).trans (V_arg m c main_arg2 (by decide))),
     ((h c).2 main_arg3 (Pipeline.mem_restRefs_of main_arg3 (by decide) (by decide))).trans
       ((tail_keeps m c main_arg3 (by decide) (by decide)).trans (V_arg m c main_arg3 (by decide))),
     ((h c).2 main_arg4 (Pipeline.mem_restRefs_of main_arg4 (by decide) (by decide))).trans
       ((tail_keeps m c main_arg4 (by decide) (by decide)).trans (V_arg m c main_arg4 (by decide)))⟩

/-- THE FRAME: every weakly fair execution of @main terminates, nothing faulting, every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m r h c) (run_main m ρ)

end Cert.Kernel.Hand

end
-- ==== Proof.BodyKI.lean ====
/-
  The kernel body of `KernelIdeal` on whole staging buffers: one grid point projects 200 points onto four feature maps.
  A point's body loads the 200×3 block of coordinates and each resident feature table [H·W, C] (the map [H, W, C] with
  its two spatial axes merged), and for each of the four levels stores ONE 200×C block: the product of a 200×(H·W)
  matrix of bilinear weights — per row at most four nonzero entries, at the flat positions x·W + y of the four corner
  cells — with the feature table. Written here: each stored value as a function of the loaded blocks (`lvl1` … `lvl4`,
  compositions of the printed arithmetic), what each output buffer holds afterwards (`out5` … `out8`: its one
  whole-block store), and the body's triple: from the inputs held at their contents and the outputs held at anything,
  the body runs, faults nowhere, and hands back the inputs unchanged and the outputs at `out5` … `out8`.
-/
import proofs.«104525_j38852274160230_2_alg».proof.Proof.Gen.KernelIdeal.Launch
import proofs.«104525_j38852274160230_2_alg».proof.Proof.Gen.KernelIdeal.Skeleton
import proofs.«104525_j38852274160230_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-block rectangles the body loads and stores through -/

abbrev rC : Rect S200x3 := Rect.unit (s := S200x3) ![0, 0] S200x3.size inb_S200x3_S200x3_0_0
abbrev rF1 : Rect S3136x64 := Rect.unit (s := S3136x64) ![0, 0] S3136x64.size inb_S3136x64_S3136x64_0_0
abbrev rF2 : Rect S784x128 := Rect.unit (s := S784x128) ![0, 0] S784x128.size inb_S784x128_S784x128_0_0
abbrev rF3 : Rect S196x256 := Rect.unit (s := S196x256) ![0, 0] S196x256.size inb_S196x256_S196x256_0_0
abbrev rF4 : Rect S49x512 := Rect.unit (s := S49x512) ![0, 0] S49x512.size inb_S49x512_S49x512_0_0
abbrev rO1 : Rect S200x64 := Rect.unit (s := S200x64) ![0, 0] S200x64.size inb_S200x64_S200x64_0_0
abbrev rO2 : Rect S200x128 := Rect.unit (s := S200x128) ![0, 0] S200x128.size inb_S200x128_S200x128_0_0
abbrev rO3 : Rect S200x256 := Rect.unit (s := S200x256) ![0, 0] S200x256.size inb_S200x256_S200x256_0_0
abbrev rO4 : Rect S200x512 := Rect.unit (s := S200x512) ![0, 0] S200x512.size inb_S200x512_S200x512_0_0

/-! ## The four stored values, as functions of the loaded blocks

`v0` is the loaded block of coordinates. The clipped pixel coordinates `h`, `w` are `k0_pay3 v0`, `k0_pay4 v0`; level 1
reads them already divided by its cell size (`k0_pay5`, `k0_pay6`) with their floors and ceilings (`k0_pay8` … `k0_pay11`);
the later levels divide `h`, `w` themselves. -/

/-- The float zero the clamps and the masks compare against. -/
abbrev fzero : F .f32 := Scalar.ofBits .f32 0x00000000#32

/-- Level 1 (56×56 cells of 64 channels): weights × table. -/
def lvl1 (v0 : Vec F S200x3 .f32) (v35 : Vec F S3136x64 .f32) : FVec F S200x64 .f32 :=
  k0_pay24 (k0_pay7 v35)
    (k0_pay16 (k0_pay8 v0) (k0_pay11 v0) fzero) (k0_pay17 (k0_pay9 v0) (k0_pay10 v0)) (k0_pay18 (k0_pay9 v0) (k0_pay11 v0))
    (k0_pay19 (k0_pay5 v0) (k0_pay6 v0) (k0_pay8 v0) (k0_pay11 v0)) (k0_pay20 (k0_pay5 v0) (k0_pay6 v0) (k0_pay9 v0) (k0_pay10 v0))
    (k0_pay21 (k0_pay5 v0) (k0_pay6 v0) (k0_pay8 v0) (k0_pay10 v0))
    (iota .tc S200x3136 32 [1] iota_S200x3136_d1_w32)
    (k0_pay22 (k0_pay8 v0) (k0_pay10 v0) fzero) (k0_pay23 (k0_pay5 v0) (k0_pay6 v0) (k0_pay9 v0) (k0_pay11 v0))

/-- Level 2 (28×28 cells of 128 channels). -/
def lvl2 (v0 : Vec F S200x3 .f32) (v127 : Vec F S784x128 .f32) : FVec F S200x128 .f32 :=
  k0_pay47 (k0_pay27 v127)
    (k0_pay38 (k0_pay31 (k0_pay4 v0)) (k0_pay32 (k0_pay3 v0)) (k0_pay33 (F := F)))
    (k0_pay39 (k0_pay29 (k0_pay3 v0)) (k0_pay30 (k0_pay4 v0)))
    (k0_pay40 (k0_pay29 (k0_pay3 v0)) (k0_pay31 (k0_pay4 v0)))
    (k0_pay41 (k0_pay25 (k0_pay3 v0)) (k0_pay26 (k0_pay4 v0)) (k0_pay28 (k0_pay3 v0)) (k0_pay31 (k0_pay4 v0)))
    (k0_pay42 (k0_pay25 (k0_pay3 v0)) (k0_pay26 (k0_pay4 v0)) (k0_pay29 (k0_pay3 v0)) (k0_pay30 (k0_pay4 v0)))
    (k0_pay43 (k0_pay25 (k0_pay3 v0)) (k0_pay26 (k0_pay4 v0)) (k0_pay28 (k0_pay3 v0)) (k0_pay30 (k0_pay4 v0)))
    (iota .tc S200x784 32 [1] iota_S200x784_d1_w32)
    (k0_pay44 (k0_pay30 (k0_pay4 v0)) (k0_pay32 (k0_pay3 v0)) (k0_pay33 (F := F)))
    (k0_pay45 (k0_pay25 (k0_pay3 v0)) (k0_pay26 (k0_pay4 v0)) (k0_pay29 (k0_pay3 v0)) (k0_pay31 (k0_pay4 v0)))
    (k0_pay46 (F := F))

/-- Level 3 (14×14 cells of 256 channels). -/
def lvl3 (v0 : Vec F S200x3 .f32) (v219 : Vec F S196x256 .f32) : FVec F S200x256 .f32 :=
  k0_pay66 (k0_pay50 v219)
    (k0_pay59 (k0_pay52 (k0_pay3 v0)) (k0_pay53 (k0_pay4 v0)) fzero (Scalar.ofBits .f32 0x41500000#32))
    (k0_pay60 (k0_pay52 (k0_pay3 v0)) (k0_pay54 (k0_pay4 v0)) fzero (Scalar.ofBits .f32 0x41500000#32))
    (k0_pay61 (k0_pay48 (k0_pay3 v0)) (k0_pay49 (k0_pay4 v0)) (k0_pay51 (k0_pay3 v0)) (k0_pay54 (k0_pay4 v0)))
    (k0_pay62 (k0_pay48 (k0_pay3 v0)) (k0_pay49 (k0_pay4 v0)) (k0_pay52 (k0_pay3 v0)) (k0_pay53 (k0_pay4 v0)))
    (k0_pay63 (k0_pay48 (k0_pay3 v0)) (k0_pay49 (k0_pay4 v0)) (k0_pay51 (k0_pay3 v0)) (k0_pay53 (k0_pay4 v0)))
    (iota .tc S200x196 32 [1] iota_S200x196_d1_w32)
    (k0_pay64 (k0_pay48 (k0_pay3 v0)) (k0_pay49 (k0_pay4 v0)) (k0_pay52 (k0_pay3 v0)) (k0_pay53 (k0_pay4 v0)) (k0_pay54 (k0_pay4 v0)) (k0_pay55 (k0_pay3 v0)))
    (k0_pay65 (k0_pay54 (k0_pay4 v0)) (k0_pay55 (k0_pay3 v0)))

/-- Level 4 (7×7 cells of 512 channels). -/
def lvl4 (v0 : Vec F S200x3 .f32) (v311 : Vec F S49x512 .f32) : FVec F S200x512 .f32 :=
  k0_pay1 (k0_pay69 v311)
    (k0_pay79 (k0_pay72 (k0_pay4 v0)) (k0_pay75 (k0_pay3 v0)))
    (k0_pay80 (k0_pay73 (k0_pay4 v0)) (k0_pay75 (k0_pay3 v0)))
    (k0_pay81 (k0_pay67 (k0_pay3 v0)) (k0_pay68 (k0_pay4 v0)) (k0_pay70 (k0_pay3 v0)) (k0_pay73 (k0_pay4 v0)))
    (k0_pay82 (k0_pay67 (k0_pay3 v0)) (k0_pay68 (k0_pay4 v0)) (k0_pay70 (k0_pay3 v0)) (k0_pay72 (k0_pay4 v0)))
    (iota .tc S200x49 32 [1] iota_S200x49_d1_w32)
    (k0_pay83 (k0_pay67 (k0_pay3 v0)) (k0_pay68 (k0_pay4 v0)) (k0_pay71 (k0_pay3 v0)) (k0_pay72 (k0_pay4 v0)) (k0_pay73 (k0_pay4 v0)) (k0_pay74 (k0_pay3 v0)))
    (k0_pay84 (k0_pay73 (k0_pay4 v0)) (k0_pay74 (k0_pay3 v0)))
    fzero
    (k0_pay85 (k0_pay67 (k0_pay3 v0)) (k0_pay68 (k0_pay4 v0)) (k0_pay71 (k0_pay3 v0)) (k0_pay72 (k0_pay4 v0)))

/-! ## What the body leaves in each output buffer: its one store, covering the buffer -/

def out5 (x0 : Vec F S200x3 .f32) (x1 : Vec F S3136x64 .f32) : Vec F S200x64 .f32 :=
  View.canon [⟨rO1, lvl1 (View.ld x0 rC) (View.ld x1 rF1)⟩]
def out6 (x0 : Vec F S200x3 .f32) (x2 : Vec F S784x128 .f32) : Vec F S200x128 .f32 :=
  View.canon [⟨rO2, lvl2 (View.ld x0 rC) (View.ld x2 rF2)⟩]
def out7 (x0 : Vec F S200x3 .f32) (x3 : Vec F S196x256 .f32) : Vec F S200x256 .f32 :=
  View.canon [⟨rO3, lvl3 (View.ld x0 rC) (View.ld x3 rF3)⟩]
def out8 (x0 : Vec F S200x3 .f32) (x4 : Vec F S49x512 .f32) : Vec F S200x512 .f32 :=
  View.canon [⟨rO4, lvl4 (View.ld x0 rC) (View.ld x4 rF4)⟩]

theorem cover5 (p0 : Vec F S200x64 .f32) (y : S200x64.Idx) :
    ∃ pc ∈ ([⟨rO1, p0⟩] : List (View.Piece (Elt F) S200x64 .f32)), y ∈ pc.1.set :=
  View.cover_of_tiled [⟨rO1, p0⟩] S200x64.size (by rfl) y
theorem cover6 (p0 : Vec F S200x128 .f32) (y : S200x128.Idx) :
    ∃ pc ∈ ([⟨rO2, p0⟩] : List (View.Piece (Elt F) S200x128 .f32)), y ∈ pc.1.set :=
  View.cover_of_tiled [⟨rO2, p0⟩] S200x128.size (by rfl) y
theorem cover7 (p0 : Vec F S200x256 .f32) (y : S200x256.Idx) :
    ∃ pc ∈ ([⟨rO3, p0⟩] : List (View.Piece (Elt F) S200x256 .f32)), y ∈ pc.1.set :=
  View.cover_of_tiled [⟨rO3, p0⟩] S200x256.size (by rfl) y
theorem cover8 (p0 : Vec F S200x512 .f32) (y : S200x512.Idx) :
    ∃ pc ∈ ([⟨rO4, p0⟩] : List (View.Piece (Elt F) S200x512 .f32)), y ∈ pc.1.set :=
  View.cover_of_tiled [⟨rO4, p0⟩] S200x512.size (by rfl) y

/-! ## The body's triple -/

set_option maxHeartbeats 4000000 in
/-- On whole staging buffers, the five inputs at contents `x0` … `x4` and the four outputs at anything, the body runs
    to the continuation holding the inputs as they were and each output at its one store over the loaded blocks. -/
theorem sound_kernel (c : Dev nD) (E : Set ℕ) (i : grid0.Coords)
    (arg1 : Memref sig .tc .vmem S200x3 .f32) (harg1 : arg1.IsWhole) (arg2 : Memref sig .tc .vmem S3136x64 .f32) (harg2 : arg2.IsWhole)
    (arg3 : Memref sig .tc .vmem S784x128 .f32) (harg3 : arg3.IsWhole) (arg4 : Memref sig .tc .vmem S196x256 .f32) (harg4 : arg4.IsWhole)
    (arg5 : Memref sig .tc .vmem S49x512 .f32) (harg5 : arg5.IsWhole) (arg6 : Memref sig .tc .vmem S200x64 .f32) (harg6 : arg6.IsWhole)
    (arg7 : Memref sig .tc .vmem S200x128 .f32) (harg7 : arg7.IsWhole) (arg8 : Memref sig .tc .vmem S200x256 .f32) (harg8 : arg8.IsWhole)
    (arg9 : Memref sig .tc .vmem S200x512 .f32) (harg9 : arg9.IsWhole)
    (x0 : Vec F S200x3 .f32) (x1 : Vec F S3136x64 .f32) (x2 : Vec F S784x128 .f32) (x3 : Vec F S196x256 .f32) (x4 : Vec F S49x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1) ∗ owns (c : Thread nD τ) arg7 fullShare (out6 x0 x2)
            ∗ owns (c : Thread nD τ) arg8 fullShare (out7 x0 x3) ∗ owns (c : Thread nD τ) arg9 fullShare (out8 x0 x4)) -∗ K ⟨⟩))
      ⊢ wp frame (wpE (defs₀ (F := F)) Variants.none c none) E
          (cc0__proj_kernel i arg1 harg1 arg2 harg2 arg3 harg3 arg4 harg4 arg5 harg5 arg6 harg6 arg7 harg7 arg8 harg8 arg9 harg9) K := by
  simp only [cc0__proj_kernel_eq_skeleton]; unfold cc0__proj_kernel_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, ⟨%d7, %f7, -, H7⟩, ⟨%d8, %f8, -, H8⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover5 _)
  isplitl [H6]
  · iexists _; isplitr
    swap; · iexact H6
    ipureintro
    exact View.read_writes_eq_canon _ _ _ (cover6 _)
  isplitl [H7]
  · iexists _; isplitr
    swap; · iexact H7
    ipureintro
    exact View.read_writes_eq_canon _ _ _ (cover7 _)
  iexists _; isplitr
  swap; · iexact H8
  ipureintro
  exact View.read_writes_eq_canon _ _ _ (cover8 _)

end Cert.KernelIdeal.Hand

end
-- ==== Proof.FrameKI.lean ====
/-
  The frame of `KernelIdeal`: @main is four host reshapes (each feature map [H, W, C] read as a table [H·W, C]), ONE pipelined
  region over 500 grid points, and one host concatenation of the coordinates with the region's four results.
  The pipeline stages nine windows: the coordinates (a fresh 200×3 block per point), the four tables (resident: one
  block, fetched at the first point only), and the four results (a 200×C block per point, written back at every point).
  Written here: the arrays as the region finds them (`V`: the launch memory after the reshapes), each window's block at
  a point read off them (`iblk`), the proof data (`dats`: after the body at point `t` an input's buffer still holds its
  block and result `k`'s holds the body's store over the coordinates' block and table `k`), the body obligation at
  every point from the body's triple, the run to the library's frame post continued by the concatenation
  (`run_main`), and from it that every argument array ends as launched (`frame`).
-/
import proofs.«104525_j38852274160230_2_alg».proof.Proof.BodyKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch memory after the four reshapes. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshapes, the region, then the concatenation: it reduces to the region continued by the last line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The concatenation touches unscoped TensorCore buffers only: the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes only its own result, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nary_writes, Finset.mem_singleton] <;> exact StableHlo.devRef_ne_of_ne (by decide)

/-- No reshape writes an argument array: the region finds each as launched. -/
theorem V_arg (c : Dev nD) (b : Ref sig .tc) (hb : b ≠ main_v0 ∧ b ≠ main_v1 ∧ b ≠ main_v2 ∧ b ≠ main_v3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data over `V` whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (a resident table's
    index never moves), for any proof data over `V` whose body leaves the block in place. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (a resident table's
    index never moves), for any proof data over `V` whose body leaves the block in place. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (a resident table's
    index never moves), for any proof data over `V` whose body leaves the block in place. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (a resident table's
    index never moves), for any proof data over `V` whose body leaves the block in place. -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body at point `t` each input's buffer at its block and result `k`'s
    at the body's store over the coordinates' block and table `k`; nothing of the kernel's own in the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t)
    | ⟨6, _⟩ => out6 (iblk m c 0 t) (iblk m c 2 t)
    | ⟨7, _⟩ => out7 (iblk m c 0 t) (iblk m c 3 t)
    | ⟨8, _⟩ => out8 (iblk m c 0 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out5 (iblk m c 0 t) (iblk m c 1 t) := by dsimp only [dats]
theorem after6 (c : Dev nD) (t : Fin cfg0.N) : (dats m 0 c).after 6 t = out6 (iblk m c 0 t) (iblk m c 2 t) := by dsimp only [dats]
theorem after7 (c : Dev nD) (t : Fin cfg0.N) : (dats m 0 c).after 7 t = out7 (iblk m c 0 t) (iblk m c 3 t) := by dsimp only [dats]
theorem after8 (c : Dev nD) (t : Fin cfg0.N) : (dats m 0 c).after 8 t = out8 (iblk m c 0 t) (iblk m c 4 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, each array of the pipeline
    at what the proof data's write-backs leave and every other unscoped buffer as the concatenation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The concatenation writes only its result: a buffer that is neither that result nor an array of the pipeline ends
    at its region-entry contents. -/
theorem tail_keeps (c : Dev nD) (b : Ref sig .tc) (hb5 : b ≠ main_v5) (hb : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nary_writes, Finset.mem_singleton]
      exact StableHlo.devRef_ne_of_ne hb5)),
    Pipeline.withArrays_of_ne _ c (V0 m c) _ b hb]

/-- Every argument array ends as launched, read off the run's post — the coordinates are an input array of the
    pipeline (never written back), the four feature maps bypass it (the pipeline stages their reshaped copies) and
    the concatenation writes none of them. -/
theorem args_kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
    ⟨((h c).1 0).trans (((dats m 0 c).arrAt_in 0 rfl _).trans ((A_eq m c 0).trans (V_arg m c main_arg0 (by decide)))),
     ((h c).2 main_arg1 (Pipeline.mem_restRefs_of main_arg1 (by decide) (by decide))).trans
       ((tail_keeps m c main_arg1 (by decide) (by decide)).trans (V_arg m c main_arg1 (by decide))),
     ((h c).2 main_arg2 (Pipeline.mem_restRefs_of main_arg2 (by decide) (by decide))).trans
       ((tail_keeps m c main_arg2 (by decide) (by decide)).trans (V_arg m c main_arg2 (by decide))),
     ((h c).2 main_arg3 (Pipeline.mem_restRefs_of main_arg3 (by decide) (by decide))).trans
       ((tail_keeps m c main_arg3 (by decide) (by decide)).trans (V_arg m c main_arg3 (by decide))),
     ((h c).2 main_arg4 (Pipeline.mem_restRefs_of main_arg4 (by decide) (by decide))).trans
       ((tail_keeps m c main_arg4 (by decide) (by decide)).trans (V_arg m c main_arg4 (by decide)))⟩

/-- THE FRAME: every weakly fair execution of @main terminates, nothing faulting, every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m r h c) (run_main m ρ)

end Cert.KernelIdeal.Hand

end
-- ==== Proof.Spec.lean ====
/-
  What one projected point holds, as a function of its coordinates and a feature map.
  A point (X, Y, Z) is projected to the pixel h = 250·(−Y)/(−Z) + 112, w = 250·X/(−Z) + 112, each clipped into
  [0, 223]. A feature map of H×W cells is laid over the 224×224 image, so the point falls at the fractional cell
  position (h/s, w/s) with s = 224/H the cell size; its feature is the bilinear interpolation of the four cells
  around that position — corner (⌊·⌋ or ⌈·⌉ per axis) weighted by the product of the distances to the OPPOSITE
  roundings — where a corner index past the last row or column is clamped to it.
  Everything is on the extended reals: a division by zero has the value the float operations give it there, and
  the clip brings any value back into [0, 223].
-/
import Idealize.ShloMosaic.PureOps.Ideal
import Idealize.ShloMosaic.PureOps.Ideal.Laws
import Idealize.ShloMosaic.Lib.ValueIdx

noncomputable section

namespace Cert.Proj

open Idealize.ShloMosaic Idealize.ShloMosaic.ValueIdx

/-- The extended real an f32 word denotes. -/
abbrev lit (b : BitVec 32) : EReal := Ideal.ofBits .f32 b

/-- A pixel coordinate: 250·num / (−z) + 112 clipped into [0, 223] (the words are 250, 112, 0 and 223). -/
def pix (num z : EReal) : EReal :=
  min (lit 0x435F0000#32) (max (lit 0x00000000#32) (Ideal.div (lit 0x437A0000#32 * num) (-z) + lit 0x42E00000#32))

/-- Row position in cells of size `sw` (a word): from the point's Y and Z. -/
def hsOf (sw : BitVec 32) (y z : EReal) : EReal := Ideal.div (pix (-y) z) (lit sw)
/-- Column position in cells of size `sw`: from the point's X and Z. -/
def wsOf (sw : BitVec 32) (x z : EReal) : EReal := Ideal.div (pix x z) (lit sw)

/-- Floor and ceiling on the extended reals (the infinities fixed). -/
def fl (x : EReal) : EReal := Ideal.liftRound Int.floor x
def ce (x : EReal) : EReal := Ideal.liftRound Int.ceil x

/-- The cell a rounded position names along an axis of `n` cells: its integer value read signed, clamped into
    [0, n − 1]. -/
def cell (n : Nat) (x : EReal) : Nat := min (Ideal.fptosi 32 x).toInt.toNat (n - 1)

theorem cell_lt (n : Nat) (hn : 0 < n) (x : EReal) : cell n x < n := by
  unfold cell; omega

/-- Bilinear interpolation of the map `g` (cell row, cell column, channel) at the fractional position (hs, ws):
    the four corners, each weighted by the distances to the opposite roundings; summed in the order
    (⌊⌋,⌊⌋), (⌈⌉,⌊⌋), (⌊⌋,⌈⌉), (⌈⌉,⌈⌉). -/
def bilin {H W C : Nat} (hH : 0 < H) (hW : 0 < W) (g : Fin H → Fin W → Fin C → EReal) (hs ws : EReal) (q : Fin C) : EReal :=
  (ce hs - hs) * (ce ws - ws) * g ⟨cell H (fl hs), cell_lt H hH _⟩ ⟨cell W (fl ws), cell_lt W hW _⟩ q
  + (hs - fl hs) * (ce ws - ws) * g ⟨cell H (ce hs), cell_lt H hH _⟩ ⟨cell W (fl ws), cell_lt W hW _⟩ q
  + (ce hs - hs) * (ws - fl ws) * g ⟨cell H (fl hs), cell_lt H hH _⟩ ⟨cell W (ce ws), cell_lt W hW _⟩ q
  + (hs - fl hs) * (ws - fl ws) * g ⟨cell H (ce hs), cell_lt H hH _⟩ ⟨cell W (ce ws), cell_lt W hW _⟩ q

/-- One level's result array [100000, C]: point `n`, channel `q`, from the coordinates array and the map. -/
def level {H W C : Nat} (hH : 0 < H) (hW : 0 < W) (sw : BitVec 32)
    (a0 : (⟨2, ![100000, 3]⟩ : Shape).Idx → EReal) (g : Fin H → Fin W → Fin C → EReal) :
    (⟨2, ![100000, C]⟩ : Shape).Idx → EReal :=
  fun j => bilin hH hW g (hsOf sw (a0 (ix2 (j 0) 1)) (a0 (ix2 (j 0) 2))) (wsOf sw (a0 (ix2 (j 0) 0)) (a0 (ix2 (j 0) 2))) (j 1)

end Cert.Proj

end
-- ==== Proof.KerArray.lean ====
/-
  From blocks to arrays: what each of the region's four result arrays holds after the run.
  Point `t` of the grid stages rows 200·t … 200·t + 199 of the coordinates and writes back the same rows of each
  result; each feature table is ONE block, the whole table, at every point, and it is the launched feature map
  [H, W, C] with its spatial axes merged: table row i·W + j is cell (i, j). So the body's stored value at row p of
  point t, read through the level's value lemma (taken here as a hypothesis: the interpolation over the table's
  rows), is the specification's interpolation for point 200·t + p over the launched map; the 500 blocks tile the
  100000 rows, so the whole array is the specification's level array.
-/
import proofs.«104525_j38852274160230_2_alg».proof.Proof.FrameKI
import proofs.«104525_j38852274160230_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.ArrValue

open Cert.KernelIdeal Cert.KernelIdeal.Gen Cert.KernelIdeal.Hand Cert.Proj
open Idealize.ShloMosaic Idealize.ShloMosaic.TcCoe Idealize.ShloMosaic.ValueIdx Idealize.SL.Sem
open Idealize.ShloMosaic.Pipeline (Dat)

/-- Every entry of an array is a real number (no infinity). -/
def AllReal {S : Shape} (x : S.Idx → EReal) : Prop := ∀ j, ∃ r : ℝ, x j = (r : EReal)

variable (m : (ℓ : Loc nD τ sig) → Buf (Elt Ideal) ℓ) (c : Dev nD)

theorem hz : (![0, 0] : Fin 2 → Nat) = fun _ => 0 := funext fun a => by fin_cases a <;> rfl

/-- The schedule, decided over the grid: the coordinates' and the results' blocks advance one block of rows per
    point; every table's block index stays (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ (win0_5.index t (0 : Fin 2) = t.val ∧ win0_5.index t (1 : Fin 2) = 0
      ∧ win0_6.index t (0 : Fin 2) = t.val ∧ win0_6.index t (1 : Fin 2) = 0
      ∧ win0_7.index t (0 : Fin 2) = t.val ∧ win0_7.index t (1 : Fin 2) = 0
      ∧ win0_8.index t (0 : Fin 2) = t.val ∧ win0_8.index t (1 : Fin 2) = 0) :=
  (by decide +kernel : ∀ t : Fin grid0.N, _)

/-- Row p of the coordinates' block at point t is point 200·t + p of the launched coordinates. -/
theorem coords_blk (t : Fin cfg0.N) (p : Fin 200) (a : Fin 3) :
    iblk m c 0 t (ix2 p a) = m ((c : Thread nD τ).loc main_arg0)
      (ix2 (⟨t.val * 200 + p.val, by have := t.isLt; have := p.isLt; have hN : cfg0.N = 500 := N_0; omega⟩ : Fin 100000) a) := by
  obtain ⟨e00, e01, -⟩ := idx_facts t
  show V m c main_arg0 (((cfg0.win 0).blk t).view.emb (ix2 p a)) = _
  rw [V_arg m c main_arg0 (by decide)]
  refine congrArg _ ?_
  funext b; apply Fin.ext
  match b with
  | ⟨0, _⟩ => show win0_0.index t (0 : Fin 2) * 200 + 1 * p.val = t.val * 200 + p.val; omega
  | ⟨1, _⟩ => show win0_0.index t (1 : Fin 2) * 3 + 1 * a.val = a.val; omega

/-! ## Level 1: result window 5 over table window 1 -/

/-- Table 1 as the region finds it: the feature map with its two spatial axes merged. -/
theorem table1_entry (c : Dev nD) :
    (V m c main_v0 : S3136x64.Idx → EReal) = shapeCast S3136x64 (m ((c : Thread nD τ).loc main_arg1)) shapeCasts_S56x56x64_S3136x64 := by
  show StableHlo.after hostOps0 (fun b => m (c, b)) (Proc.devRef .tc main_v0) = _
  after_results
  rfl

/-- Row i·56 + j of the table is cell (i, j) of the map. -/
theorem table1_apply (c : Dev nD) (i : Fin 56) (j : Fin 56) (q : Fin 64) (h : i.val * 56 + j.val < 3136) :
    (V m c main_v0 : S3136x64.Idx → EReal) (ix2 (⟨i.val * 56 + j.val, h⟩ : Fin 3136) q) = m ((c : Thread nD τ).loc main_arg1) (ix3 i j q) := by
  rw [table1_entry]
  refine shapeCast_apply _ _ _ (ix3 i j q) ?_
  rw [Shape.rowMajor_val_three, Shape.rowMajor_val_two]
  rfl

/-- The table's one block is the whole table, at every point. -/
theorem table1_blk (c : Dev nD) (t : Fin cfg0.N) (k : Fin 3136) (q : Fin 64) :
    iblk m c 1 t (ix2 k q) = (V m c main_v0 : S3136x64.Idx → EReal) (ix2 k q) := by
  obtain ⟨-, -, e10, e11, e20, e21, e30, e31, e40, e41, -⟩ := idx_facts t
  show (V m c main_v0 : S3136x64.Idx → EReal) (((cfg0.win 1).blk t).view.emb (ix2 k q)) = _
  refine congrArg _ ?_
  funext a; apply Fin.ext
  match a with
  | ⟨0, _⟩ => show win0_1.index t (0 : Fin 2) * 3136 + 1 * k.val = k.val; omega
  | ⟨1, _⟩ => show win0_1.index t (1 : Fin 2) * 64 + 1 * q.val = q.val; omega

/-- Level 1's result array: the specification over the coordinates and map 1 as launched. -/
def L1 (c : Dev nD) : S100000x64.Idx → EReal :=
  level (H := 56) (W := 56) (C := 64) (by decide) (by decide) 0x40800000#32 (m ((c : Thread nD τ).loc main_arg0))
    (fun i j q => m ((c : Thread nD τ).loc main_arg1) (ix3 i j q))

/-- WHAT POINT `t` WRITES BACK into result 1 is block `t` of `L1`: rows 200·t … 200·t + 199. -/
theorem flushed5_eq (hlvl : ∀ (x0 : Vec Ideal S200x3 .f32) (x1 : Vec Ideal S3136x64 .f32), AllReal x1 → ∀ (p : Fin 200) (q : Fin 64),
      lvl1 (F := Ideal) x0 x1 (ix2 p q)
        = bilin (H := 56) (W := 56) (C := 64) (by decide) (by decide)
            (fun i j q => x1 (ix2 (⟨i.val * 56 + j.val, by have := i.isLt; have := j.isLt; omega⟩ : Fin 3136) q))
            (hsOf 0x40800000#32 (x0 (ix2 p 1)) (x0 (ix2 p 2))) (wsOf 0x40800000#32 (x0 (ix2 p 0)) (x0 (ix2 p 2))) q)
    (hfin : AllReal (m ((c : Thread nD τ).loc main_arg1))) (t : Fin cfg0.N) :
    (dats m 0 c).flushed 5 t = ((cfg0.win 5).blk t).view.read (Elt Ideal) (L1 m c) := by
  show (cfg0.win 5).cut (grid0.coords t) ((dats m 0 c).after 5 t) = _
  rw [after5]
  unfold out5
  rw [View.canon_unit_zero hz]
  simp only [View.ld_unit_zero (S := S200x3) hz, View.ld_unit_zero (S := S3136x64) hz]
  funext y
  obtain ⟨p, q, rfl⟩ : ∃ (p : Fin 200) (q : Fin 64), y = ix2 p q := ⟨y 0, y 1, eq_ix2 y⟩
  have hreal : AllReal (iblk m c 1 t : S3136x64.Idx → EReal) := fun j => by
    obtain ⟨k, q', rfl⟩ : ∃ (k : Fin 3136) (q' : Fin 64), j = ix2 k q' := ⟨j 0, j 1, eq_ix2 j⟩
    rw [table1_blk, table1_entry]
    exact hfin _
  refine (hlvl (iblk m c 0 t) (iblk m c 1 t) hreal p q).trans ?_
  obtain ⟨-, -, -, -, -, -, -, -, -, -, e⟩ := idx_facts t
  have hrow : (((cfg0.win 5).blk t).view.emb (ix2 p q) : S100000x64.Idx) = ix2 (⟨t.val * 200 + p.val, by have := t.isLt; have := p.isLt; have hN : cfg0.N = 500 := N_0; omega⟩ : Fin 100000) q := by
    funext a; apply Fin.ext
    match a with
    | ⟨0, _⟩ => show win0_5.index t (0 : Fin 2) * 200 + 1 * p.val = t.val * 200 + p.val; omega
    | ⟨1, _⟩ => show win0_5.index t (1 : Fin 2) * 64 + 1 * q.val = q.val; omega
  show _ = L1 m c (((cfg0.win 5).blk t).view.emb (ix2 p q))
  rw [hrow]
  unfold L1 level
  simp only [coords_blk m c t p, table1_blk m c t]
  congr 1
  funext i j q'
  exact table1_apply m c i j q' _

/-- An index of result 1 is in point `t`'s block iff each coordinate is in the block's range on its axis. -/
theorem mem_blk5 (t : Fin cfg0.N) (i : S100000x64.Idx) :
    i ∈ ((cfg0.win 5).blk t).view.set ↔ ∀ a : Fin 2, win0_5.index t a * S200x64.size a ≤ (i a).val ∧ (i a).val < win0_5.index t a * S200x64.size a + S200x64.size a := by
  show i ∈ ((View.whole main_v4_0).slice (win0_5.rect t)).set ↔ _
  rw [View.set_slice_whole, Rect.mem_set_unit]
  exact Iff.rfl

/-- Every row of result 1 is in some point's block: the 500 blocks of 200 rows tile the 100000 rows. -/
theorem cover5 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 500 := N_0
  obtain ⟨t, ht⟩ : ∃ t : Fin cfg0.N, t.val = (i 0).val / 200 := ⟨⟨(i 0).val / 200, by omega⟩, rfl⟩
  obtain ⟨-, -, -, -, -, -, -, -, -, -, e50, e51, e60, e61, e70, e71, e80, e81⟩ := idx_facts t
  refine ⟨t, flush0_5 t, ?_⟩
  rw [mem_blk5]
  intro a
  match a with
  | ⟨0, _⟩ => show win0_5.index t (0 : Fin 2) * 200 ≤ (i 0).val ∧ (i 0).val < win0_5.index t (0 : Fin 2) * 200 + 200; omega
  | ⟨1, _⟩ => show win0_5.index t (1 : Fin 2) * 64 ≤ (i 1).val ∧ (i 1).val < win0_5.index t (1 : Fin 2) * 64 + 64; omega

/-- RESULT 1 after the run is `L1`. -/
theorem final5 (hlvl : ∀ (x0 : Vec Ideal S200x3 .f32) (x1 : Vec Ideal S3136x64 .f32), AllReal x1 → ∀ (p : Fin 200) (q : Fin 64),
      lvl1 (F := Ideal) x0 x1 (ix2 p q)
        = bilin (H := 56) (W := 56) (C := 64) (by decide) (by decide)
            (fun i j q => x1 (ix2 (⟨i.val * 56 + j.val, by have := i.isLt; have := j.isLt; omega⟩ : Fin 3136) q))
            (hsOf 0x40800000#32 (x0 (ix2 p 1)) (x0 (ix2 p 2))) (wsOf 0x40800000#32 (x0 (ix2 p 0)) (x0 (ix2 p 2))) q)
    (hfin : AllReal (m ((c : Thread nD τ).loc main_arg1))) : (dats m 0 c).arrAt 5 cfg0.N = L1 m c :=
  (dats m 0 c).arrAt_eq_of_cover 5 (L1 m c) (fun t _ => flushed5_eq m c hlvl hfin t) (cover5)

/-! ## Level 2: result window 6 over table window 2 -/

/-- Table 2 as the region finds it: the feature map with its two spatial axes merged. -/
theorem table2_entry (c : Dev nD) :
    (V m c main_v1 : S784x128.Idx → EReal) = shapeCast S784x128 (m ((c : Thread nD τ).loc main_arg2)) shapeCasts_S28x28x128_S784x128 := by
  show StableHlo.after hostOps0 (fun b => m (c, b)) (Proc.devRef .tc main_v1) = _
  after_results
  rfl

/-- Row i·28 + j of the table is cell (i, j) of the map. -/
theorem table2_apply (c : Dev nD) (i : Fin 28) (j : Fin 28) (q : Fin 128) (h : i.val * 28 + j.val < 784) :
    (V m c main_v1 : S784x128.Idx → EReal) (ix2 (⟨i.val * 28 + j.val, h⟩ : Fin 784) q) = m ((c : Thread nD τ).loc main_arg2) (ix3 i j q) := by
  rw [table2_entry]
  refine shapeCast_apply _ _ _ (ix3 i j q) ?_
  rw [Shape.rowMajor_val_three, Shape.rowMajor_val_two]
  rfl

/-- The table's one block is the whole table, at every point. -/
theorem table2_blk (c : Dev nD) (t : Fin cfg0.N) (k : Fin 784) (q : Fin 128) :
    iblk m c 2 t (ix2 k q) = (V m c main_v1 : S784x128.Idx → EReal) (ix2 k q) := by
  obtain ⟨-, -, e10, e11, e20, e21, e30, e31, e40, e41, -⟩ := idx_facts t
  show (V m c main_v1 : S784x128.Idx → EReal) (((cfg0.win 2).blk t).view.emb (ix2 k q)) = _
  refine congrArg _ ?_
  funext a; apply Fin.ext
  match a with
  | ⟨0, _⟩ => show win0_2.index t (0 : Fin 2) * 784 + 1 * k.val = k.val; omega
  | ⟨1, _⟩ => show win0_2.index t (1 : Fin 2) * 128 + 1 * q.val = q.val; omega

/-- Level 2's result array: the specification over the coordinates and map 2 as launched. -/
def L2 (c : Dev nD) : S100000x128.Idx → EReal :=
  level (H := 28) (W := 28) (C := 128) (by decide) (by decide) 0x41000000#32 (m ((c : Thread nD τ).loc main_arg0))
    (fun i j q => m ((c : Thread nD τ).loc main_arg2) (ix3 i j q))

/-- WHAT POINT `t` WRITES BACK into result 2 is block `t` of `L2`: rows 200·t … 200·t + 199. -/
theorem flushed6_eq (hlvl : ∀ (x0 : Vec Ideal S200x3 .f32) (x1 : Vec Ideal S784x128 .f32), AllReal x1 → ∀ (p : Fin 200) (q : Fin 128),
      lvl2 (F := Ideal) x0 x1 (ix2 p q)
        = bilin (H := 28) (W := 28) (C := 128) (by decide) (by decide)
            (fun i j q => x1 (ix2 (⟨i.val * 28 + j.val, by have := i.isLt; have := j.isLt; omega⟩ : Fin 784) q))
            (hsOf 0x41000000#32 (x0 (ix2 p 1)) (x0 (ix2 p 2))) (wsOf 0x41000000#32 (x0 (ix2 p 0)) (x0 (ix2 p 2))) q)
    (hfin : AllReal (m ((c : Thread nD τ).loc main_arg2))) (t : Fin cfg0.N) :
    (dats m 0 c).flushed 6 t = ((cfg0.win 6).blk t).view.read (Elt Ideal) (L2 m c) := by
  show (cfg0.win 6).cut (grid0.coords t) ((dats m 0 c).after 6 t) = _
  rw [after6]
  unfold out6
  rw [View.canon_unit_zero hz]
  simp only [View.ld_unit_zero (S := S200x3) hz, View.ld_unit_zero (S := S784x128) hz]
  funext y
  obtain ⟨p, q, rfl⟩ : ∃ (p : Fin 200) (q : Fin 128), y = ix2 p q := ⟨y 0, y 1, eq_ix2 y⟩
  have hreal : AllReal (iblk m c 2 t : S784x128.Idx → EReal) := fun j => by
    obtain ⟨k, q', rfl⟩ : ∃ (k : Fin 784) (q' : Fin 128), j = ix2 k q' := ⟨j 0, j 1, eq_ix2 j⟩
    rw [table2_blk, table2_entry]
    exact hfin _
  refine (hlvl (iblk m c 0 t) (iblk m c 2 t) hreal p q).trans ?_
  obtain ⟨-, -, -, -, -, -, -, -, -, -, e⟩ := idx_facts t
  have hrow : (((cfg0.win 6).blk t).view.emb (ix2 p q) : S100000x128.Idx) = ix2 (⟨t.val * 200 + p.val, by have := t.isLt; have := p.isLt; have hN : cfg0.N = 500 := N_0; omega⟩ : Fin 100000) q := by
    funext a; apply Fin.ext
    match a with
    | ⟨0, _⟩ => show win0_6.index t (0 : Fin 2) * 200 + 1 * p.val = t.val * 200 + p.val; omega
    | ⟨1, _⟩ => show win0_6.index t (1 : Fin 2) * 128 + 1 * q.val = q.val; omega
  show _ = L2 m c (((cfg0.win 6).blk t).view.emb (ix2 p q))
  rw [hrow]
  unfold L2 level
  simp only [coords_blk m c t p, table2_blk m c t]
  congr 1
  funext i j q'
  exact table2_apply m c i j q' _

/-- An index of result 2 is in point `t`'s block iff each coordinate is in the block's range on its axis. -/
theorem mem_blk6 (t : Fin cfg0.N) (i : S100000x128.Idx) :
    i ∈ ((cfg0.win 6).blk t).view.set ↔ ∀ a : Fin 2, win0_6.index t a * S200x128.size a ≤ (i a).val ∧ (i a).val < win0_6.index t a * S200x128.size a + S200x128.size a := by
  show i ∈ ((View.whole main_v4_1).slice (win0_6.rect t)).set ↔ _
  rw [View.set_slice_whole, Rect.mem_set_unit]
  exact Iff.rfl

/-- Every row of result 2 is in some point's block: the 500 blocks of 200 rows tile the 100000 rows. -/
theorem cover6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 500 := N_0
  obtain ⟨t, ht⟩ : ∃ t : Fin cfg0.N, t.val = (i 0).val / 200 := ⟨⟨(i 0).val / 200, by omega⟩, rfl⟩
  obtain ⟨-, -, -, -, -, -, -, -, -, -, e50, e51, e60, e61, e70, e71, e80, e81⟩ := idx_facts t
  refine ⟨t, flush0_6 t, ?_⟩
  rw [mem_blk6]
  intro a
  match a with
  | ⟨0, _⟩ => show win0_6.index t (0 : Fin 2) * 200 ≤ (i 0).val ∧ (i 0).val < win0_6.index t (0 : Fin 2) * 200 + 200; omega
  | ⟨1, _⟩ => show win0_6.index t (1 : Fin 2) * 128 ≤ (i 1).val ∧ (i 1).val < win0_6.index t (1 : Fin 2) * 128 + 128; omega

/-- RESULT 2 after the run is `L2`. -/
theorem final6 (hlvl : ∀ (x0 : Vec Ideal S200x3 .f32) (x1 : Vec Ideal S784x128 .f32), AllReal x1 → ∀ (p : Fin 200) (q : Fin 128),
      lvl2 (F := Ideal) x0 x1 (ix2 p q)
        = bilin (H := 28) (W := 28) (C := 128) (by decide) (by decide)
            (fun i j q => x1 (ix2 (⟨i.val * 28 + j.val, by have := i.isLt; have := j.isLt; omega⟩ : Fin 784) q))
            (hsOf 0x41000000#32 (x0 (ix2 p 1)) (x0 (ix2 p 2))) (wsOf 0x41000000#32 (x0 (ix2 p 0)) (x0 (ix2 p 2))) q)
    (hfin : AllReal (m ((c : Thread nD τ).loc main_arg2))) : (dats m 0 c).arrAt 6 cfg0.N = L2 m c :=
  (dats m 0 c).arrAt_eq_of_cover 6 (L2 m c) (fun t _ => flushed6_eq m c hlvl hfin t) (cover6)

/-! ## Level 3: result window 7 over table window 3 -/

/-- Table 3 as the region finds it: the feature map with its two spatial axes merged. -/
theorem table3_entry (c : Dev nD) :
    (V m c main_v2 : S196x256.Idx → EReal) = shapeCast S196x256 (m ((c : Thread nD τ).loc main_arg3)) shapeCasts_S14x14x256_S196x256 := by
  show StableHlo.after hostOps0 (fun b => m (c, b)) (Proc.devRef .tc main_v2) = _
  after_results
  rfl

/-- Row i·14 + j of the table is cell (i, j) of the map. -/
theorem table3_apply (c : Dev nD) (i : Fin 14) (j : Fin 14) (q : Fin 256) (h : i.val * 14 + j.val < 196) :
    (V m c main_v2 : S196x256.Idx → EReal) (ix2 (⟨i.val * 14 + j.val, h⟩ : Fin 196) q) = m ((c : Thread nD τ).loc main_arg3) (ix3 i j q) := by
  rw [table3_entry]
  refine shapeCast_apply _ _ _ (ix3 i j q) ?_
  rw [Shape.rowMajor_val_three, Shape.rowMajor_val_two]
  rfl

/-- The table's one block is the whole table, at every point. -/
theorem table3_blk (c : Dev nD) (t : Fin cfg0.N) (k : Fin 196) (q : Fin 256) :
    iblk m c 3 t (ix2 k q) = (V m c main_v2 : S196x256.Idx → EReal) (ix2 k q) := by
  obtain ⟨-, -, e10, e11, e20, e21, e30, e31, e40, e41, -⟩ := idx_facts t
  show (V m c main_v2 : S196x256.Idx → EReal) (((cfg0.win 3).blk t).view.emb (ix2 k q)) = _
  refine congrArg _ ?_
  funext a; apply Fin.ext
  match a with
  | ⟨0, _⟩ => show win0_3.index t (0 : Fin 2) * 196 + 1 * k.val = k.val; omega
  | ⟨1, _⟩ => show win0_3.index t (1 : Fin 2) * 256 + 1 * q.val = q.val; omega

/-- Level 3's result array: the specification over the coordinates and map 3 as launched. -/
def L3 (c : Dev nD) : S100000x256.Idx → EReal :=
  level (H := 14) (W := 14) (C := 256) (by decide) (by decide) 0x41800000#32 (m ((c : Thread nD τ).loc main_arg0))
    (fun i j q => m ((c : Thread nD τ).loc main_arg3) (ix3 i j q))

/-- WHAT POINT `t` WRITES BACK into result 3 is block `t` of `L3`: rows 200·t … 200·t + 199. -/
theorem flushed7_eq (hlvl : ∀ (x0 : Vec Ideal S200x3 .f32) (x1 : Vec Ideal S196x256 .f32), AllReal x1 → ∀ (p : Fin 200) (q : Fin 256),
      lvl3 (F := Ideal) x0 x1 (ix2 p q)
        = bilin (H := 14) (W := 14) (C := 256) (by decide) (by decide)
            (fun i j q => x1 (ix2 (⟨i.val * 14 + j.val, by have := i.isLt; have := j.isLt; omega⟩ : Fin 196) q))
            (hsOf 0x41800000#32 (x0 (ix2 p 1)) (x0 (ix2 p 2))) (wsOf 0x41800000#32 (x0 (ix2 p 0)) (x0 (ix2 p 2))) q)
    (hfin : AllReal (m ((c : Thread nD τ).loc main_arg3))) (t : Fin cfg0.N) :
    (dats m 0 c).flushed 7 t = ((cfg0.win 7).blk t).view.read (Elt Ideal) (L3 m c) := by
  show (cfg0.win 7).cut (grid0.coords t) ((dats m 0 c).after 7 t) = _
  rw [after7]
  unfold out7
  rw [View.canon_unit_zero hz]
  simp only [View.ld_unit_zero (S := S200x3) hz, View.ld_unit_zero (S := S196x256) hz]
  funext y
  obtain ⟨p, q, rfl⟩ : ∃ (p : Fin 200) (q : Fin 256), y = ix2 p q := ⟨y 0, y 1, eq_ix2 y⟩
  have hreal : AllReal (iblk m c 3 t : S196x256.Idx → EReal) := fun j => by
    obtain ⟨k, q', rfl⟩ : ∃ (k : Fin 196) (q' : Fin 256), j = ix2 k q' := ⟨j 0, j 1, eq_ix2 j⟩
    rw [table3_blk, table3_entry]
    exact hfin _
  refine (hlvl (iblk m c 0 t) (iblk m c 3 t) hreal p q).trans ?_
  obtain ⟨-, -, -, -, -, -, -, -, -, -, e⟩ := idx_facts t
  have hrow : (((cfg0.win 7).blk t).view.emb (ix2 p q) : S100000x256.Idx) = ix2 (⟨t.val * 200 + p.val, by have := t.isLt; have := p.isLt; have hN : cfg0.N = 500 := N_0; omega⟩ : Fin 100000) q := by
    funext a; apply Fin.ext
    match a with
    | ⟨0, _⟩ => show win0_7.index t (0 : Fin 2) * 200 + 1 * p.val = t.val * 200 + p.val; omega
    | ⟨1, _⟩ => show win0_7.index t (1 : Fin 2) * 256 + 1 * q.val = q.val; omega
  show _ = L3 m c (((cfg0.win 7).blk t).view.emb (ix2 p q))
  rw [hrow]
  unfold L3 level
  simp only [coords_blk m c t p, table3_blk m c t]
  congr 1
  funext i j q'
  exact table3_apply m c i j q' _

/-- An index of result 3 is in point `t`'s block iff each coordinate is in the block's range on its axis. -/
theorem mem_blk7 (t : Fin cfg0.N) (i : S100000x256.Idx) :
    i ∈ ((cfg0.win 7).blk t).view.set ↔ ∀ a : Fin 2, win0_7.index t a * S200x256.size a ≤ (i a).val ∧ (i a).val < win0_7.index t a * S200x256.size a + S200x256.size a := by
  show i ∈ ((View.whole main_v4_2).slice (win0_7.rect t)).set ↔ _
  rw [View.set_slice_whole, Rect.mem_set_unit]
  exact Iff.rfl

/-- Every row of result 3 is in some point's block: the 500 blocks of 200 rows tile the 100000 rows. -/
theorem cover7 (i : S100000x256.Idx) : ∃ t : Fin cfg0.N, (cfg0.win 7).flush t = true ∧ i ∈ ((cfg0.win 7).blk t).view.set := by
  have hi0 : (i 0).val < 100000 := (i 0).isLt
  have hi1 : (i 1).val < 256 := (i 1).isLt
  have hN : cfg0.N = 500 := N_0
  obtain ⟨t, ht⟩ : ∃ t : Fin cfg0.N, t.val = (i 0).val / 200 := ⟨⟨(i 0).val / 200, by omega⟩, rfl⟩
  obtain ⟨-, -, -, -, -, -, -, -, -, -, e50, e51, e60, e61, e70, e71, e80, e81⟩ := idx_facts t
  refine ⟨t, flush0_7 t, ?_⟩
  rw [mem_blk7]
  intro a
  match a with
  | ⟨0, _⟩ => show win0_7.index t (0 : Fin 2) * 200 ≤ (i 0).val ∧ (i 0).val < win0_7.index t (0 : Fin 2) * 200 + 200; omega
  | ⟨1, _⟩ => show win0_7.index t (1 : Fin 2) * 256 ≤ (i 1).val ∧ (i 1).val < win0_7.index t (1 : Fin 2) * 256 + 256; omega

/-- RESULT 3 after the run is `L3`. -/
theorem final7 (hlvl : ∀ (x0 : Vec Ideal S200x3 .f32) (x1 : Vec Ideal S196x256 .f32), AllReal x1 → ∀ (p : Fin 200) (q : Fin 256),
      lvl3 (F := Ideal) x0 x1 (ix2 p q)
        = bilin (H := 14) (W := 14) (C := 256) (by decide) (by decide)
            (fun i j q => x1 (ix2 (⟨i.val * 14 + j.val, by have := i.isLt; have := j.isLt; omega⟩ : Fin 196) q))
            (hsOf 0x41800000#32 (x0 (ix2 p 1)) (x0 (ix2 p 2))) (wsOf 0x41800000#32 (x0 (ix2 p 0)) (x0 (ix2 p 2))) q)
    (hfin : AllReal (m ((c : Thread nD τ).loc main_arg3))) : (dats m 0 c).arrAt 7 cfg0.N = L3 m c :=
  (dats m 0 c).arrAt_eq_of_cover 7 (L3 m c) (fun t _ => flushed7_eq m c hlvl hfin t) (cover7)

/-! ## Level 4: result window 8 over table window 4 -/

/-- Table 4 as the region finds it: the feature map with its two spatial axes merged. -/
theorem table4_entry (c : Dev nD) :
    (V m c main_v3 : S49x512.Idx → EReal) = shapeCast S49x512 (m ((c : Thread nD τ).loc main_arg4)) shapeCasts_S7x7x512_S49x512 := by
  show StableHlo.after hostOps0 (fun b => m (c, b)) (Proc.devRef .tc main_v3) = _
  after_results
  rfl

/-- Row i·7 + j of the table is cell (i, j) of the map. -/
theorem table4_apply (c : Dev nD) (i : Fin 7) (j : Fin 7) (q : Fin 512) (h : i.val * 7 + j.val < 49) :
    (V m c main_v3 : S49x512.Idx → EReal) (ix2 (⟨i.val * 7 + j.val, h⟩ : Fin 49) q) = m ((c : Thread nD τ).loc main_arg4) (ix3 i j q) := by
  rw [table4_entry]
  refine shapeCast_apply _ _ _ (ix3 i j q) ?_
  rw [Shape.rowMajor_val_three, Shape.rowMajor_val_two]
  rfl

/-- The table's one block is the whole table, at every point. -/
theorem table4_blk (c : Dev nD) (t : Fin cfg0.N) (k : Fin 49) (q : Fin 512) :
    iblk m c 4 t (ix2 k q) = (V m c main_v3 : S49x512.Idx → EReal) (ix2 k q) := by
  obtain ⟨-, -, e10, e11, e20, e21, e30, e31, e40, e41, -⟩ := idx_facts t
  show (V m c main_v3 : S49x512.Idx → EReal) (((cfg0.win 4).blk t).view.emb (ix2 k q)) = _
  refine congrArg _ ?_
  funext a; apply Fin.ext
  match a with
  | ⟨0, _⟩ => show win0_4.index t (0 : Fin 2) * 49 + 1 * k.val = k.val; omega
  | ⟨1, _⟩ => show win0_4.index t (1 : Fin 2) * 512 + 1 * q.val = q.val; omega

/-- Level 4's result array: the specification over the coordinates and map 4 as launched. -/
def L4 (c : Dev nD) : S100000x512.Idx → EReal :=
  level (H := 7) (W := 7) (C := 512) (by decide) (by decide) 0x42000000#32 (m ((c : Thread nD τ).loc main_arg0))
    (fun i j q => m ((c : Thread nD τ).loc main_arg4) (ix3 i j q))

/-- WHAT POINT `t` WRITES BACK into result 4 is block `t` of `L4`: rows 200·t … 200·t + 199. -/
theorem flushed8_eq (hlvl : ∀ (x0 : Vec Ideal S200x3 .f32) (x1 : Vec Ideal S49x512 .f32), AllReal x1 → ∀ (p : Fin 200) (q : Fin 512),
      lvl4 (F := Ideal) x0 x1 (ix2 p q)
        = bilin (H := 7) (W := 7) (C := 512) (by decide) (by decide)
            (fun i j q => x1 (ix2 (⟨i.val * 7 + j.val, by have := i.isLt; have := j.isLt; omega⟩ : Fin 49) q))
            (hsOf 0x42000000#32 (x0 (ix2 p 1)) (x0 (ix2 p 2))) (wsOf 0x42000000#32 (x0 (ix2 p 0)) (x0 (ix2 p 2))) q)
    (hfin : AllReal (m ((c : Thread nD τ).loc main_arg4))) (t : Fin cfg0.N) :
    (dats m 0 c).flushed 8 t = ((cfg0.win 8).blk t).view.read (Elt Ideal) (L4 m c) := by
  show (cfg0.win 8).cut (grid0.coords t) ((dats m 0 c).after 8 t) = _
  rw [after8]
  unfold out8
  rw [View.canon_unit_zero hz]
  simp only [View.ld_unit_zero (S := S200x3) hz, View.ld_unit_zero (S := S49x512) hz]
  funext y
  obtain ⟨p, q, rfl⟩ : ∃ (p : Fin 200) (q : Fin 512), y = ix2 p q := ⟨y 0, y 1, eq_ix2 y⟩
  have hreal : AllReal (iblk m c 4 t : S49x512.Idx → EReal) := fun j => by
    obtain ⟨k, q', rfl⟩ : ∃ (k : Fin 49) (q' : Fin 512), j = ix2 k q' := ⟨j 0, j 1, eq_ix2 j⟩
    rw [table4_blk, table4_entry]
    exact hfin _
  refine (hlvl (iblk m c 0 t) (iblk m c 4 t) hreal p q).trans ?_
  obtain ⟨-, -, -, -, -, -, -, -, -, -, e⟩ := idx_facts t
  have hrow : (((cfg0.win 8).blk t).view.emb (ix2 p q) : S100000x512.Idx) = ix2 (⟨t.val * 200 + p.val, by have := t.isLt; have := p.isLt; have hN : cfg0.N = 500 := N_0; omega⟩ : Fin 100000) q := by
    funext a; apply Fin.ext
    match a with
    | ⟨0, _⟩ => show win0_8.index t (0 : Fin 2) * 200 + 1 * p.val = t.val * 200 + p.val; omega
    | ⟨1, _⟩ => show win0_8.index t (1 : Fin 2) * 512 + 1 * q.val = q.val; omega
  show _ = L4 m c (((cfg0.win 8).blk t).view.emb (ix2 p q))
  rw [hrow]
  unfold L4 level
  simp only [coords_blk m c t p, table4_blk m c t]
  congr 1
  funext i j q'
  exact table4_apply m c i j q' _

/-- An index of result 4 is in point `t`'s block iff each coordinate is in the block's range on its axis. -/
theorem mem_blk8 (t : Fin cfg0.N) (i : S100000x512.Idx) :
    i ∈ ((cfg0.win 8).blk t).view.set ↔ ∀ a : Fin 2, win0_8.index t a * S200x512.size a ≤ (i a).val ∧ (i a).val < win0_8.index t a * S200x512.size a + S200x512.size a := by
  show i ∈ ((View.whole main_v4_3).slice (win0_8.rect t)).set ↔ _
  rw [View.set_slice_whole, Rect.mem_set_unit]
  exact Iff.rfl

/-- Every row of result 4 is in some point's block: the 500 blocks of 200 rows tile the 100000 rows. -/
theorem cover8 (i : S100000x512.Idx) : ∃ t : Fin cfg0.N, (cfg0.win 8).flush t = true ∧ i ∈ ((cfg0.win 8).blk t).view.set := by
  have hi0 : (i 0).val < 100000 := (i 0).isLt
  have hi1 : (i 1).val < 512 := (i 1).isLt
  have hN : cfg0.N = 500 := N_0
  obtain ⟨t, ht⟩ : ∃ t : Fin cfg0.N, t.val = (i 0).val / 200 := ⟨⟨(i 0).val / 200, by omega⟩, rfl⟩
  obtain ⟨-, -, -, -, -, -, -, -, -, -, e50, e51, e60, e61, e70, e71, e80, e81⟩ := idx_facts t
  refine ⟨t, flush0_8 t, ?_⟩
  rw [mem_blk8]
  intro a
  match a with
  | ⟨0, _⟩ => show win0_8.index t (0 : Fin 2) * 200 ≤ (i 0).val ∧ (i 0).val < win0_8.index t (0 : Fin 2) * 200 + 200; omega
  | ⟨1, _⟩ => show win0_8.index t (1 : Fin 2) * 512 ≤ (i 1).val ∧ (i 1).val < win0_8.index t (1 : Fin 2) * 512 + 512; omega

/-- RESULT 4 after the run is `L4`. -/
theorem final8 (hlvl : ∀ (x0 : Vec Ideal S200x3 .f32) (x1 : Vec Ideal S49x512 .f32), AllReal x1 → ∀ (p : Fin 200) (q : Fin 512),
      lvl4 (F := Ideal) x0 x1 (ix2 p q)
        = bilin (H := 7) (W := 7) (C := 512) (by decide) (by decide)
            (fun i j q => x1 (ix2 (⟨i.val * 7 + j.val, by have := i.isLt; have := j.isLt; omega⟩ : Fin 49) q))
            (hsOf 0x42000000#32 (x0 (ix2 p 1)) (x0 (ix2 p 2))) (wsOf 0x42000000#32 (x0 (ix2 p 0)) (x0 (ix2 p 2))) q)
    (hfin : AllReal (m ((c : Thread nD τ).loc main_arg4))) : (dats m 0 c).arrAt 8 cfg0.N = L4 m c :=
  (dats m 0 c).arrAt_eq_of_cover 8 (L4 m c) (fun t _ => flushed8_eq m c hlvl hfin t) (cover8)

end Cert.KernelIdeal.ArrValue

end
-- ==== Proof.KerTail.lean ====
/-
  The last line of @main: the result is the concatenation, along the channel axis, of the coordinates with the
  region's four result arrays as the run leaves them — read off the run's post without opening the concatenation.
-/
import proofs.«104525_j38852274160230_2_alg».proof.Proof.FrameKI
import Idealize.ShloMosaic.Lib.StableHlo.Run

set_option maxRecDepth 16384

noncomputable section

namespace Cert.KernelIdeal.ArrValue

open Cert.KernelIdeal Cert.KernelIdeal.Gen Cert.KernelIdeal.Hand
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (c : Dev nD)

/-- The five-part concatenation along axis 1 that both programs end with. -/
def joined (a0 : S100000x3.Idx → Elt F .f32) (b1 : S100000x64.Idx → Elt F .f32) (b2 : S100000x128.Idx → Elt F .f32)
    (b3 : S100000x256.Idx → Elt F .f32) (b4 : S100000x512.Idx → Elt F .f32) : S100000x963.Idx → Elt F .f32 :=
  concatenate S100000x963 1 [⟨S100000x3, a0⟩, ⟨S100000x64, b1⟩, ⟨S100000x128, b2⟩, ⟨S100000x256, b3⟩, ⟨S100000x512, b4⟩]
    concatenates_S100000x3_S100000x64_S100000x128_S100000x256_S100000x512_S100000x963_d1

/-- The result buffer after the last line: the coordinates' array and the four result arrays, joined. -/
theorem tail_result :
    Pipeline.afterTail₀ cfgs (dats m) 0 (V0 m) [hostOps1] c main_v5
      = joined ((dats m 0 c).arrAt 0 cfg0.N) ((dats m 0 c).arrAt 5 cfg0.N) ((dats m 0 c).arrAt 6 cfg0.N)
          ((dats m 0 c).arrAt 7 cfg0.N) ((dats m 0 c).arrAt 8 cfg0.N) := by
  unfold Pipeline.afterTail₀
  show StableHlo.after hostOps1 _ (Proc.devRef .tc main_v5) = _
  after_results
  have e0 := Pipeline.withArrays_arr spec0 launch0.win.arr_inj c (V0 m c) (fun w => (dats m 0 c).arrAt w cfg0.N) 0
  have e5 := Pipeline.withArrays_arr spec0 launch0.win.arr_inj c (V0 m c) (fun w => (dats m 0 c).arrAt w cfg0.N) 5
  have e6 := Pipeline.withArrays_arr spec0 launch0.win.arr_inj c (V0 m c) (fun w => (dats m 0 c).arrAt w cfg0.N) 6
  have e7 := Pipeline.withArrays_arr spec0 launch0.win.arr_inj c (V0 m c) (fun w => (dats m 0 c).arrAt w cfg0.N) 7
  have e8 := Pipeline.withArrays_arr spec0 launch0.win.arr_inj c (V0 m c) (fun w => (dats m 0 c).arrAt w cfg0.N) 8
  unfold joined
  show concatenate S100000x963 1
      [⟨S100000x3, Pipeline.withArrays spec0 c (V0 m c) (fun w => (dats m 0 c).arrAt w cfg0.N) (Proc.devRef .tc (Pipeline.arrRef spec0 0))⟩,
       ⟨S100000x64, Pipeline.withArrays spec0 c (V0 m c) (fun w => (dats m 0 c).arrAt w cfg0.N) (Proc.devRef .tc (Pipeline.arrRef spec0 5))⟩,
       ⟨S100000x128, Pipeline.withArrays spec0 c (V0 m c) (fun w => (dats m 0 c).arrAt w cfg0.N) (Proc.devRef .tc (Pipeline.arrRef spec0 6))⟩,
       ⟨S100000x256, Pipeline.withArrays spec0 c (V0 m c) (fun w => (dats m 0 c).arrAt w cfg0.N) (Proc.devRef .tc (Pipeline.arrRef spec0 7))⟩,
       ⟨S100000x512, Pipeline.withArrays spec0 c (V0 m c) (fun w => (dats m 0 c).arrAt w cfg0.N) (Proc.devRef .tc (Pipeline.arrRef spec0 8))⟩]
      concatenates_S100000x3_S100000x64_S100000x128_S100000x256_S100000x512_S100000x963_d1 = _
  rw [e0, e5, e6, e7, e8]

end Cert.KernelIdeal.ArrValue

end
-- ==== Proof.KerRun.lean ====
/-
  The idealized kernel's run, read: the result buffer ends at the specification's array — the coordinates joined with
  the four level arrays — and every argument array as launched. Taken as hypotheses: the four value lemmas (each
  stored block is the interpolation over its table's rows) and that every entry of the four feature maps is a real.
-/
import proofs.«104525_j38852274160230_2_alg».proof.Proof.KerArray
import proofs.«104525_j38852274160230_2_alg».proof.Proof.KerTail

set_option maxRecDepth 16384

noncomputable section

namespace Cert.KernelIdeal.ArrValue

open Cert.KernelIdeal Cert.KernelIdeal.Gen Cert.KernelIdeal.Hand Cert.Proj
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification's result on core `c`: the launched coordinates joined with the four level arrays. -/
def result (c : Dev nD) : S100000x963.Idx → EReal :=
  joined (F := Ideal) (m ((c : Thread nD τ).loc main_arg0)) (L1 m c) (L2 m c) (L3 m c) (L4 m c)

/-- The result buffer after the run. -/
theorem result_eq (c : Dev nD)
    (hl1 : ∀ (x0 : Vec Ideal S200x3 .f32) (x1 : Vec Ideal S3136x64 .f32), AllReal x1 → ∀ (p : Fin 200) (q : Fin 64),
      lvl1 (F := Ideal) x0 x1 (ix2 p q)
        = bilin (H := 56) (W := 56) (C := 64) (by decide) (by decide)
            (fun i j q => x1 (ix2 (⟨i.val * 56 + j.val, by have := i.isLt; have := j.isLt; omega⟩ : Fin 3136) q))
            (hsOf 0x40800000#32 (x0 (ix2 p 1)) (x0 (ix2 p 2))) (wsOf 0x40800000#32 (x0 (ix2 p 0)) (x0 (ix2 p 2))) q)
    (hl2 : ∀ (x0 : Vec Ideal S200x3 .f32) (x1 : Vec Ideal S784x128 .f32), AllReal x1 → ∀ (p : Fin 200) (q : Fin 128),
      lvl2 (F := Ideal) x0 x1 (ix2 p q)
        = bilin (H := 28) (W := 28) (C := 128) (by decide) (by decide)
            (fun i j q => x1 (ix2 (⟨i.val * 28 + j.val, by have := i.isLt; have := j.isLt; omega⟩ : Fin 784) q))
            (hsOf 0x41000000#32 (x0 (ix2 p 1)) (x0 (ix2 p 2))) (wsOf 0x41000000#32 (x0 (ix2 p 0)) (x0 (ix2 p 2))) q)
    (hl3 : ∀ (x0 : Vec Ideal S200x3 .f32) (x1 : Vec Ideal S196x256 .f32), AllReal x1 → ∀ (p : Fin 200) (q : Fin 256),
      lvl3 (F := Ideal) x0 x1 (ix2 p q)
        = bilin (H := 14) (W := 14) (C := 256) (by decide) (by decide)
            (fun i j q => x1 (ix2 (⟨i.val * 14 + j.val, by have := i.isLt; have := j.isLt; omega⟩ : Fin 196) q))
            (hsOf 0x41800000#32 (x0 (ix2 p 1)) (x0 (ix2 p 2))) (wsOf 0x41800000#32 (x0 (ix2 p 0)) (x0 (ix2 p 2))) q)
    (hl4 : ∀ (x0 : Vec Ideal S200x3 .f32) (x1 : Vec Ideal S49x512 .f32), AllReal x1 → ∀ (p : Fin 200) (q : Fin 512),
      lvl4 (F := Ideal) x0 x1 (ix2 p q)
        = bilin (H := 7) (W := 7) (C := 512) (by decide) (by decide)
            (fun i j q => x1 (ix2 (⟨i.val * 7 + j.val, by have := i.isLt; have := j.isLt; omega⟩ : Fin 49) q))
            (hsOf 0x42000000#32 (x0 (ix2 p 1)) (x0 (ix2 p 2))) (wsOf 0x42000000#32 (x0 (ix2 p 0)) (x0 (ix2 p 2))) q)
    (hf1 : AllReal (m ((c : Thread nD τ).loc main_arg1))) (hf2 : AllReal (m ((c : Thread nD τ).loc main_arg2)))
    (hf3 : AllReal (m ((c : Thread nD τ).loc main_arg3))) (hf4 : AllReal (m ((c : Thread nD τ).loc main_arg4))) :
    Pipeline.afterTail₀ cfgs (dats m) 0 (V0 m) [hostOps1] c main_v5 = result m c := by
  rw [tail_result, final5 m c hl1 hf1, final6 m c hl2 hf2, final7 m c hl3 hf3, final8 m c hl4 hf4,
    (dats m 0 c).arrAt_in 0 rfl _, A_eq m c 0, V_arg m c main_arg0 (by decide)]
  rfl

/-- THE VALUE RUN of the idealized kernel. -/
theorem kernel_run
    (hl1 : ∀ (x0 : Vec Ideal S200x3 .f32) (x1 : Vec Ideal S3136x64 .f32), AllReal x1 → ∀ (p : Fin 200) (q : Fin 64),
      lvl1 (F := Ideal) x0 x1 (ix2 p q)
        = bilin (H := 56) (W := 56) (C := 64) (by decide) (by decide)
            (fun i j q => x1 (ix2 (⟨i.val * 56 + j.val, by have := i.isLt; have := j.isLt; omega⟩ : Fin 3136) q))
            (hsOf 0x40800000#32 (x0 (ix2 p 1)) (x0 (ix2 p 2))) (wsOf 0x40800000#32 (x0 (ix2 p 0)) (x0 (ix2 p 2))) q)
    (hl2 : ∀ (x0 : Vec Ideal S200x3 .f32) (x1 : Vec Ideal S784x128 .f32), AllReal x1 → ∀ (p : Fin 200) (q : Fin 128),
      lvl2 (F := Ideal) x0 x1 (ix2 p q)
        = bilin (H := 28) (W := 28) (C := 128) (by decide) (by decide)
            (fun i j q => x1 (ix2 (⟨i.val * 28 + j.val, by have := i.isLt; have := j.isLt; omega⟩ : Fin 784) q))
            (hsOf 0x41000000#32 (x0 (ix2 p 1)) (x0 (ix2 p 2))) (wsOf 0x41000000#32 (x0 (ix2 p 0)) (x0 (ix2 p 2))) q)
    (hl3 : ∀ (x0 : Vec Ideal S200x3 .f32) (x1 : Vec Ideal S196x256 .f32), AllReal x1 → ∀ (p : Fin 200) (q : Fin 256),
      lvl3 (F := Ideal) x0 x1 (ix2 p q)
        = bilin (H := 14) (W := 14) (C := 256) (by decide) (by decide)
            (fun i j q => x1 (ix2 (⟨i.val * 14 + j.val, by have := i.isLt; have := j.isLt; omega⟩ : Fin 196) q))
            (hsOf 0x41800000#32 (x0 (ix2 p 1)) (x0 (ix2 p 2))) (wsOf 0x41800000#32 (x0 (ix2 p 0)) (x0 (ix2 p 2))) q)
    (hl4 : ∀ (x0 : Vec Ideal S200x3 .f32) (x1 : Vec Ideal S49x512 .f32), AllReal x1 → ∀ (p : Fin 200) (q : Fin 512),
      lvl4 (F := Ideal) x0 x1 (ix2 p q)
        = bilin (H := 7) (W := 7) (C := 512) (by decide) (by decide)
            (fun i j q => x1 (ix2 (⟨i.val * 7 + j.val, by have := i.isLt; have := j.isLt; omega⟩ : Fin 49) q))
            (hsOf 0x42000000#32 (x0 (ix2 p 1)) (x0 (ix2 p 2))) (wsOf 0x42000000#32 (x0 (ix2 p 0)) (x0 (ix2 p 2))) q)
    (hf : ∀ c : Dev nD, AllReal (m ((c : Thread nD τ).loc main_arg1)) ∧ AllReal (m ((c : Thread nD τ).loc main_arg2))
      ∧ AllReal (m ((c : Thread nD τ).loc main_arg3)) ∧ AllReal (m ((c : Thread nD τ).loc main_arg4))) :
    θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v5 (Pipeline.mem_restRefs_of main_v5 (by decide) (by decide))).trans
        (result_eq m c hl1 hl2 hl3 hl4 (hf c).1 (hf c).2.1 (hf c).2.2.1 (hf c).2.2.2),
      args_kept m r h c⟩) (run_main m ρ)

end Cert.KernelIdeal.ArrValue

end
-- ==== Proof.Facts.lean ====
/-
  Facts about the projected coordinates, shared by both sides of the bridge.
  The float words the programs spell, as the reals they denote; and the one fact everything downstream rests on:
  a pixel coordinate is clipped into [0, 223], so it is a REAL number in that interval whatever the division
  inside it gave (an infinity or the junk value of 0/0 included) — hence a position in cells of size s is a real
  in [0, 223/s], its floor and ceiling are integers in [0, 223/s + 1], and converting them to 32-bit integers
  loses nothing.
-/
import proofs.«104525_j38852274160230_2_alg».proof.Proof.Spec

noncomputable section

namespace Cert.Proj

open Idealize.ShloMosaic

/-! ## The words -/

theorem lit_zero : lit 0x00000000#32 = 0 := by simp [Ideal.ofBits, Ideal.ieee]
theorem lit_223 : lit 0x435F0000#32 = ((223 : ℝ) : EReal) := by
  simp [Ideal.ofBits, Ideal.ieee, -EReal.coe_mul]; norm_num
theorem lit_4 : lit 0x40800000#32 = ((4 : ℝ) : EReal) := by
  simp [Ideal.ofBits, Ideal.ieee, -EReal.coe_mul]; norm_num
theorem lit_8 : lit 0x41000000#32 = ((8 : ℝ) : EReal) := by
  simp [Ideal.ofBits, Ideal.ieee, -EReal.coe_mul]; norm_num
theorem lit_16 : lit 0x41800000#32 = ((16 : ℝ) : EReal) := by
  simp [Ideal.ofBits, Ideal.ieee, -EReal.coe_mul]; norm_num
theorem lit_32 : lit 0x42000000#32 = ((32 : ℝ) : EReal) := by
  simp [Ideal.ofBits, Ideal.ieee, -EReal.coe_mul]; norm_num
theorem lit_55 : lit 0x425C0000#32 = ((55 : ℝ) : EReal) := by
  simp [Ideal.ofBits, Ideal.ieee, -EReal.coe_mul]; norm_num
theorem lit_27 : lit 0x41D80000#32 = ((27 : ℝ) : EReal) := by
  simp [Ideal.ofBits, Ideal.ieee, -EReal.coe_mul]; norm_num
theorem lit_13 : lit 0x41500000#32 = ((13 : ℝ) : EReal) := by
  simp [Ideal.ofBits, Ideal.ieee, -EReal.coe_mul]; norm_num
theorem lit_6 : lit 0x40C00000#32 = ((6 : ℝ) : EReal) := by
  simp [Ideal.ofBits, Ideal.ieee, -EReal.coe_mul]; norm_num

/-! ## A pixel coordinate is a real in [0, 223] -/

/-- The clip into [0, 223] of ANY extended real is a real in that interval. -/
theorem clip_real (x : EReal) : ∃ r : ℝ, 0 ≤ r ∧ r ≤ 223 ∧ min (lit 0x435F0000#32) (max (lit 0x00000000#32) x) = (r : EReal) := by
  rw [lit_zero, lit_223]
  have h0 : (0 : EReal) ≤ min ((223 : ℝ) : EReal) (max 0 x) := le_min (by exact_mod_cast (by norm_num : (0:ℝ) ≤ 223)) (le_max_left _ _)
  have h1 : min ((223 : ℝ) : EReal) (max 0 x) ≤ ((223 : ℝ) : EReal) := min_le_left _ _
  have hne_top : min ((223 : ℝ) : EReal) (max 0 x) ≠ ⊤ := ne_top_of_le_ne_top (EReal.coe_ne_top _) h1
  have hne_bot : min ((223 : ℝ) : EReal) (max 0 x) ≠ ⊥ := ne_bot_of_le_ne_bot (by simp) h0
  refine ⟨(min ((223 : ℝ) : EReal) (max 0 x)).toReal, ?_, ?_, (EReal.coe_toReal hne_top hne_bot).symm⟩
  · have := EReal.toReal_le_toReal h0 (by simp) hne_top
    simpa using this
  · have := EReal.toReal_le_toReal h1 hne_bot (EReal.coe_ne_top _)
    simpa using this

theorem pix_real (num z : EReal) : ∃ r : ℝ, 0 ≤ r ∧ r ≤ 223 ∧ pix num z = (r : EReal) := clip_real _

/-- A position in cells of size `s` (a positive real word): a real in [0, 223/s]. -/
theorem div_real {sw : BitVec 32} {s : ℝ} (hs : 0 < s) (hsw : lit sw = (s : EReal)) (num z : EReal) :
    ∃ r : ℝ, 0 ≤ r ∧ r ≤ 223 / s ∧ Ideal.div (pix num z) (lit sw) = (r : EReal) := by
  obtain ⟨r, h0, h1, hr⟩ := pix_real num z
  refine ⟨r / s, div_nonneg h0 hs.le, div_le_div_of_nonneg_right h1 hs.le, ?_⟩
  rw [hr, hsw, Ideal.div_coe hs.ne', ← EReal.coe_mul]
  congr 1
  field_simp

theorem hsOf_real {sw : BitVec 32} {s : ℝ} (hs : 0 < s) (hsw : lit sw = (s : EReal)) (y z : EReal) :
    ∃ r : ℝ, 0 ≤ r ∧ r ≤ 223 / s ∧ hsOf sw y z = (r : EReal) := div_real hs hsw _ _
theorem wsOf_real {sw : BitVec 32} {s : ℝ} (hs : 0 < s) (hsw : lit sw = (s : EReal)) (x z : EReal) :
    ∃ r : ℝ, 0 ≤ r ∧ r ≤ 223 / s ∧ wsOf sw x z = (r : EReal) := div_real hs hsw _ _

/-! ## Floor, ceiling and the integer conversion on such a real -/

theorem fl_coe (r : ℝ) : fl (r : EReal) = ((⌊r⌋ : ℤ) : ℝ) := rfl
theorem ce_coe (r : ℝ) : ce (r : EReal) = ((⌈r⌉ : ℤ) : ℝ) := rfl

/-- The 32-bit conversion of an integer-valued real of small magnitude is that integer. -/
theorem fptosi_int (k : ℤ) (h0 : 0 ≤ k) (h1 : k < 2 ^ 31) :
    (Ideal.fptosi 32 (((k : ℤ) : ℝ) : EReal)).toInt = k := by
  unfold Ideal.fptosi
  rw [Ideal.toIntClamped_coe]
  have hk : (0 : ℝ) ≤ (k : ℝ) := by exact_mod_cast h0
  rw [if_pos hk, Int.floor_intCast]
  have hmin : min (((2 ^ (32 - 1) : Nat) : Int) - 1) k = k := by
    apply min_eq_right; norm_num; omega
  have hmax : max (-((2 ^ (32 - 1) : Nat) : Int)) k = k := by
    apply max_eq_right; norm_num; omega
  rw [hmin, hmax, BitVec.toInt_ofInt]
  norm_num [Int.bmod]
  omega

/-- The cell named by the floor of a nonnegative real below 2³¹: the floor itself, clamped to the last cell. -/
theorem cell_fl (n : Nat) (r : ℝ) (h0 : 0 ≤ r) (h1 : r < 2 ^ 30) :
    cell n (fl (r : EReal)) = min ⌊r⌋.toNat (n - 1) := by
  unfold cell
  rw [fl_coe, fptosi_int ⌊r⌋ (Int.floor_nonneg.mpr h0) (by
    have : (⌊r⌋ : ℝ) ≤ r := Int.floor_le r
    have h2 : (⌊r⌋ : ℝ) < 2 ^ 31 := by linarith [show (2:ℝ)^30 < 2^31 by norm_num]
    exact_mod_cast h2)]

theorem cell_ce (n : Nat) (r : ℝ) (h0 : 0 ≤ r) (h1 : r < 2 ^ 30) :
    cell n (ce (r : EReal)) = min ⌈r⌉.toNat (n - 1) := by
  unfold cell
  rw [ce_coe, fptosi_int ⌈r⌉ (Int.ceil_nonneg h0) (by
    have : (⌈r⌉ : ℝ) < r + 1 := Int.ceil_lt_add_one r
    have h2 : (⌈r⌉ : ℝ) < 2 ^ 31 := by linarith [show (2:ℝ)^30 + 1 < 2^31 by norm_num]
    exact_mod_cast h2)]

end Cert.Proj

end
-- ==== Proof.KerOneHot.lean ====
/-
  A product of a sum of four one-hot weight rows with a table, read at an entry.
  Row p of the left operand holds four weights at four columns (the columns may coincide): it is the sum of four
  rows, each zero except for one weight at one column. Its product with a table whose entries are real numbers is,
  at (p, q), the sum of the four weights each times the table's entry at its column and q: every other term of the
  contraction vanishes. The weights and the table's entries must be real: on the extended reals a product does not
  distribute over a sum at the infinities.
  Also here: the layout operations the rows are built with, read at an index (a vector viewed as a column, a column
  viewed as a vector, a column repeated along the lanes), and the comparison of a lane number with an index word.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KerOneHot

open Idealize.ShloMosaic Idealize.ShloMosaic.ValueIdx

/-! ## Layout operations read at an index -/

section Layout
variable {α : Type}

/-- A vector [a] viewed as a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] viewed as a vector [a] reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column [a, 1] repeated along b lanes reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A comparison of integer vectors at an index compares the words. -/
theorem cmpi_apply {s : Shape} {w : ℕ} (pr : CmpIPredicate) (x y : IVec s w) (i : s.Idx) :
    cmpi pr x y i = IntOp.cmpi pr (x i) (y i) := rfl
theorem muli_apply {s : Shape} {w : ℕ} (x y : IVec s w) (i : s.Idx) : muli x y i = x i * y i := rfl
theorem addi_apply {s : Shape} {w : ℕ} (x y : IVec s w) (i : s.Idx) : addi x y i = x i + y i := rfl
theorem fptosi_apply {s : Shape} {φ : FTy} (w : ℕ) (x : FVec Ideal s φ) (i : s.Idx) :
    fptosi w x i = Ideal.fptosi w (x i) := rfl
theorem floor_apply {s : Shape} {φ : FTy} (x : FVec Ideal s φ) (i : s.Idx) :
    floor x i = Ideal.liftRound Int.floor (x i) := rfl
theorem ceil_apply {s : Shape} {φ : FTy} (x : FVec Ideal s φ) (i : s.Idx) :
    ceil x i = Ideal.liftRound Int.ceil (x i) := rfl

/-- A select on "these two words are equal" is the 'if' on their equality. -/
theorem select_cmpi_eq {w : ℕ} (x y : BitVec w) (A B : α) :
    Scalar.select (IntOp.cmpi .eq x y) A B = if x = y then A else B := by
  unfold Scalar.select IntOp.cmpi
  by_cases h : x = y
  · subst h; simp
  · have hb : (x == y) = false := beq_eq_false_iff_ne.mpr h
    rw [if_neg h]
    simp [hb]

end Layout

/-! ## The contraction -/

/-- The coercion of the reals into the extended reals goes through a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On the reals: a row that is the sum of four one-hot rows, times a column. -/
theorem real_sum_onehot4 {K : ℕ} (i1 i2 i3 i4 : Fin K) (a1 a2 a3 a4 : ℝ) (t : Fin K → ℝ) :
    ∑ k : Fin K, ((((if k = i1 then a1 else 0) + (if k = i2 then a2 else 0)) + (if k = i3 then a3 else 0))
        + (if k = i4 then a4 else 0)) * t k
      = a1 * t i1 + a2 * t i2 + a3 * t i3 + a4 * t i4 := by
  simp only [add_mul, ite_mul, zero_mul, Finset.sum_add_distrib, Finset.sum_ite_eq', Finset.mem_univ, if_true]

/-- A lane number, as a 32-bit word, equals the word of a position below the lane count exactly at that lane. -/
theorem ofNat_eq_iff {K : ℕ} (hK : K ≤ 2 ^ 32) (m : ℕ) (hm : m < K) (k : Fin K) :
    BitVec.ofNat 32 k.val = BitVec.ofNat 32 m ↔ k = ⟨m, hm⟩ := by
  have hk := k.isLt
  constructor
  · intro h
    have := congrArg BitVec.toNat h
    rw [BitVec.toNat_ofNat, BitVec.toNat_ofNat, Nat.mod_eq_of_lt (by omega), Nat.mod_eq_of_lt (by omega)] at this
    exact Fin.ext this
  · intro h; subst h; rfl

/-- On the extended reals, with real weights and a real column: the sum over the lanes of [the sum of four one-hot
    rows, each holding its weight at the lane whose number is its index word] times the column is the four weights
    times the column's entries at the four positions. -/
theorem sum_onehot4 {K : ℕ} (hK : K ≤ 2 ^ 32) (m1 m2 m3 m4 : ℕ) (h1 : m1 < K) (h2 : m2 < K) (h3 : m3 < K) (h4 : m4 < K)
    (a1 a2 a3 a4 : ℝ) (T : Fin K → EReal) (hT : ∀ k, ∃ r : ℝ, T k = (r : EReal)) :
    ∑ k : Fin K, ((((if BitVec.ofNat 32 k.val = BitVec.ofNat 32 m1 then (a1 : EReal) else 0)
          + (if BitVec.ofNat 32 k.val = BitVec.ofNat 32 m2 then (a2 : EReal) else 0))
          + (if BitVec.ofNat 32 k.val = BitVec.ofNat 32 m3 then (a3 : EReal) else 0))
          + (if BitVec.ofNat 32 k.val = BitVec.ofNat 32 m4 then (a4 : EReal) else 0)) * T k
      = a1 * T ⟨m1, h1⟩ + a2 * T ⟨m2, h2⟩ + a3 * T ⟨m3, h3⟩ + a4 * T ⟨m4, h4⟩ := by
  choose t ht using hT
  have hite : ∀ (c : Prop) [Decidable c] (a : ℝ), (if c then (a : EReal) else 0) = ((if c then a else 0 : ℝ) : EReal) := by
    intro c _ a; split <;> simp
  simp only [ht, ofNat_eq_iff hK _ h1, ofNat_eq_iff hK _ h2, ofNat_eq_iff hK _ h3, ofNat_eq_iff hK _ h4, hite,
    ← EReal.coe_add, ← EReal.coe_mul, ← coe_sum]
  exact congrArg _ (real_sum_onehot4 _ _ _ _ a1 a2 a3 a4 t)

/-- A 'tpu.matmul' of [R, K] by [K, N] (contracting the left operand's lanes with the right operand's rows) into the
    zero accumulator, read at (p, q): the sum over the lanes of the products. -/
theorem matmul_rows_cols_apply {R K N : ℕ} {φ₁ φ₂ : FTy}
    (w : DotDims.WF ⟨2, ![R, K]⟩ ⟨2, ![K, N]⟩ ⟨2, ![R, N]⟩ [1] [0] [0] [1] [] [])
    (prec : Option ContractPrecision) (A : FVec Ideal ⟨2, ![R, K]⟩ φ₁) (B : FVec Ideal ⟨2, ![K, N]⟩ φ₂)
    (p : Fin R) (q : Fin N) :
    matmul (⟨[1], [0], [0], [1], [], [], w⟩ : DotDims _ _ _) prec A B (constant (F := Ideal) ⟨2, ![R, N]⟩ .f32 0x00000000#32) (ix2 p q)
      = ∑ c : Fin K, A (ix2 p c) * B (ix2 c q) := by
  show FloatOps.matmul _ prec A B _ (ix2 p q) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![R, K]⟩ ⟨2, ![K, N]⟩ ⟨2, ![R, N]⟩) K rfl rfl c
  have l2 : (⟨[1], [0], [0], [1], [], [], w⟩ : DotDims ⟨2, ![R, K]⟩ ⟨2, ![K, N]⟩ ⟨2, ![R, N]⟩).lhsIdx (ix2 p q)
      ((contrEquiv1 _ K rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![R, K]⟩ ⟨2, ![K, N]⟩ ⟨2, ![R, N]⟩).rhsIdx (ix2 p q)
      ((contrEquiv1 _ K rfl rfl).symm c) = ix2 c q := by
    funext ax; apply Fin.ext
    match ax with
    | ⟨0, _⟩ => simp [DotDims.rhsIdx]; exact c2
    | ⟨1, _⟩ => simp [DotDims.rhsIdx]; rfl
  rw [l2, r2]

end Cert.KernelIdeal.KerOneHot

end
-- ==== Proof.KerBilin.lean ====
/-
  From the contraction over the lanes to the four corners.
  A row of the kernel's weight matrix holds, for a position (hs, ws) in cells, four weights at the lanes whose
  numbers are the index words x·n + y of the four corner cells (x, y) — x the floor or the ceiling of hs, y of ws,
  each converted to a 32-bit integer after a clamp into [0, n − 1]. When hs and ws are real numbers in [0, 223]
  these words are the numbers of the specification's cells, the weights are real, and the contraction of the row
  with a column of real entries is the sum of the four weights times the column's entries at the four cells.
-/
import proofs.«104525_j38852274160230_2_alg».proof.Proof.Spec
import proofs.«104525_j38852274160230_2_alg».proof.Proof.Facts
import proofs.«104525_j38852274160230_2_alg».proof.Proof.KerOneHot

noncomputable section

open scoped BigOperators

namespace Cert.KernelIdeal.KerBilin

open Idealize.ShloMosaic Cert.Proj Cert.KernelIdeal.KerOneHot

/-! ## The index words -/

/-- The 32-bit conversion of a natural number below 2³¹ is its word. -/
theorem fptosi_nat (m : ℕ) (h : m < 2 ^ 31) : Ideal.fptosi 32 (((m : ℕ) : ℝ) : EReal) = BitVec.ofNat 32 m := by
  unfold Ideal.fptosi
  rw [Ideal.toIntClamped_coe, if_pos (Nat.cast_nonneg m), Int.floor_natCast]
  have h2 : ((2 ^ (32 - 1) : Nat) : Int) = 2147483648 := by norm_num
  have hmin : min (((2 ^ (32 - 1) : Nat) : Int) - 1) (m : ℤ) = m := by
    apply min_eq_right; rw [h2]; omega
  have hmax : max (-((2 ^ (32 - 1) : Nat) : Int)) (m : ℤ) = m := by
    apply max_eq_right; rw [h2]; omega
  rw [hmin, hmax]
  exact BitVec.ofInt_natCast 32 m

/-- The kernel's clamp of a natural number into [0, n − 1], converted: the word of the smaller of the two. -/
theorem clamp_word_nat (n : ℕ) (cw : BitVec 32) (hcw : lit cw = (((n - 1 : ℕ) : ℝ) : EReal)) (hn : n - 1 < 2 ^ 31)
    (m : ℕ) (hm : m < 2 ^ 31) :
    Ideal.fptosi 32 (min (lit cw) (max (lit 0x00000000#32) (((m : ℕ) : ℝ) : EReal))) = BitVec.ofNat 32 (min m (n - 1)) := by
  have h0 : (0 : EReal) ≤ (((m : ℕ) : ℝ) : EReal) := by exact_mod_cast Nat.cast_nonneg m
  rw [lit_zero, hcw, max_eq_right h0]
  rcases le_total m (n - 1) with h | h
  · have h' : (((m : ℕ) : ℝ) : EReal) ≤ (((n - 1 : ℕ) : ℝ) : EReal) := by exact_mod_cast h
    rw [min_eq_right h', Nat.min_eq_left h, fptosi_nat m hm]
  · have h' : (((n - 1 : ℕ) : ℝ) : EReal) ≤ (((m : ℕ) : ℝ) : EReal) := by exact_mod_cast h
    rw [min_eq_left h', Nat.min_eq_right h, fptosi_nat (n - 1) hn]

/-- The floor of a nonnegative real is a natural number. -/
theorem floor_nat (t : ℝ) (h0 : 0 ≤ t) : ((⌊t⌋ : ℤ) : ℝ) = ((⌊t⌋.toNat : ℕ) : ℝ) := by
  have h := Int.toNat_of_nonneg (Int.floor_nonneg.mpr h0)
  exact_mod_cast h.symm
theorem ceil_nat (t : ℝ) (h0 : 0 ≤ t) : ((⌈t⌉ : ℤ) : ℝ) = ((⌈t⌉.toNat : ℕ) : ℝ) := by
  have h := Int.toNat_of_nonneg (Int.ceil_nonneg h0)
  exact_mod_cast h.symm

/-- The clamped and converted floor of a position in [0, 223] is the word of the cell the floor names. -/
theorem word_fl (n : ℕ) (cw : BitVec 32) (hcw : lit cw = (((n - 1 : ℕ) : ℝ) : EReal)) (hn : n - 1 < 2 ^ 31)
    (t : ℝ) (h0 : 0 ≤ t) (h1 : t ≤ 223) :
    Ideal.fptosi 32 (min (lit cw) (max (lit 0x00000000#32) (fl (t : EReal)))) = BitVec.ofNat 32 (cell n (fl (t : EReal))) := by
  have hb : ⌊t⌋.toNat < 2 ^ 31 := by
    have h2 : (⌊t⌋ : ℝ) ≤ 223 := (Int.floor_le t).trans h1
    have h3 : ⌊t⌋ ≤ 223 := by exact_mod_cast h2
    omega
  rw [cell_fl n t h0 (by linarith [show (223 : ℝ) < 2 ^ 30 by norm_num]), fl_coe, floor_nat t h0,
    clamp_word_nat n cw hcw hn _ hb]

/-- The same for the ceiling. -/
theorem word_ce (n : ℕ) (cw : BitVec 32) (hcw : lit cw = (((n - 1 : ℕ) : ℝ) : EReal)) (hn : n - 1 < 2 ^ 31)
    (t : ℝ) (h0 : 0 ≤ t) (h1 : t ≤ 223) :
    Ideal.fptosi 32 (min (lit cw) (max (lit 0x00000000#32) (ce (t : EReal)))) = BitVec.ofNat 32 (cell n (ce (t : EReal))) := by
  have hb : ⌈t⌉.toNat < 2 ^ 31 := by
    have h2 : (⌈t⌉ : ℝ) < t + 1 := Int.ceil_lt_add_one t
    have h3 : (⌈t⌉ : ℝ) < 224 := by linarith
    have h4 : ⌈t⌉ < 224 := by exact_mod_cast h3
    omega
  rw [cell_ce n t h0 (by linarith [show (223 : ℝ) < 2 ^ 30 by norm_num]), ce_coe, ceil_nat t h0,
    clamp_word_nat n cw hcw hn _ hb]

/-- The kernel's flat index word of a corner: row word times the row length plus column word (32-bit, wrapping). -/
@[reducible] def wd (n : ℕ) (cw : BitVec 32) (a b : EReal) : BitVec 32 :=
  Ideal.fptosi 32 (min (lit cw) (max (lit 0x00000000#32) a)) * BitVec.ofNat 32 n
    + Ideal.fptosi 32 (min (lit cw) (max (lit 0x00000000#32) b))

theorem wd_eq (n : ℕ) (cw : BitVec 32) (a b : EReal)
    (ha : Ideal.fptosi 32 (min (lit cw) (max (lit 0x00000000#32) a)) = BitVec.ofNat 32 (cell n a))
    (hb : Ideal.fptosi 32 (min (lit cw) (max (lit 0x00000000#32) b)) = BitVec.ofNat 32 (cell n b)) :
    wd n cw a b = BitVec.ofNat 32 (cell n a * n + cell n b) := by
  unfold wd
  rw [ha, hb, BitVec.ofNat_add, BitVec.ofNat_mul]

/-- A cell of an n × n grid has a flat number below n · n. -/
theorem flat_lt {n K : ℕ} (hK : n * n = K) {a b : ℕ} (ha : a < n) (hb : b < n) : a * n + b < K := by
  have h1 : (a + 1) * n ≤ n * n := Nat.mul_le_mul_right n ha
  have h2 : (a + 1) * n = a * n + n := by ring
  omega

/-! ## The contraction is the four corners -/

/-- The contraction of the kernel's weight row for the position (hs, ws) with a real column T, for an n × n grid
    of cells laid flat: the four corners' weights times T at the four cells' flat numbers, in the specification's
    order. -/
theorem sum_corners {n K : ℕ} (hn : 0 < n) (hK : n * n = K) (hK32 : K ≤ 2 ^ 32)
    (cw : BitVec 32) (hcw : lit cw = (((n - 1 : ℕ) : ℝ) : EReal))
    (hs ws : EReal) (hhs : ∃ r : ℝ, 0 ≤ r ∧ r ≤ 223 ∧ hs = (r : EReal)) (hws : ∃ r : ℝ, 0 ≤ r ∧ r ≤ 223 ∧ ws = (r : EReal))
    (T : Fin K → EReal) (hT : ∀ k, ∃ r : ℝ, T k = (r : EReal)) :
    ∑ k : Fin K, ((((if BitVec.ofNat 32 k.val = wd n cw (fl hs) (fl ws) then (ce hs - hs) * (ce ws - ws) else lit 0x00000000#32)
          + (if BitVec.ofNat 32 k.val = wd n cw (fl hs) (ce ws) then (ce hs - hs) * (ws - fl ws) else lit 0x00000000#32))
          + (if BitVec.ofNat 32 k.val = wd n cw (ce hs) (fl ws) then (hs - fl hs) * (ce ws - ws) else lit 0x00000000#32))
          + (if BitVec.ofNat 32 k.val = wd n cw (ce hs) (ce ws) then (hs - fl hs) * (ws - fl ws) else lit 0x00000000#32)) * T k
      = (ce hs - hs) * (ce ws - ws) * T ⟨cell n (fl hs) * n + cell n (fl ws), flat_lt hK (cell_lt n hn _) (cell_lt n hn _)⟩
        + (hs - fl hs) * (ce ws - ws) * T ⟨cell n (ce hs) * n + cell n (fl ws), flat_lt hK (cell_lt n hn _) (cell_lt n hn _)⟩
        + (ce hs - hs) * (ws - fl ws) * T ⟨cell n (fl hs) * n + cell n (ce ws), flat_lt hK (cell_lt n hn _) (cell_lt n hn _)⟩
        + (hs - fl hs) * (ws - fl ws) * T ⟨cell n (ce hs) * n + cell n (ce ws), flat_lt hK (cell_lt n hn _) (cell_lt n hn _)⟩ := by
  obtain ⟨r, hr0, hr1, rfl⟩ := hhs
  obtain ⟨s, hs0, hs1, rfl⟩ := hws
  have hn31 : n - 1 < 2 ^ 31 := by
    have : n * n ≤ 2 ^ 32 := hK ▸ hK32
    by_contra hc
    have h2 : 2 ^ 31 ≤ n := by omega
    have h3 : 2 ^ 31 * 2 ^ 31 ≤ n * n := Nat.mul_le_mul h2 h2
    norm_num at h3 this
    omega
  rw [wd_eq n cw _ _ (word_fl n cw hcw hn31 r hr0 hr1) (word_fl n cw hcw hn31 s hs0 hs1),
    wd_eq n cw _ _ (word_fl n cw hcw hn31 r hr0 hr1) (word_ce n cw hcw hn31 s hs0 hs1),
    wd_eq n cw _ _ (word_ce n cw hcw hn31 r hr0 hr1) (word_fl n cw hcw hn31 s hs0 hs1),
    wd_eq n cw _ _ (word_ce n cw hcw hn31 r hr0 hr1) (word_ce n cw hcw hn31 s hs0 hs1), lit_zero]
  have e1 : (ce (r : EReal) - (r : EReal)) * (ce (s : EReal) - (s : EReal)) = (((⌈r⌉ - r) * (⌈s⌉ - s) : ℝ) : EReal) := by
    rw [ce_coe, ce_coe, ← EReal.coe_sub, ← EReal.coe_sub, ← EReal.coe_mul]
  have e2 : (ce (r : EReal) - (r : EReal)) * ((s : EReal) - fl (s : EReal)) = (((⌈r⌉ - r) * (s - ⌊s⌋) : ℝ) : EReal) := by
    rw [ce_coe, fl_coe, ← EReal.coe_sub, ← EReal.coe_sub, ← EReal.coe_mul]
  have e3 : ((r : EReal) - fl (r : EReal)) * (ce (s : EReal) - (s : EReal)) = (((r - ⌊r⌋) * (⌈s⌉ - s) : ℝ) : EReal) := by
    rw [ce_coe, fl_coe, ← EReal.coe_sub, ← EReal.coe_sub, ← EReal.coe_mul]
  have e4 : ((r : EReal) - fl (r : EReal)) * ((s : EReal) - fl (s : EReal)) = (((r - ⌊r⌋) * (s - ⌊s⌋) : ℝ) : EReal) := by
    rw [fl_coe, fl_coe, ← EReal.coe_sub, ← EReal.coe_sub, ← EReal.coe_mul]
  rw [e1, e2, e3, e4]
  rw [sum_onehot4 hK32 _ _ _ _ (flat_lt hK (cell_lt n hn _) (cell_lt n hn _)) (flat_lt hK (cell_lt n hn _) (cell_lt n hn _))
    (flat_lt hK (cell_lt n hn _) (cell_lt n hn _)) (flat_lt hK (cell_lt n hn _) (cell_lt n hn _)) _ _ _ _ T hT]
  exact congrArg (· + _) (add_right_comm _ _ _)

end Cert.KernelIdeal.KerBilin

end
-- ==== Proof.KerLevels.lean ====
/-
  Each of the kernel's four stored values, read at an index, is the specification's bilinear interpolation.
  A stored value is the product of a weight matrix with a feature table. Read at (p, q), the product is the sum
  over the table's rows of the weight at (p, row) times the table at (row, q); the weight row of point p is the
  sum of four one-hot rows holding the four bilinear weights at the flat numbers of the four corner cells; so the
  sum collapses to the four corners — the specification's interpolation, the table's entries being real.
-/
import proofs.«104525_j38852274160230_2_alg».proof.Proof.BodyKI
import proofs.«104525_j38852274160230_2_alg».proof.Proof.Spec
import proofs.«104525_j38852274160230_2_alg».proof.Proof.Facts
import proofs.«104525_j38852274160230_2_alg».proof.Proof.KerOneHot
import proofs.«104525_j38852274160230_2_alg».proof.Proof.KerBilin

noncomputable section

namespace Cert.KernelIdeal.KerValue
open Idealize.ShloMosaic Idealize.ShloMosaic.ValueIdx Cert.KernelIdeal Cert.KernelIdeal.Gen Cert.KernelIdeal.Hand Cert.Proj
open Cert.KernelIdeal.KerOneHot Cert.KernelIdeal.KerBilin

/-! ## The point's coordinates and its clipped pixel coordinates -/

/-- Column 0 of the block of coordinates, as a vector, at point p: X. -/
theorem coordX (x0 : FVec Ideal S200x3 .f32) (p : Fin 200) :
    shapeCast S200 (extractStridedSlice S200x1 ![0, 0] x0 slices_S200x3_o0_0_S200x1) shapeCasts_S200x1_S200 (ix1 p) = x0 (ix2 p 0) :=
  (shapeCast_a1_a_apply _ _ p).trans (slice2_axis1_apply 0 x0 _ p 0 0 rfl)
/-- Column 1: Y. -/
theorem coordY (x0 : FVec Ideal S200x3 .f32) (p : Fin 200) :
    shapeCast S200 (extractStridedSlice S200x1 ![0, 1] x0 slices_S200x3_o0_1_S200x1) shapeCasts_S200x1_S200 (ix1 p) = x0 (ix2 p 1) :=
  (shapeCast_a1_a_apply _ _ p).trans (slice2_axis1_apply 1 x0 _ p 0 1 rfl)
/-- Column 2: Z. -/
theorem coordZ (x0 : FVec Ideal S200x3 .f32) (p : Fin 200) :
    shapeCast S200 (extractStridedSlice S200x1 ![0, 2] x0 slices_S200x3_o0_2_S200x1) shapeCasts_S200x1_S200 (ix1 p) = x0 (ix2 p 2) :=
  (shapeCast_a1_a_apply _ _ p).trans (slice2_axis1_apply 2 x0 _ p 0 2 rfl)

/-- The kernel's row pixel coordinate of point p is the specification's: it writes 0 − y for −y. -/
theorem pay3_apply (x0 : Vec Ideal S200x3 .f32) (p : Fin 200) :
    k0_pay3 (F := Ideal) x0 (ix1 p) = pix (-(x0 (ix2 p 1))) (x0 (ix2 p 2)) := by
  unfold k0_pay3 k0_pay2 pix
  simp only [minimumf_apply, maximumf_apply, addf_apply, divf_apply, mulf_apply, subf_apply, broadcast_apply, coordY, coordZ]
  simp only [Ideal.ofBits_def, lit, Ideal.ofBits_zero_f32, zero_sub]

/-- The kernel's column pixel coordinate of point p is the specification's. -/
theorem pay4_apply (x0 : Vec Ideal S200x3 .f32) (p : Fin 200) :
    k0_pay4 (F := Ideal) x0 (ix1 p) = pix (x0 (ix2 p 0)) (x0 (ix2 p 2)) := by
  unfold k0_pay4 k0_pay2 pix
  simp only [minimumf_apply, maximumf_apply, addf_apply, divf_apply, mulf_apply, subf_apply, broadcast_apply, coordX, coordZ]
  simp only [Ideal.ofBits_def, lit, Ideal.ofBits_zero_f32, zero_sub]

/-- A position in cells of size at least one is a real in [0, 223]. -/
theorem hs_real {sw : BitVec 32} {s : ℝ} (hs1 : 1 ≤ s) (hsw : lit sw = (s : EReal)) (y z : EReal) :
    ∃ r : ℝ, 0 ≤ r ∧ r ≤ 223 ∧ hsOf sw y z = (r : EReal) := by
  obtain ⟨r, h0, h1, h⟩ := hsOf_real (by linarith) hsw y z
  exact ⟨r, h0, h1.trans (div_le_self (by norm_num) hs1), h⟩
theorem ws_real {sw : BitVec 32} {s : ℝ} (hs1 : 1 ≤ s) (hsw : lit sw = (s : EReal)) (x z : EReal) :
    ∃ r : ℝ, 0 ≤ r ∧ r ≤ 223 ∧ wsOf sw x z = (r : EReal) := by
  obtain ⟨r, h0, h1, h⟩ := wsOf_real (by linarith) hsw x z
  exact ⟨r, h0, h1.trans (div_le_self (by norm_num) hs1), h⟩

/-! ## The lane numbers -/

theorem iota1 (p : Fin 200) (c : Fin 3136) :
    iota .tc S200x3136 32 [1] iota_S200x3136_d1_w32 (ix2 p c) = BitVec.ofNat 32 c.val := by
  rw [iota_single_apply]
theorem iota2 (p : Fin 200) (c : Fin 784) :
    iota .tc S200x784 32 [1] iota_S200x784_d1_w32 (ix2 p c) = BitVec.ofNat 32 c.val := by
  rw [iota_single_apply]
theorem iota3 (p : Fin 200) (c : Fin 196) :
    iota .tc S200x196 32 [1] iota_S200x196_d1_w32 (ix2 p c) = BitVec.ofNat 32 c.val := by
  rw [iota_single_apply]
theorem iota4 (p : Fin 200) (c : Fin 49) :
    iota .tc S200x49 32 [1] iota_S200x49_d1_w32 (ix2 p c) = BitVec.ofNat 32 c.val := by
  rw [iota_single_apply]

/-! ## Level 1: 56 × 56 cells of size 4 -/

theorem pay5_apply (x0 : Vec Ideal S200x3 .f32) (p : Fin 200) :
    k0_pay5 (F := Ideal) x0 (ix1 p) = hsOf 0x40800000#32 (x0 (ix2 p 1)) (x0 (ix2 p 2)) := by
  unfold k0_pay5 hsOf
  simp only [divf_apply, broadcast_apply, pay3_apply]
  rfl
theorem pay6_apply (x0 : Vec Ideal S200x3 .f32) (p : Fin 200) :
    k0_pay6 (F := Ideal) x0 (ix1 p) = wsOf 0x40800000#32 (x0 (ix2 p 0)) (x0 (ix2 p 2)) := by
  unfold k0_pay6 wsOf
  simp only [divf_apply, broadcast_apply, pay4_apply]
  rfl

theorem lvl1_apply (x0 : Vec Ideal S200x3 .f32) (x1 : Vec Ideal S3136x64 .f32)
    (hfin : ∀ j, ∃ r : ℝ, x1 j = (r : EReal)) (p : Fin 200) (q : Fin 64) :
    lvl1 (F := Ideal) x0 x1 (ix2 p q)
      = bilin (H := 56) (W := 56) (C := 64) (by decide) (by decide)
          (fun i j q => x1 (ix2 (⟨i.val * 56 + j.val, by have := i.isLt; have := j.isLt; omega⟩ : Fin 3136) q))
          (hsOf 0x40800000#32 (x0 (ix2 p 1)) (x0 (ix2 p 2))) (wsOf 0x40800000#32 (x0 (ix2 p 0)) (x0 (ix2 p 2))) q := by
  unfold lvl1 k0_pay24 k0_pay7 k0_pay16 k0_pay17 k0_pay18 k0_pay19 k0_pay20 k0_pay21 k0_pay22 k0_pay23 k0_pay12 k0_pay13 k0_pay14 k0_pay15
    k0_pay8 k0_pay9 k0_pay10 k0_pay11
  simp only [dot_S200x3136_S3136x64_S200x64_1_0_0_1_n_n]
  rw [matmul_rows_cols_apply]
  generalize hio : iota .tc S200x3136 32 [1] iota_S200x3136_d1_w32 = io
  have hio' : ∀ c : Fin 3136, io (ix2 p c) = BitVec.ofNat 32 c.val := fun c => by rw [← hio]; exact iota1 p c
  simp only [addf_apply, select_apply, cmpi_apply, broadcastTo_a1_ab_apply, shapeCast_self, shapeCast_a_a1_apply, hio',
    broadcast_apply, mulf_apply, subf_apply, muli_apply, addi_apply, fptosi_apply, minimumf_apply, maximumf_apply, floor_apply,
    ceil_apply, pay5_apply, pay6_apply, select_cmpi_eq]
  unfold bilin
  exact sum_corners (n := 56) (K := 3136) (by norm_num) (by norm_num) (by norm_num) 0x425C0000#32 (by rw [lit_55]; norm_num)
    (hsOf 0x40800000#32 (x0 (ix2 p 1)) (x0 (ix2 p 2))) (wsOf 0x40800000#32 (x0 (ix2 p 0)) (x0 (ix2 p 2)))
    (hs_real (by norm_num) lit_4 _ _) (ws_real (by norm_num) lit_4 _ _) (fun k => x1 (ix2 k q)) (fun k => hfin _)

/-! ## Level 2: 28 × 28 cells of size 8 -/

theorem lvl2_apply (x0 : Vec Ideal S200x3 .f32) (x2 : Vec Ideal S784x128 .f32)
    (hfin : ∀ j, ∃ r : ℝ, x2 j = (r : EReal)) (p : Fin 200) (q : Fin 128) :
    lvl2 (F := Ideal) x0 x2 (ix2 p q)
      = bilin (H := 28) (W := 28) (C := 128) (by decide) (by decide)
          (fun i j q => x2 (ix2 (⟨i.val * 28 + j.val, by have := i.isLt; have := j.isLt; omega⟩ : Fin 784) q))
          (hsOf 0x41000000#32 (x0 (ix2 p 1)) (x0 (ix2 p 2))) (wsOf 0x41000000#32 (x0 (ix2 p 0)) (x0 (ix2 p 2))) q := by
  unfold lvl2 k0_pay47 k0_pay27 k0_pay38 k0_pay39 k0_pay40 k0_pay41 k0_pay42 k0_pay43 k0_pay44 k0_pay45 k0_pay46 k0_pay34 k0_pay35 k0_pay36 k0_pay37
    k0_pay32 k0_pay33 k0_pay28 k0_pay29 k0_pay30 k0_pay31 k0_pay25 k0_pay26
  simp only [dot_S200x784_S784x128_S200x128_1_0_0_1_n_n]
  rw [matmul_rows_cols_apply]
  generalize hio : iota .tc S200x784 32 [1] iota_S200x784_d1_w32 = io
  have hio' : ∀ c : Fin 784, io (ix2 p c) = BitVec.ofNat 32 c.val := fun c => by rw [← hio]; exact iota2 p c
  simp only [addf_apply, select_apply, cmpi_apply, broadcastTo_a1_ab_apply, shapeCast_self, shapeCast_a_a1_apply, hio',
    broadcast_apply, mulf_apply, subf_apply, divf_apply, muli_apply, addi_apply, fptosi_apply, minimumf_apply, maximumf_apply,
    floor_apply, ceil_apply, pay3_apply, pay4_apply, select_cmpi_eq]
  unfold bilin
  exact sum_corners (n := 28) (K := 784) (by norm_num) (by norm_num) (by norm_num) 0x41D80000#32 (by rw [lit_27]; norm_num)
    (hsOf 0x41000000#32 (x0 (ix2 p 1)) (x0 (ix2 p 2))) (wsOf 0x41000000#32 (x0 (ix2 p 0)) (x0 (ix2 p 2)))
    (hs_real (by norm_num) lit_8 _ _) (ws_real (by norm_num) lit_8 _ _) (fun k => x2 (ix2 k q)) (fun k => hfin _)

/-! ## Level 3: 14 × 14 cells of size 16 -/

theorem lvl3_apply (x0 : Vec Ideal S200x3 .f32) (x3 : Vec Ideal S196x256 .f32)
    (hfin : ∀ j, ∃ r : ℝ, x3 j = (r : EReal)) (p : Fin 200) (q : Fin 256) :
    lvl3 (F := Ideal) x0 x3 (ix2 p q)
      = bilin (H := 14) (W := 14) (C := 256) (by decide) (by decide)
          (fun i j q => x3 (ix2 (⟨i.val * 14 + j.val, by have := i.isLt; have := j.isLt; omega⟩ : Fin 196) q))
          (hsOf 0x41800000#32 (x0 (ix2 p 1)) (x0 (ix2 p 2))) (wsOf 0x41800000#32 (x0 (ix2 p 0)) (x0 (ix2 p 2))) q := by
  unfold lvl3 k0_pay66 k0_pay50 k0_pay59 k0_pay60 k0_pay61 k0_pay62 k0_pay63 k0_pay64 k0_pay65 k0_pay56 k0_pay57 k0_pay58 k0_pay55
    k0_pay51 k0_pay52 k0_pay53 k0_pay54 k0_pay48 k0_pay49
  simp only [dot_S200x196_S196x256_S200x256_1_0_0_1_n_n]
  rw [matmul_rows_cols_apply]
  generalize hio : iota .tc S200x196 32 [1] iota_S200x196_d1_w32 = io
  have hio' : ∀ c : Fin 196, io (ix2 p c) = BitVec.ofNat 32 c.val := fun c => by rw [← hio]; exact iota3 p c
  simp only [addf_apply, select_apply, cmpi_apply, broadcastTo_a1_ab_apply, shapeCast_self, shapeCast_a_a1_apply, hio',
    broadcast_apply, mulf_apply, subf_apply, divf_apply, muli_apply, addi_apply, fptosi_apply, minimumf_apply, maximumf_apply,
    floor_apply, ceil_apply, pay3_apply, pay4_apply, select_cmpi_eq]
  unfold bilin
  exact sum_corners (n := 14) (K := 196) (by norm_num) (by norm_num) (by norm_num) 0x41500000#32 (by rw [lit_13]; norm_num)
    (hsOf 0x41800000#32 (x0 (ix2 p 1)) (x0 (ix2 p 2))) (wsOf 0x41800000#32 (x0 (ix2 p 0)) (x0 (ix2 p 2)))
    (hs_real (by norm_num) lit_16 _ _) (ws_real (by norm_num) lit_16 _ _) (fun k => x3 (ix2 k q)) (fun k => hfin _)

/-! ## Level 4: 7 × 7 cells of size 32 -/

theorem lvl4_apply (x0 : Vec Ideal S200x3 .f32) (x4 : Vec Ideal S49x512 .f32)
    (hfin : ∀ j, ∃ r : ℝ, x4 j = (r : EReal)) (p : Fin 200) (q : Fin 512) :
    lvl4 (F := Ideal) x0 x4 (ix2 p q)
      = bilin (H := 7) (W := 7) (C := 512) (by decide) (by decide)
          (fun i j q => x4 (ix2 (⟨i.val * 7 + j.val, by have := i.isLt; have := j.isLt; omega⟩ : Fin 49) q))
          (hsOf 0x42000000#32 (x0 (ix2 p 1)) (x0 (ix2 p 2))) (wsOf 0x42000000#32 (x0 (ix2 p 0)) (x0 (ix2 p 2))) q := by
  unfold lvl4 k0_pay1 k0_pay69 k0_pay79 k0_pay80 k0_pay81 k0_pay82 k0_pay83 k0_pay84 k0_pay85 k0_pay76 k0_pay77 k0_pay78 k0_pay74 k0_pay75
    k0_pay70 k0_pay71 k0_pay72 k0_pay73 k0_pay67 k0_pay68
  simp only [dot_S200x49_S49x512_S200x512_1_0_0_1_n_n]
  rw [matmul_rows_cols_apply]
  generalize hio : iota .tc S200x49 32 [1] iota_S200x49_d1_w32 = io
  have hio' : ∀ c : Fin 49, io (ix2 p c) = BitVec.ofNat 32 c.val := fun c => by rw [← hio]; exact iota4 p c
  simp only [addf_apply, select_apply, cmpi_apply, broadcastTo_a1_ab_apply, shapeCast_self, shapeCast_a_a1_apply, hio',
    broadcast_apply, mulf_apply, subf_apply, divf_apply, muli_apply, addi_apply, fptosi_apply, minimumf_apply, maximumf_apply,
    floor_apply, ceil_apply, pay3_apply, pay4_apply, select_cmpi_eq]
  unfold bilin
  exact sum_corners (n := 7) (K := 49) (by norm_num) (by norm_num) (by norm_num) 0x40C00000#32 (by rw [lit_6]; norm_num)
    (hsOf 0x42000000#32 (x0 (ix2 p 1)) (x0 (ix2 p 2))) (wsOf 0x42000000#32 (x0 (ix2 p 0)) (x0 (ix2 p 2)))
    (hs_real (by norm_num) lit_32 _ _) (ws_real (by norm_num) lit_32 _ _) (fun k => x4 (ix2 k q)) (fun k => hfin _)

end Cert.KernelIdeal.KerValue

end
-- ==== Proof.RefGather.lean ====
/-
  The four-corner gather read at an index.
  A feature map [H, W, C] is gathered at an integer array [N, 2] of (row, column) start indices: both spatial axes
  are collapsed, the channel axis is the one offset axis, and the index vector lies along axis 1 of the indices.
  Result element (n, q) is then the map's element at row idx[n, 0], column idx[n, 1] — each read signed and clamped
  into the map (a gather clamps every start index so that the slice fits) — and channel q.
-/
import Idealize.ShloMosaic.Lib.ValueIdx
import Idealize.ShloMosaic.Lib.Pipeline.Value

noncomputable section

namespace Cert.Proj.Corner

open Idealize.ShloMosaic Idealize.ShloMosaic.ValueIdx

/-- The dimension numbers of the corner gather, for a map [H, W, C], indices [N, 2] and a result [N, C]. -/
abbrev cornerDims (H W C N : Nat)
    (wf : GatherDims.WF ⟨3, ![H, W, C]⟩ ⟨2, ![N, 2]⟩ ⟨2, ![N, C]⟩ [1] [0, 1] [] [0, 1] [] 1 ![1, 1, C]) :
    GatherDims ⟨3, ![H, W, C]⟩ ⟨2, ![N, 2]⟩ ⟨2, ![N, C]⟩ where
  offsetDims := [1]
  collapsedSliceDims := [0, 1]
  operandBatchingDims := []
  startIndicesBatchingDims := []
  startIndexMap := [0, 1]
  indexVectorDim := 1
  sliceSizes := ![1, 1, C]
  wf := wf

variable {α : Type}

theorem gather_corner_apply {H W C N w : Nat} (hH : 0 < H) (hW : 0 < W)
    (wf : GatherDims.WF ⟨3, ![H, W, C]⟩ ⟨2, ![N, 2]⟩ ⟨2, ![N, C]⟩ [1] [0, 1] [] [0, 1] [] 1 ![1, 1, C])
    (x : (⟨3, ![H, W, C]⟩ : Shape).Idx → α) (idx : IVec ⟨2, ![N, 2]⟩ w) (n : Fin N) (q : Fin C) :
    Host.gather (cornerDims H W C N wf) x idx (ix2 n q)
      = x (ix3 ⟨min (idx (ix2 n 0)).toInt.toNat (H - 1), by omega⟩
               ⟨min (idx (ix2 n 1)).toInt.toNat (W - 1), by omega⟩ q) := by
  unfold Host.gather
  refine congrArg x (funext fun a => Fin.ext ?_)
  match a with
  | ⟨0, _⟩ =>
    show (cornerDims H W C N wf).start (ix2 n q) idx 0 + (cornerDims H W C N wf).batchCoord (ix2 n q) 0
        + (cornerDims H W C N wf).offCoord (ix2 n q) 0 = _
    rw [GatherDims.batchCoord_eq_zero _ _ _ List.not_mem_nil,
      GatherDims.offCoord_eq_zero _ _ _ (fun h => ((GatherDims.mem_sKept _ _).mp h).1 (by decide : (0 : Fin 3) ∈ ([0, 1] : List (Fin 3))))]
    simp only [Nat.add_zero]
    unfold GatherDims.start
    rw [dif_pos (show (0 : Fin 3) ∈ (cornerDims H W C N wf).startIndexMap from (by decide : (0 : Fin 3) ∈ ([0, 1] : List (Fin 3))))]
    have hsi : (cornerDims H W C N wf).siIdx (ix2 n q) ⟨List.idxOf (0 : Fin 3) (cornerDims H W C N wf).startIndexMap,
        List.idxOf_lt_length_iff.2 (by decide : (0 : Fin 3) ∈ ([0, 1] : List (Fin 3)))⟩ = ix2 n 0 := by
      funext b; refine Fin.ext ?_
      match b with
      | ⟨0, _⟩ => rfl
      | ⟨1, _⟩ => rfl
    rw [hsi]
    rfl
  | ⟨1, _⟩ =>
    show (cornerDims H W C N wf).start (ix2 n q) idx 1 + (cornerDims H W C N wf).batchCoord (ix2 n q) 1
        + (cornerDims H W C N wf).offCoord (ix2 n q) 1 = _
    rw [GatherDims.batchCoord_eq_zero _ _ _ List.not_mem_nil,
      GatherDims.offCoord_eq_zero _ _ _ (fun h => ((GatherDims.mem_sKept _ _).mp h).1 (by decide : (1 : Fin 3) ∈ ([0, 1] : List (Fin 3))))]
    simp only [Nat.add_zero]
    unfold GatherDims.start
    rw [dif_pos (show (1 : Fin 3) ∈ (cornerDims H W C N wf).startIndexMap from (by decide : (1 : Fin 3) ∈ ([0, 1] : List (Fin 3))))]
    have hsi : (cornerDims H W C N wf).siIdx (ix2 n q) ⟨List.idxOf (1 : Fin 3) (cornerDims H W C N wf).startIndexMap,
        List.idxOf_lt_length_iff.2 (by decide : (1 : Fin 3) ∈ ([0, 1] : List (Fin 3)))⟩ = ix2 n 1 := by
      funext b; refine Fin.ext ?_
      match b with
      | ⟨0, _⟩ => rfl
      | ⟨1, _⟩ => rfl
    rw [hsi]
    rfl
  | ⟨2, _⟩ =>
    show (cornerDims H W C N wf).start (ix2 n q) idx 2 + (cornerDims H W C N wf).batchCoord (ix2 n q) 2
        + (cornerDims H W C N wf).offCoord (ix2 n q) 2 = _
    rw [GatherDims.batchCoord_eq_zero _ _ _ List.not_mem_nil]
    unfold GatherDims.start
    rw [dif_neg (show ¬ (2 : Fin 3) ∈ (cornerDims H W C N wf).startIndexMap from (by decide : (2 : Fin 3) ∉ ([0, 1] : List (Fin 3))))]
    simp only [Nat.add_zero, Nat.zero_add]
    unfold GatherDims.offCoord
    rw [dif_pos ((GatherDims.mem_sKept _ _).mpr ⟨(by decide : (2 : Fin 3) ∉ ([0, 1] : List (Fin 3))), List.not_mem_nil⟩)]
    rfl

end Cert.Proj.Corner

end
-- ==== Proof.RefLayout.lean ====
/-
  The layout operations around one level's gathers, each read at an index.
  A per-point vector [N] becomes a column [N, 1] and then a block [N, C] by two broadcasts; a coordinate of the points
  array [N, 3] is sliced out as a column [N, 1] and flattened to [N]; two index columns are joined side by side into the
  [N, 2] array of (row, column) start indices. Each of these only renames the index: the lemmas below say which element
  of the operand each result element is. Last, the wrap of a negative index (add the extent when the index is below
  zero) leaves an index that is not negative as it is.
-/
import Idealize.ShloMosaic.Lib.ValueIdx
import Idealize.ShloMosaic.Lib.IdealHost
import Idealize.ShloMosaic.Lib.Pipeline.Value

noncomputable section

namespace Cert.Proj.Corner

open Idealize.ShloMosaic Idealize.ShloMosaic.ValueIdx

variable {α : Type}

/-- A per-point vector broadcast to a column: element (n, 0) is the vector's element n. -/
theorem bcast_col_apply {N : Nat} (hN : N ≠ 1)
    (h : (⟨1, ![N]⟩ : Shape).BroadcastsInDim ⟨2, ![N, 1]⟩ ![0])
    (x : (⟨1, ![N]⟩ : Shape).Idx → α) (n : Fin N) (z : Fin 1) :
    broadcastInDim ⟨2, ![N, 1]⟩ ![0] h x (ix2 n z) = x (ix1 n) :=
  broadcastInDim_apply _ h x (ix2 n z) (ix1 n) (fun a => match a with
    | ⟨0, _⟩ => by show n.val = if N = 1 then 0 else n.val; rw [if_neg hN])

/-- A column broadcast along the channels: element (n, q) is the column's element (n, 0). -/
theorem bcast_row_apply {N C : Nat} (hN : N ≠ 1)
    (h : (⟨2, ![N, 1]⟩ : Shape).BroadcastsInDim ⟨2, ![N, C]⟩ ![0, 1])
    (x : (⟨2, ![N, 1]⟩ : Shape).Idx → α) (n : Fin N) (q : Fin C) :
    broadcastInDim ⟨2, ![N, C]⟩ ![0, 1] h x (ix2 n q) = x (ix2 n 0) :=
  broadcastInDim_apply _ h x (ix2 n q) (ix2 n 0) (fun a => match a with
    | ⟨0, _⟩ => by show n.val = if N = 1 then 0 else n.val; rw [if_neg hN]
    | ⟨1, _⟩ => by show 0 = if (1 : Nat) = 1 then 0 else q.val; rw [if_pos rfl])

/-- Coordinate `k` of the points array sliced out as a column: element (n, 0) is the array's element (n, k). -/
theorem slice_col_apply {N : Nat} (k : Nat) (hk : k < 3)
    (h : (⟨2, ![N, 3]⟩ : Shape).Slices ![0, k] ⟨2, ![N, 1]⟩)
    (x : (⟨2, ![N, 3]⟩ : Shape).Idx → α) (n : Fin N) (z : Fin 1) :
    extractStridedSlice ⟨2, ![N, 1]⟩ ![0, k] x h (ix2 n z) = x (ix2 n ⟨k, hk⟩) :=
  extractStridedSlice_apply _ x h (ix2 n z) (ix2 n ⟨k, hk⟩) (fun a => match a with
    | ⟨0, _⟩ => by show n.val = 0 + n.val; omega
    | ⟨1, _⟩ => by show k = k + z.val; omega)

/-- A column flattened to a vector: element n is the column's element (n, 0). -/
theorem cast_col_apply {N : Nat} (h : (⟨2, ![N, 1]⟩ : Shape).ShapeCasts ⟨1, ![N]⟩)
    (x : (⟨2, ![N, 1]⟩ : Shape).Idx → α) (n : Fin N) :
    shapeCast ⟨1, ![N]⟩ x h (ix1 n) = x (ix2 n 0) :=
  shapeCast_apply x h (ix1 n) (ix2 n 0) (by
    rw [Shape.rowMajor_val_two, Shape.rowMajor_val_one]
    show n.val * 1 + 0 = n.val; omega)

/-- Two columns joined side by side: column 0 of the result is the first … -/
theorem pair_left_apply {N : Nat} (a b : (⟨2, ![N, 1]⟩ : Shape).Idx → α)
    (h : Shape.Concatenates [(⟨2, ![N, 1]⟩ : Shape), ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n 0) = a (ix2 n 0) :=
  concatenate_pair_apply_left 1 a b h (ix2 n 0) rfl (ix2 n 0) (fun c => match c with
    | ⟨0, _⟩ => rfl
    | ⟨1, _⟩ => rfl)

/-- … and column 1 the second. -/
theorem pair_right_apply {N : Nat} (a b : (⟨2, ![N, 1]⟩ : Shape).Idx → α)
    (h : Shape.Concatenates [(⟨2, ![N, 1]⟩ : Shape), ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n 1) = b (ix2 n 0) :=
  concatenate_pair_apply_right 1 a b h (ix2 n 1) rfl rfl (ix2 n 0) (fun c hc => match c, hc with
    | ⟨0, _⟩, _ => rfl
    | ⟨1, _⟩, hc => absurd rfl hc) rfl

/-- The wrap of a negative index leaves an index that is not negative unchanged. -/
theorem wrap_id (x k : BitVec 32) (hx : 0 ≤ x.toInt) :
    Scalar.select (IntOp.cmpi .slt x 0#32) (IntOp.addi x k) x = x := by
  have h0 : IntOp.cmpi .slt x 0#32 = 0#1 := by
    unfold IntOp.cmpi
    have : x.slt 0#32 = false := by
      rw [BitVec.slt]; simp only [BitVec.toInt_zero, decide_eq_false_iff_not, not_lt]; exact hx
    show BitVec.ofBool (x.slt 0#32) = 0#1
    rw [this]; rfl
  rw [h0, select_zero]

end Cert.Proj.Corner

end
-- ==== Proof.RefLevel.lean ====
/-
  One level of the reference, read index by index.
  The reference computes, as whole-array operations over the 100000 points, the pixel coordinates, the position in
  cells, the four corner cells (floor and ceiling per axis, as 32-bit integers, joined into [N, 2] index arrays and
  gathered from the map) and the four weights (products of distances to the opposite roundings, broadcast along the
  channels), and sums the four weighted corners. Below, that composition is spelt once as a function of the points
  array and the map, for any map extent and cell size, and read at a point n and a channel q: every operation but the
  gather is elementwise or a renaming of indices, the gather reads the map at the clamped corner, and the wrap of a
  negative index does nothing because the position, being a clipped pixel coordinate over a positive cell size, is not
  negative. What comes out is the bilinear interpolation of the specification.
-/
import proofs.«104525_j38852274160230_2_alg».proof.Proof.RefGather
import proofs.«104525_j38852274160230_2_alg».proof.Proof.RefLayout
import proofs.«104525_j38852274160230_2_alg».proof.Proof.Facts

noncomputable section

namespace Cert.Proj.Corner

open Idealize.ShloMosaic Idealize.ShloMosaic.ValueIdx Cert.Proj

/-- The shapes of the per-point arrays: a vector, a column, the index pairs, the points, a scalar. -/
abbrev SN : Shape := ⟨1, ![100000]⟩
abbrev SN1 : Shape := ⟨2, ![100000, 1]⟩
abbrev SN2 : Shape := ⟨2, ![100000, 2]⟩
abbrev SN3 : Shape := ⟨2, ![100000, 3]⟩
abbrev S0 : Shape := ⟨0, ![]⟩

section
variable (hb0 : S0.BroadcastsInDim SN (![] : Fin S0.rank → Fin SN.rank))
  (hb1 : SN.BroadcastsInDim SN1 (![0] : Fin SN.rank → Fin SN1.rank))
  (hsc : SN1.ShapeCasts SN)
  (hcat : Shape.Concatenates [SN1, SN1] SN2 1)

/-- A float word at every point. -/
def wordV (b : BitVec 32) : FVec Ideal SN .f32 := broadcastInDim SN ![] hb0 (constant (F := Ideal) S0 .f32 b)
/-- The same, the scalar passed through a format change that changes nothing. -/
def wordV' (b : BitVec 32) : FVec Ideal SN .f32 := broadcastInDim SN ![] hb0 (id (constant (F := Ideal) S0 .f32 b))
/-- An integer word at every point. -/
def intV (b : BitVec 32) : IVec SN 32 := broadcastInDim SN ![] hb0 (constantI S0 32 b)

/-- Coordinate `k` of every point. -/
def coordV (k : Nat) (hsl : SN3.Slices ![0, k] SN1) (a0 : FVec Ideal SN3 .f32) : FVec Ideal SN .f32 :=
  shapeCast SN (extractStridedSlice SN1 ![0, k] a0 hsl) hsc

/-- The clipped pixel coordinate of every point, from the numerator coordinate and the depth. -/
def pixV (numV zV : FVec Ideal SN .f32) : FVec Ideal SN .f32 :=
  minimumf (wordV' hb0 0x435F0000#32) (maximumf (wordV' hb0 0x00000000#32)
    (addf (Host.divf (mulf (wordV hb0 0x437A0000#32) numV) (Host.negf zV)) (wordV hb0 0x42E00000#32)))

/-- The position in cells of size `sw`. -/
def posV (sw : BitVec 32) (p : FVec Ideal SN .f32) : FVec Ideal SN .f32 := Host.divf p (wordV hb0 sw)

/-- A rounded position as an index column, after the wrap of negative indices by the extent word `ew`. -/
def colV (ew : BitVec 32) (x : FVec Ideal SN .f32) : IVec SN1 32 :=
  broadcastInDim SN1 ![0] hb1
    (select (cmpi .slt (fptosi 32 x) (intV hb0 0#32)) (addi (fptosi 32 x) (intV hb0 ew)) (fptosi 32 x))

/-- The (row, column) start indices of one corner. -/
def idxV (ew : BitVec 32) (x y : FVec Ideal SN .f32) : IVec SN2 32 :=
  concatenate SN2 1 [⟨SN1, colV hb0 hb1 ew x⟩, ⟨SN1, colV hb0 hb1 ew y⟩] hcat

theorem wordV_apply (b : BitVec 32) (n : Fin 100000) : wordV hb0 b (ix1 n) = lit b := rfl
theorem wordV'_apply (b : BitVec 32) (n : Fin 100000) : wordV' hb0 b (ix1 n) = lit b := rfl
theorem intV_apply (b : BitVec 32) (n : Fin 100000) : intV hb0 b (ix1 n) = b := rfl

theorem coordV_apply (k : Nat) (hk : k < 3) (hsl : SN3.Slices ![0, k] SN1) (a0 : FVec Ideal SN3 .f32) (n : Fin 100000) :
    coordV hsc k hsl a0 (ix1 n) = a0 (ix2 n ⟨k, hk⟩) := by
  unfold coordV
  rw [cast_col_apply hsc _ n, slice_col_apply k hk hsl a0 n 0]

theorem pixV_apply (numV zV : FVec Ideal SN .f32) (n : Fin 100000) :
    pixV hb0 numV zV (ix1 n) = pix (numV (ix1 n)) (zV (ix1 n)) := rfl

theorem posV_apply (sw : BitVec 32) (p : FVec Ideal SN .f32) (n : Fin 100000) :
    posV hb0 sw p (ix1 n) = Ideal.div (p (ix1 n)) (lit sw) := rfl

/-! ## The corners and the weights -/

variable {H W C : Nat}

/-- The map at one corner, for every point and channel: the gather at the corner's start indices. -/
def cornerV (d : GatherDims ⟨3, ![H, W, C]⟩ SN2 ⟨2, ![100000, C]⟩) (g : FVec Ideal ⟨3, ![H, W, C]⟩ .f32)
    (ew : BitVec 32) (x y : FVec Ideal SN .f32) : FVec Ideal ⟨2, ![100000, C]⟩ .f32 :=
  Host.gather d g (idxV hb0 hb1 hcat ew x y)

/-- A per-point weight, the product of two distances, along the channels. -/
def weightV (hbC : SN1.BroadcastsInDim ⟨2, ![100000, C]⟩ (![0, 1] : Fin SN1.rank → Fin (⟨2, ![100000, C]⟩ : Shape).rank))
    (u v : FVec Ideal SN .f32) : FVec Ideal ⟨2, ![100000, C]⟩ .f32 :=
  broadcastInDim ⟨2, ![100000, C]⟩ ![0, 1] hbC (broadcastInDim SN1 ![0] hb1 (mulf u v))

/-- The four weighted corners summed, from the positions `hs`, `ws` of every point. -/
def blendV (d : GatherDims ⟨3, ![H, W, C]⟩ SN2 ⟨2, ![100000, C]⟩)
    (hbC : SN1.BroadcastsInDim ⟨2, ![100000, C]⟩ (![0, 1] : Fin SN1.rank → Fin (⟨2, ![100000, C]⟩ : Shape).rank))
    (g : FVec Ideal ⟨3, ![H, W, C]⟩ .f32) (ew : BitVec 32) (hs ws : FVec Ideal SN .f32) :
    FVec Ideal ⟨2, ![100000, C]⟩ .f32 :=
  addf (addf (addf
    (mulf (weightV hb1 hbC (subf (Host.ceil hs) hs) (subf (Host.ceil ws) ws))
      (cornerV hb0 hb1 hcat d g ew (Host.floor hs) (Host.floor ws)))
    (mulf (weightV hb1 hbC (subf hs (Host.floor hs)) (subf (Host.ceil ws) ws))
      (cornerV hb0 hb1 hcat d g ew (Host.ceil hs) (Host.floor ws))))
    (mulf (weightV hb1 hbC (subf (Host.ceil hs) hs) (subf ws (Host.floor ws)))
      (cornerV hb0 hb1 hcat d g ew (Host.floor hs) (Host.ceil ws))))
    (mulf (weightV hb1 hbC (subf hs (Host.floor hs)) (subf ws (Host.floor ws)))
      (cornerV hb0 hb1 hcat d g ew (Host.ceil hs) (Host.ceil ws)))

/-- One level of the reference as a function of the points array and the map. -/
def refLevel (hsl0 : SN3.Slices ![0, 0] SN1) (hsl1 : SN3.Slices ![0, 1] SN1) (hsl2 : SN3.Slices ![0, 2] SN1)
    (d : GatherDims ⟨3, ![H, W, C]⟩ SN2 ⟨2, ![100000, C]⟩)
    (hbC : SN1.BroadcastsInDim ⟨2, ![100000, C]⟩ (![0, 1] : Fin SN1.rank → Fin (⟨2, ![100000, C]⟩ : Shape).rank))
    (sw ew : BitVec 32) (a0 : FVec Ideal SN3 .f32) (g : FVec Ideal ⟨3, ![H, W, C]⟩ .f32) :
    FVec Ideal ⟨2, ![100000, C]⟩ .f32 :=
  blendV hb0 hb1 hcat d hbC g ew
    (posV hb0 sw (pixV hb0 (Host.negf (coordV hsc 1 hsl1 a0)) (coordV hsc 2 hsl2 a0)))
    (posV hb0 sw (pixV hb0 (coordV hsc 0 hsl0 a0) (coordV hsc 2 hsl2 a0)))

theorem weightV_apply (hbC : SN1.BroadcastsInDim ⟨2, ![100000, C]⟩ (![0, 1] : Fin SN1.rank → Fin (⟨2, ![100000, C]⟩ : Shape).rank))
    (u v : FVec Ideal SN .f32) (n : Fin 100000) (q : Fin C) :
    weightV hb1 hbC u v (ix2 n q) = u (ix1 n) * v (ix1 n) := by
  unfold weightV
  rw [bcast_row_apply (by decide) hbC _ n q, bcast_col_apply (by decide) hb1 _ n 0]
  rfl

/-- An index column at a point: the converted rounding itself, when it is not negative. -/
theorem colV_apply (ew : BitVec 32) (x : FVec Ideal SN .f32) (n : Fin 100000)
    (hx : 0 ≤ (Ideal.fptosi 32 (x (ix1 n))).toInt) :
    colV hb0 hb1 ew x (ix2 n 0) = Ideal.fptosi 32 (x (ix1 n)) := by
  unfold colV
  rw [bcast_col_apply (by decide) hb1 _ n 0]
  exact wrap_id _ _ hx

/-- THE CORNER READ: the map at the cells the two rounded positions name, at the channel. -/
theorem cornerV_apply (hH : 0 < H) (hW : 0 < W)
    (wf : GatherDims.WF ⟨3, ![H, W, C]⟩ SN2 ⟨2, ![100000, C]⟩ [1] [0, 1] [] [0, 1] [] 1 ![1, 1, C])
    (g : FVec Ideal ⟨3, ![H, W, C]⟩ .f32) (ew : BitVec 32) (x y : FVec Ideal SN .f32) (n : Fin 100000) (q : Fin C)
    (hx : 0 ≤ (Ideal.fptosi 32 (x (ix1 n))).toInt) (hy : 0 ≤ (Ideal.fptosi 32 (y (ix1 n))).toInt) :
    cornerV hb0 hb1 hcat (cornerDims H W C 100000 wf) g ew x y (ix2 n q)
      = g (ix3 ⟨cell H (x (ix1 n)), cell_lt H hH _⟩ ⟨cell W (y (ix1 n)), cell_lt W hW _⟩ q) := by
  unfold cornerV
  rw [gather_corner_apply hH hW wf g _ n q]
  have e0 : idxV hb0 hb1 hcat ew x y (ix2 n 0) = Ideal.fptosi 32 (x (ix1 n)) := by
    unfold idxV; rw [pair_left_apply]; exact colV_apply hb0 hb1 ew x n hx
  have e1 : idxV hb0 hb1 hcat ew x y (ix2 n 1) = Ideal.fptosi 32 (y (ix1 n)) := by
    unfold idxV; rw [pair_right_apply]; exact colV_apply hb0 hb1 ew y n hy
  refine congrArg g (funext fun a => ?_)
  match a with
  | ⟨0, _⟩ => exact Fin.ext (show min (idxV hb0 hb1 hcat ew x y (ix2 n 0)).toInt.toNat (H - 1) = cell H (x (ix1 n)) by rw [e0]; rfl)
  | ⟨1, _⟩ => exact Fin.ext (show min (idxV hb0 hb1 hcat ew x y (ix2 n 1)).toInt.toNat (W - 1) = cell W (y (ix1 n)) by rw [e1]; rfl)
  | ⟨2, _⟩ => rfl

/-- The four weighted corners at a point and a channel are the bilinear interpolation at the point's position, when
    the converted roundings of the position are not negative. -/
theorem blendV_apply (hH : 0 < H) (hW : 0 < W)
    (wf : GatherDims.WF ⟨3, ![H, W, C]⟩ SN2 ⟨2, ![100000, C]⟩ [1] [0, 1] [] [0, 1] [] 1 ![1, 1, C])
    (hbC : SN1.BroadcastsInDim ⟨2, ![100000, C]⟩ (![0, 1] : Fin SN1.rank → Fin (⟨2, ![100000, C]⟩ : Shape).rank))
    (g : FVec Ideal ⟨3, ![H, W, C]⟩ .f32) (ew : BitVec 32) (hs ws : FVec Ideal SN .f32) (n : Fin 100000) (q : Fin C)
    (h1 : 0 ≤ (Ideal.fptosi 32 (fl (hs (ix1 n)))).toInt) (h2 : 0 ≤ (Ideal.fptosi 32 (ce (hs (ix1 n)))).toInt)
    (h3 : 0 ≤ (Ideal.fptosi 32 (fl (ws (ix1 n)))).toInt) (h4 : 0 ≤ (Ideal.fptosi 32 (ce (ws (ix1 n)))).toInt) :
    blendV hb0 hb1 hcat (cornerDims H W C 100000 wf) hbC g ew hs ws (ix2 n q)
      = bilin hH hW (fun i j c => g (ix3 i j c)) (hs (ix1 n)) (ws (ix1 n)) q := by
  unfold blendV
  simp only [addf_apply, mulf_apply]
  rw [weightV_apply, weightV_apply, weightV_apply, weightV_apply,
    cornerV_apply hb0 hb1 hcat hH hW wf g ew (Host.floor hs) (Host.floor ws) n q h1 h3,
    cornerV_apply hb0 hb1 hcat hH hW wf g ew (Host.ceil hs) (Host.floor ws) n q h2 h3,
    cornerV_apply hb0 hb1 hcat hH hW wf g ew (Host.floor hs) (Host.ceil ws) n q h1 h4,
    cornerV_apply hb0 hb1 hcat hH hW wf g ew (Host.ceil hs) (Host.ceil ws) n q h2 h4]
  rfl

end

/-! ## A position is not negative, so neither are its converted roundings -/

/-- The converted floor of a position in cells of size at least 1 is not negative. -/
theorem fptosi_fl_nonneg {sw : BitVec 32} {s : ℝ} (hs : 1 ≤ s) (hsw : lit sw = (s : EReal)) (num z : EReal) :
    0 ≤ (Ideal.fptosi 32 (fl (Ideal.div (pix num z) (lit sw)))).toInt := by
  obtain ⟨r, h0, h1, hr⟩ := div_real (lt_of_lt_of_le one_pos hs) hsw num z
  have hr223 : r ≤ 223 := h1.trans (div_le_self (by norm_num) hs)
  have hlt : ⌊r⌋ < 2 ^ 31 := by
    have : (⌊r⌋ : ℝ) ≤ r := Int.floor_le r
    have h2 : (⌊r⌋ : ℝ) < 2 ^ 31 := by linarith [show (223 : ℝ) < 2 ^ 31 by norm_num]
    exact_mod_cast h2
  rw [hr, fl_coe, fptosi_int _ (Int.floor_nonneg.mpr h0) hlt]
  exact Int.floor_nonneg.mpr h0

/-- The converted ceiling of such a position is not negative. -/
theorem fptosi_ce_nonneg {sw : BitVec 32} {s : ℝ} (hs : 1 ≤ s) (hsw : lit sw = (s : EReal)) (num z : EReal) :
    0 ≤ (Ideal.fptosi 32 (ce (Ideal.div (pix num z) (lit sw)))).toInt := by
  obtain ⟨r, h0, h1, hr⟩ := div_real (lt_of_lt_of_le one_pos hs) hsw num z
  have hr223 : r ≤ 223 := h1.trans (div_le_self (by norm_num) hs)
  have hlt : ⌈r⌉ < 2 ^ 31 := by
    have : (⌈r⌉ : ℝ) < r + 1 := Int.ceil_lt_add_one r
    have h2 : (⌈r⌉ : ℝ) < 2 ^ 31 := by linarith [show (223 : ℝ) + 1 < 2 ^ 31 by norm_num]
    exact_mod_cast h2
  rw [hr, ce_coe, fptosi_int _ (Int.ceil_nonneg h0) hlt]
  exact Int.ceil_nonneg h0

/-! ## The level -/

section
variable (hb0 : S0.BroadcastsInDim SN (![] : Fin S0.rank → Fin SN.rank))
  (hb1 : SN.BroadcastsInDim SN1 (![0] : Fin SN.rank → Fin SN1.rank))
  (hsc : SN1.ShapeCasts SN)
  (hcat : Shape.Concatenates [SN1, SN1] SN2 1)
  (hsl0 : SN3.Slices ![0, 0] SN1) (hsl1 : SN3.Slices ![0, 1] SN1) (hsl2 : SN3.Slices ![0, 2] SN1)
variable {H W C : Nat}

/-- The row position of every point, read at a point: the specification's, from the point's Y and Z. -/
theorem hsV_apply (sw : BitVec 32) (a0 : FVec Ideal SN3 .f32) (n : Fin 100000) :
    posV hb0 sw (pixV hb0 (Host.negf (coordV hsc 1 hsl1 a0)) (coordV hsc 2 hsl2 a0)) (ix1 n)
      = hsOf sw (a0 (ix2 n 1)) (a0 (ix2 n 2)) := by
  rw [posV_apply, pixV_apply]
  show Ideal.div (pix (-(coordV hsc 1 hsl1 a0 (ix1 n))) (coordV hsc 2 hsl2 a0 (ix1 n))) (lit sw) = _
  rw [coordV_apply hsc 1 (by decide) hsl1 a0 n, coordV_apply hsc 2 (by decide) hsl2 a0 n]
  rfl

/-- The column position of every point, read at a point: the specification's, from the point's X and Z. -/
theorem wsV_apply (sw : BitVec 32) (a0 : FVec Ideal SN3 .f32) (n : Fin 100000) :
    posV hb0 sw (pixV hb0 (coordV hsc 0 hsl0 a0) (coordV hsc 2 hsl2 a0)) (ix1 n)
      = wsOf sw (a0 (ix2 n 0)) (a0 (ix2 n 2)) := by
  rw [posV_apply, pixV_apply, coordV_apply hsc 0 (by decide) hsl0 a0 n, coordV_apply hsc 2 (by decide) hsl2 a0 n]
  rfl

/-- ONE LEVEL OF THE REFERENCE IS THE SPECIFICATION'S LEVEL, for a map of any extent and a cell size that is a real
    at least 1. -/
theorem refLevel_eq (hH : 0 < H) (hW : 0 < W)
    (wf : GatherDims.WF ⟨3, ![H, W, C]⟩ SN2 ⟨2, ![100000, C]⟩ [1] [0, 1] [] [0, 1] [] 1 ![1, 1, C])
    (hbC : SN1.BroadcastsInDim ⟨2, ![100000, C]⟩ (![0, 1] : Fin SN1.rank → Fin (⟨2, ![100000, C]⟩ : Shape).rank))
    (sw ew : BitVec 32) {s : ℝ} (hs : 1 ≤ s) (hsw : lit sw = (s : EReal))
    (a0 : FVec Ideal SN3 .f32) (g : FVec Ideal ⟨3, ![H, W, C]⟩ .f32) :
    refLevel hb0 hb1 hsc hcat hsl0 hsl1 hsl2 (cornerDims H W C 100000 wf) hbC sw ew a0 g
      = level hH hW sw a0 (fun i j c => g (ix3 i j c)) := by
  funext j
  obtain ⟨n, q, rfl⟩ : ∃ (n : Fin 100000) (q : Fin C), j = ix2 n q := ⟨j 0, j 1, eq_ix2 j⟩
  unfold refLevel
  have e1 := hsV_apply hb0 hsc hsl1 hsl2 sw a0 n
  have e2 := wsV_apply hb0 hsc hsl0 hsl2 sw a0 n
  rw [blendV_apply hb0 hb1 hcat hH hW wf hbC g ew _ _ n q
    (by rw [e1]; exact fptosi_fl_nonneg hs hsw _ _) (by rw [e1]; exact fptosi_ce_nonneg hs hsw _ _)
    (by rw [e2]; exact fptosi_fl_nonneg hs hsw _ _) (by rw [e2]; exact fptosi_ce_nonneg hs hsw _ _), e1, e2]
  rfl

end

end Cert.Proj.Corner

end
-- ==== Proof.RefLevels.lean ====
/-
  The reference's result array is the specification's five-part concatenation.
  The reference ends by joining, along the feature axis, the points array itself and the four levels' results. Each
  level's result is the composition read in the level module at that level's map extent (56, 28, 14, 7), channel
  count (64, 128, 256, 512) and cell size (4, 8, 16, 32: each a real at least 1), hence the specification's level;
  the joining operation is left as it is, applied to equal operands.
-/
import proofs.«104525_j38852274160230_2_alg».proof.Proof.RefRun
import proofs.«104525_j38852274160230_2_alg».proof.Proof.RefLevel
import proofs.«104525_j38852274160230_2_alg».proof.Proof.Spec

noncomputable section

namespace Cert.ReferenceIdeal.RefValue

open Idealize.ShloMosaic Idealize.ShloMosaic.TcCoe Idealize.ShloMosaic.ValueIdx Idealize.SL.Sem Cert.ReferenceIdeal
  Cert.ReferenceIdeal.Gen Cert.Proj Cert.Proj.Corner

/-- Level 1: a 56 × 56 map of 64 channels, cells of size 4. -/
theorem level1 (a0 : FVec Ideal S100000x3 .f32) (g : FVec Ideal S56x56x64 .f32) :
    refLevel bcast_S_S100000 bcast_S100000_S100000x1_0 shapeCasts_S100000x1_S100000 concatenates_S100000x1_S100000x1_S100000x2_d1
        slices_S100000x3_S100000x1_0_0 slices_S100000x3_S100000x1_0_1 slices_S100000x3_S100000x1_0_2
        (cornerDims 56 56 64 100000 gather_S56x56x64_S100000x2_S100000x64_1_01_n_n_01_1_1164_wf) bcast_S100000x1_S100000x64_0_1
        0x40800000#32 56#32 a0 g
      = level (H := 56) (W := 56) (C := 64) (by decide) (by decide) 0x40800000#32 a0 (fun i j q => g (ix3 i j q)) :=
  refLevel_eq _ _ _ _ _ _ _ (by decide) (by decide) _ _ _ _ (s := 4) (by norm_num) lit_4 a0 g

/-- Level 2: a 28 × 28 map of 128 channels, cells of size 8. -/
theorem level2 (a0 : FVec Ideal S100000x3 .f32) (g : FVec Ideal S28x28x128 .f32) :
    refLevel bcast_S_S100000 bcast_S100000_S100000x1_0 shapeCasts_S100000x1_S100000 concatenates_S100000x1_S100000x1_S100000x2_d1
        slices_S100000x3_S100000x1_0_0 slices_S100000x3_S100000x1_0_1 slices_S100000x3_S100000x1_0_2
        (cornerDims 28 28 128 100000 gather_S28x28x128_S100000x2_S100000x128_1_01_n_n_01_1_11128_wf) bcast_S100000x1_S100000x128_0_1
        0x41000000#32 28#32 a0 g
      = level (H := 28) (W := 28) (C := 128) (by decide) (by decide) 0x41000000#32 a0 (fun i j q => g (ix3 i j q)) :=
  refLevel_eq _ _ _ _ _ _ _ (by decide) (by decide) _ _ _ _ (s := 8) (by norm_num) lit_8 a0 g

/-- Level 3: a 14 × 14 map of 256 channels, cells of size 16. -/
theorem level3 (a0 : FVec Ideal S100000x3 .f32) (g : FVec Ideal S14x14x256 .f32) :
    refLevel bcast_S_S100000 bcast_S100000_S100000x1_0 shapeCasts_S100000x1_S100000 concatenates_S100000x1_S100000x1_S100000x2_d1
        slices_S100000x3_S100000x1_0_0 slices_S100000x3_S100000x1_0_1 slices_S100000x3_S100000x1_0_2
        (cornerDims 14 14 256 100000 gather_S14x14x256_S100000x2_S100000x256_1_01_n_n_01_1_11256_wf) bcast_S100000x1_S100000x256_0_1
        0x41800000#32 14#32 a0 g
      = level (H := 14) (W := 14) (C := 256) (by decide) (by decide) 0x41800000#32 a0 (fun i j q => g (ix3 i j q)) :=
  refLevel_eq _ _ _ _ _ _ _ (by decide) (by decide) _ _ _ _ (s := 16) (by norm_num) lit_16 a0 g

/-- Level 4: a 7 × 7 map of 512 channels, cells of size 32. -/
theorem level4 (a0 : FVec Ideal S100000x3 .f32) (g : FVec Ideal S7x7x512 .f32) :
    refLevel bcast_S_S100000 bcast_S100000_S100000x1_0 shapeCasts_S100000x1_S100000 concatenates_S100000x1_S100000x1_S100000x2_d1
        slices_S100000x3_S100000x1_0_0 slices_S100000x3_S100000x1_0_1 slices_S100000x3_S100000x1_0_2
        (cornerDims 7 7 512 100000 gather_S7x7x512_S100000x2_S100000x512_1_01_n_n_01_1_11512_wf) bcast_S100000x1_S100000x512_0_1
        0x42000000#32 7#32 a0 g
      = level (H := 7) (W := 7) (C := 512) (by decide) (by decide) 0x42000000#32 a0 (fun i j q => g (ix3 i j q)) :=
  refLevel_eq _ _ _ _ _ _ _ (by decide) (by decide) _ _ _ _ (s := 32) (by norm_num) lit_32 a0 g

theorem result (m : (ℓ : Loc nD τ sig) → Buf (Elt Ideal) ℓ) (c : Dev nD) :
    Cert.ReferenceIdeal.Value.res_out0 (F := Ideal) m c
      = concatenate S100000x963 1
          [⟨S100000x3, m ((c.tc : Thread nD τ).loc main_arg0)⟩,
           ⟨S100000x64, level (H := 56) (W := 56) (C := 64) (by decide) (by decide) 0x40800000#32 (m ((c.tc : Thread nD τ).loc main_arg0)) (fun i j q => m ((c.tc : Thread nD τ).loc main_arg1) (ix3 i j q))⟩,
           ⟨S100000x128, level (H := 28) (W := 28) (C := 128) (by decide) (by decide) 0x41000000#32 (m ((c.tc : Thread nD τ).loc main_arg0)) (fun i j q => m ((c.tc : Thread nD τ).loc main_arg2) (ix3 i j q))⟩,
           ⟨S100000x256, level (H := 14) (W := 14) (C := 256) (by decide) (by decide) 0x41800000#32 (m ((c.tc : Thread nD τ).loc main_arg0)) (fun i j q => m ((c.tc : Thread nD τ).loc main_arg3) (ix3 i j q))⟩,
           ⟨S100000x512, level (H := 7) (W := 7) (C := 512) (by decide) (by decide) 0x42000000#32 (m ((c.tc : Thread nD τ).loc main_arg0)) (fun i j q => m ((c.tc : Thread nD τ).loc main_arg4) (ix3 i j q))⟩]
          concatenates_S100000x3_S100000x64_S100000x128_S100000x256_S100000x512_S100000x963_d1 := by
  rw [← level1 (m ((c.tc : Thread nD τ).loc main_arg0)) (m ((c.tc : Thread nD τ).loc main_arg1)),
    ← level2 (m ((c.tc : Thread nD τ).loc main_arg0)) (m ((c.tc : Thread nD τ).loc main_arg2)),
    ← level3 (m ((c.tc : Thread nD τ).loc main_arg0)) (m ((c.tc : Thread nD τ).loc main_arg3)),
    ← level4 (m ((c.tc : Thread nD τ).loc main_arg0)) (m ((c.tc : Thread nD τ).loc main_arg4))]
  rfl

end Cert.ReferenceIdeal.RefValue

end
-- ==== Proof.PreFinite.lean ====
/-
  What the precondition says of the feature maps: every entry is a real number.
  The printed predicate is the conjunction, over the five arguments, of "every |x| is below +∞" (each a reduction by
  AND of the comparison bits). Read at the extended reals: |x| = max x (−x) < ⊤ excludes both infinities, so x is a real.
-/
import proofs.«104525_j38852274160230_2_alg».proof.Pre_finite_inputs
import proofs.«104525_j38852274160230_2_alg».proof.Proof.Gen.Pre_finite_inputs
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

noncomputable section

namespace Cert.Pre_finite_inputs.Decode

open Idealize.ShloMosaic Idealize.ShloMosaic.ValueIdx Cert.Pre_finite_inputs

instance : Subsingleton S_.Idx := ⟨fun a b => funext fun d => d.elim0⟩

/-- An extended real whose absolute value is below +∞ is a real. -/
theorem real_of_abs_lt_top (x : EReal) (h : max x (-x) < ⊤) : ∃ r : ℝ, x = (r : EReal) := by
  induction x using EReal.rec with
  | bot => simp at h
  | top => simp at h
  | coe r => exact ⟨r, rfl⟩

/-- One comparison bit of the predicate, read. -/
theorem real_of_bit {S : Shape} (a : FVec Ideal S .f32) (hb : S_.BroadcastsInDim S (![] : Fin 0 → Fin S.rank)) (j : S.Idx)
    (h : cmpf CmpFPredicate.olt (Host.absf a) (broadcastInDim S ![] hb (constant (F := Ideal) S_ .f32 0x7F800000#32)) j = 1#1) :
    ∃ r : ℝ, a j = (r : EReal) := by
  apply real_of_abs_lt_top
  have h' : Ideal.cmp CmpFPredicate.olt (max (a j) (-(a j))) (Ideal.ofBits .f32 0x7F800000#32) = 1#1 := h
  have htop : Ideal.ofBits .f32 0x7F800000#32 = ⊤ := by simp [Ideal.ofBits, Ideal.ieee]
  rw [htop] at h'
  by_contra hlt
  simp [Ideal.cmp, hlt] at h'

/-- From the predicate all ones: every entry of each feature map is a real. -/
theorem maps_real [Facts] (a0 : FVec Ideal S100000x3 .f32) (a1 : FVec Ideal S56x56x64 .f32) (a2 : FVec Ideal S28x28x128 .f32)
    (a3 : FVec Ideal S14x14x256 .f32) (a4 : FVec Ideal S7x7x512 .f32)
    (h : fn (F := Ideal) a0 a1 a2 a3 a4 = fun _ => 1#1) :
    (∀ j, ∃ r : ℝ, a1 j = (r : EReal)) ∧ (∀ j, ∃ r : ℝ, a2 j = (r : EReal))
      ∧ (∀ j, ∃ r : ℝ, a3 j = (r : EReal)) ∧ (∀ j, ∃ r : ℝ, a4 j = (r : EReal)) := by
  have h0 := congrFun h ix0
  dsimp only [fn, fn_part1] at h0
  obtain ⟨h0123, e4⟩ := IntOp.andi_eq_one.mp h0
  obtain ⟨h012, e3⟩ := IntOp.andi_eq_one.mp h0123
  obtain ⟨h01, e2⟩ := IntOp.andi_eq_one.mp h012
  obtain ⟨_, e1⟩ := IntOp.andi_eq_one.mp h01
  exact ⟨fun j => real_of_bit a1 _ j (Host.reduce_andi_all _ _ _ _ ix0 e1 j),
    fun j => real_of_bit a2 _ j (Host.reduce_andi_all _ _ _ _ ix0 e2 j),
    fun j => real_of_bit a3 _ j (Host.reduce_andi_all _ _ _ _ ix0 e3 j),
    fun j => real_of_bit a4 _ j (Host.reduce_andi_all _ _ _ _ ix0 e4 j)⟩

end Cert.Pre_finite_inputs.Decode

end
-- ==== Proof.lean ====
/-
  Kernel ≡ reference for a multi-scale bilinear projection of 100000 points onto four feature maps.
  Both programs compute, per point, the clipped pixel (h, w) of its perspective projection and, for each map of H×W
  cells, the bilinear interpolation at (h/s, w/s). The reference gathers the four corner cells and adds the four
  weighted rows; the kernel, 200 points at a time, multiplies a 200×(H·W) matrix holding the four weights at the
  corners' flat positions by the map read as a table [H·W, C]. On the extended reals the two are one function when
  every map entry is a real (the precondition): the sum over the table's rows of (sum of four one-hot weights)·row
  distributes into the four weighted rows, the one-hot positions i·W + j name the cells (i, j) the gather's clamped
  indices name, and both programs end by joining the coordinates with the four level arrays.
  The three frames: each kernel program is four reshapes, one pipelined region and the final concatenation, run
  point by point from the body's triple; the reference is a straight line of host operations.
-/
import proofs.«104525_j38852274160230_2_alg».proof.Defs
import proofs.«104525_j38852274160230_2_alg».proof.Proof.Gen.Kernel
import proofs.«104525_j38852274160230_2_alg».proof.Proof.Gen.KernelIdeal
import proofs.«104525_j38852274160230_2_alg».proof.Proof.Gen.ReferenceIdeal
import proofs.«104525_j38852274160230_2_alg».proof.Proof.Gen.Pre_finite_inputs
import proofs.«104525_j38852274160230_2_alg».proof.Proof.FrameK
import proofs.«104525_j38852274160230_2_alg».proof.Proof.KerRun
import proofs.«104525_j38852274160230_2_alg».proof.Proof.KerLevels
import proofs.«104525_j38852274160230_2_alg».proof.Proof.RefLevels
import proofs.«104525_j38852274160230_2_alg».proof.Proof.PreFinite
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs, faults nowhere, and leaves its arguments as launched. -/
theorem frame_k [hKernel : Cert.Kernel.Facts] [hPre : Cert.Pre_finite_inputs.Facts] : Cert.frame_Kernel :=
  fun m ρ _ => Cert.Kernel.Hand.frame m ρ

/-- So does its idealization. -/
theorem frame_ki [hKernelIdeal : Cert.KernelIdeal.Facts] [hPre : Cert.Pre_finite_inputs.Facts] : Cert.frame_KernelIdeal :=
  fun m ρ _ => Cert.KernelIdeal.Hand.frame m ρ

/-- The reference is host operations only: its run, with the result dropped. -/
theorem frame_ri [hReferenceIdeal : Cert.ReferenceIdeal.Facts] [hPre : Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the extended reals, from memories agreeing on the arguments, both programs end at the specification's array:
    the kernel by its value run (its four stored blocks read as interpolations over the tables' rows, the map entries
    reals by the precondition), the reference by its run read level by level. -/
theorem algebraic [hKernelIdeal : Cert.KernelIdeal.Facts] [hReferenceIdeal : Cert.ReferenceIdeal.Facts] [hPre : Cert.Pre_finite_inputs.Facts] :
    Cert.algebraic_KernelIdeal_ReferenceIdeal := by
  intro m ρ m' ρ' hpre hagree
  have hf : ∀ c : Dev Cert.KernelIdeal.nD, _ := fun c => Cert.Pre_finite_inputs.Decode.maps_real _ _ _ _ _ (hpre c)
  refine ⟨fun c => Cert.KernelIdeal.ArrValue.result m c,
    Cert.KernelIdeal.ArrValue.kernel_run m ρ
      (fun x0 x1 h p q => Cert.KernelIdeal.KerValue.lvl1_apply x0 x1 h p q)
      (fun x0 x1 h p q => Cert.KernelIdeal.KerValue.lvl2_apply x0 x1 h p q)
      (fun x0 x1 h p q => Cert.KernelIdeal.KerValue.lvl3_apply x0 x1 h p q)
      (fun x0 x1 h p q => Cert.KernelIdeal.KerValue.lvl4_apply x0 x1 h p q) hf, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result m' c).trans ?_
  rw [(hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
